-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S32x256 : Shape := ⟨2, ![32, 256]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x256 .f32) (main_arg1 : FVec F S32x256 .f32) (main_arg2 : FVec F S256x256 .f32) (main_arg3 : FVec F S256 .f32) (main_arg4 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S8192x256 : Shape := ⟨2, ![8192, 256]⟩
abbrev S32x256 : Shape := ⟨2, ![32, 256]⟩
abbrev S256x256 : Shape := ⟨2, ![256, 256]⟩
abbrev S256 : Shape := ⟨1, ![256]⟩
abbrev S1 : Shape := ⟨1, ![1]⟩
abbrev S256x32 : Shape := ⟨2, ![256, 32]⟩
abbrev S1x256 : Shape := ⟨2, ![1, 256]⟩
abbrev S1x1 : Shape := ⟨2, ![1, 1]⟩
abbrev S8192x32 : Shape := ⟨2, ![8192, 32]⟩
abbrev S1024x256 : Shape := ⟨2, ![1024, 256]⟩
abbrev S1024x32 : Shape := ⟨2, ![1024, 32]⟩
abbrev S8192x1 : Shape := ⟨2, ![8192, 1]⟩
abbrev S1024x1 : Shape := ⟨2, ![1024, 1]⟩
abbrev S1024x1024 : Shape := ⟨2, ![1024, 1024]⟩
abbrev S1024 : Shape := ⟨1, ![1024]⟩
abbrev S1x8192 : Shape := ⟨2, ![1, 8192]⟩
abbrev S1x1024 : Shape := ⟨2, ![1, 1024]⟩

abbrev nBuf : Space → Nat
  | .hbm => 14
  | .vmem => 31
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S256x256, .f32⟩
  | .hbm, ⟨3, _⟩ => ⟨S256, .f32⟩
  | .hbm, ⟨4, _⟩ => ⟨S1, .f32⟩
  | .hbm, ⟨5, _⟩ => ⟨S256x32, .f32⟩
  | .hbm, ⟨6, _⟩ => ⟨S256x256, .f32⟩
  | .hbm, ⟨7, _⟩ => ⟨S1x256, .f32⟩
  | .hbm, ⟨8, _⟩ => ⟨S1x1, .f32⟩
  | .hbm, ⟨9, _⟩ => ⟨S8192x32, .bf16⟩
  | .hbm, ⟨10, _⟩ => ⟨S8192x256, .bf16⟩
  | .hbm, ⟨11, _⟩ => ⟨S8192x1, .f32⟩
  | .hbm, ⟨12, _⟩ => ⟨S1x8192, .f32⟩
  | .hbm, ⟨13, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x32, .f32⟩
  | .local _ .vmem, ⟨3, _⟩ => ⟨S256x256, .f32⟩
  | .local _ .vmem, ⟨4, _⟩ => ⟨S1x256, .f32⟩
  | .local _ .vmem, ⟨5, _⟩ => ⟨S1024x32, .bf16⟩
  | .local _ .vmem, ⟨6, _⟩ => ⟨S1024x32, .bf16⟩
  | .local _ .vmem, ⟨7, _⟩ => ⟨S1024x256, .bf16⟩
  | .local _ .vmem, ⟨8, _⟩ => ⟨S1024x256, .bf16⟩
  | .local _ .vmem, ⟨9, _⟩ => ⟨S1024x32, .bf16⟩
  | .local _ .vmem, ⟨10, _⟩ => ⟨S1024x32, .bf16⟩
  | .local _ .vmem, ⟨11, _⟩ => ⟨S1024x32, .bf16⟩
  | .local _ .vmem, ⟨12, _⟩ => ⟨S1024x32, .bf16⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1x1, .f32⟩
  | .local _ .vmem, ⟨18, _⟩ => ⟨S1024x32, .bf16⟩
  | .local _ .vmem, ⟨19, _⟩ => ⟨S1024x32, .bf16⟩
  | .local _ .vmem, ⟨20, _⟩ => ⟨S1024x32, .bf16⟩
  | .local _ .vmem, ⟨21, _⟩ => ⟨S1024x32, .bf16⟩
  | .local _ .vmem, ⟨22, _⟩ => ⟨S1024x256, .bf16⟩
  | .local _ .vmem, ⟨23, _⟩ => ⟨S1024x256, .bf16⟩
  | .local _ .vmem, ⟨24, _⟩ => ⟨S1x1024, .f32⟩
  | .local _ .vmem, ⟨25, _⟩ => ⟨S1x1024, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_16 : BitVec 32 := 0#32
  let v31 : BitVec 1 := Scalar.cmpi .ne v30 c0_i32_16
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x32 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  transposes_S32x256_S256x32_1_0 : S32x256.Transposes [1, 0] S256x32
  transposes_S256x256_S256x256_1_0 : S256x256.Transposes [1, 0] S256x256
  shapeCasts_S256_S1x256 : S256.ShapeCasts S1x256
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x32_S1024x32_0_0 : ∀ a, (![0, 0] : Fin 2 → Nat) a + S1024x32.size a ≤ S1024x32.size a
  h_S1024x32 : 0 < S1024x32.numel
  packedbf16_S1024x32_S1024x32_0_0 : (Rect.unit (s := S1024x32) ![0, 0] S1024x32.size inb_S1024x32_S1024x32_0_0).PackedRows (EltTy.packing .bf16)
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x32_S1024x32 : S1024x32.ShapeCasts S1024x32
  reduces_S1024x1024_S1024 : S1024x1024.Reduces [1] S1024
  shapeCasts_S1024_S1024x1 : S1024.ShapeCasts S1024x1
  broadcasts_S1024x1_S1024x1024 : S1024x1.Broadcasts S1024x1024
  transposes_S8192x1_S1x8192_1_0 : S8192x1.Transposes [1, 0] S1x8192
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S1024x256_S256x32_S1024x32_1_0_0_1_n_n_wf : DotDims.WF S1024x256 S256x32 S1024x32 [1] [0] [0] [1] [] []
  dot_S1024x256_S256x256_S1024x256_1_0_0_1_n_n_wf : DotDims.WF S1024x256 S256x256 S1024x256 [1] [0] [0] [1] [] []
  dot_S1024x32_S1024x32_S1024x1024_1_1_0_0_n_n_wf : DotDims.WF S1024x32 S1024x32 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S8192x32.size a
  hwx0_4 : ∀ i : grid0.Coords, EltTy.bits .bf16 = 32 ∨ (Rect.block (s := S8192x32) S1024x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S8192x32.size a
  hwx1_0 : ∀ i : grid1.Coords, EltTy.bits .bf16 = 32 ∨ (Rect.block (s := S8192x32) S1024x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S8192x32.size a
  hwx1_1 : ∀ i : grid1.Coords, EltTy.bits .bf16 = 32 ∨ (Rect.block (s := S8192x32) S1024x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S8192x32.size a
  hwx2_1 : ∀ i : grid2.Coords, EltTy.bits .bf16 = 32 ∨ (Rect.block (s := S8192x32) S1024x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x32.size a ≤ S8192x32.size a
  hwx2_2 : ∀ i : grid2.Coords, EltTy.bits .bf16 = 32 ∨ (Rect.block (s := S8192x32) S1024x32.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .bf16 = 32 ∨ (Rect.block (s := S8192x256) S1024x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x8192.size a
  hwx2_4 : ∀ i : grid2.Coords, EltTy.bits .f32 = 32 ∨ (Rect.block (s := S1x8192) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x256.size a ≤ S8192x256.size a
  hwx2_5 : ∀ i : grid2.Coords, EltTy.bits .f32 = 32 ∨ (Rect.block (s := S8192x256) S1024x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x256.size a ≤ S8192x256.size a
  hwx2_6 : ∀ i : grid2.Coords, EltTy.bits .f32 = 32 ∨ (Rect.block (s := S8192x256) S1024x256.size (cc2_transform_6 i) (hinb2_6 i)).WholeWords (EltTy.packing .f32)

variable [Facts₀]

def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1024x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S1024x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4_1) S1024x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S1024x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1024x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S32x256 : Shape := ⟨2, ![32, 256]⟩
abbrev S256x256 : Shape := ⟨2, ![256, 256]⟩
abbrev S256 : Shape := ⟨1, ![256]⟩
abbrev S1 : Shape := ⟨1, ![1]⟩
abbrev S256x32 : Shape := ⟨2, ![256, 32]⟩
abbrev S8192x32 : Shape := ⟨2, ![8192, 32]⟩
abbrev S32x8192 : Shape := ⟨2, ![32, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S32x256, .f32⟩
  | .hbm, ⟨2, _⟩ => ⟨S256x256, .f32⟩
  | .hbm, ⟨3, _⟩ => ⟨S256, .f32⟩
  | .hbm, ⟨4, _⟩ => ⟨S1, .f32⟩
  | .hbm, ⟨5, _⟩ => ⟨S256x32, .f32⟩
  | .hbm, ⟨6, _⟩ => ⟨S8192x32, .f32⟩
  | .hbm, ⟨7, _⟩ => ⟨S32x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S256x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192x256, .f32⟩
  | .hbm, ⟨31, _⟩ => ⟨S8192x256, .f32⟩
  | .hbm, ⟨32, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  transposes_S32x256_S256x32_1_0 : S32x256.Transposes [1, 0] S256x32
  transposes_S8192x32_S32x8192_1_0 : S8192x32.Transposes [1, 0] S32x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S1_S_ : S1.ShapeCasts S_
  bcast_S_S8192x256 : S_.BroadcastsInDim S8192x256 (![] : Fin 0 → Fin S8192x256.rank)
  dot_S8192x256_S256x32_S8192x32_1_0_0_1_n_n_wf : DotDims.WF S8192x256 S256x32 S8192x32 [1] [0] [0] [1] [] []
  dot_S8192x32_S32x8192_S8192x8192_1_0_0_1_n_n_wf : DotDims.WF S8192x32 S32x8192 S8192x8192 [1] [0] [0] [1] [] []
  dot_S8192x256_S256x256_S8192x256_1_0_0_1_n_n_wf : DotDims.WF S8192x256 S256x256 S8192x256 [1] [0] [0] [1] [] []
  dot_S8192x8192_S8192x256_S8192x256_0_0_1_1_n_n_wf : DotDims.WF S8192x8192 S8192x256 S8192x256 [0] [0] [1] [1] [] []

variable [Facts₀]

def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_0_0_1_1_n_n : DotDims S8192x8192 S8192x256 S8192x256 where
  lhsContracting := [0]
  rhsContracting := [0]
  lhsNonContracting := [1]
  rhsNonContracting := [1]
  lhsBatch := []
  rhsBatch := []
  wf := dot_S8192x8192_S8192x256_S8192x256_0_0_1_1_n_n_wf

class Facts : Prop extends Facts₀ where

variable [Facts]
-- ==== Proof.K.Region0.lean ====
/-
  Region 0 of the program (the projection kernel on a grid of 8 row blocks): the proof data of its pipeline and
  the body's triple.  The body reads a block of 1024 rows of the features and the whole transposed weight
  matrices and bias row, and writes the block's rows of q = f·Wqkᵀ and of v = f·Wvᵀ + bv.  Nothing is carried
  between grid points.  Everything is stated at a parameter `V`, the contents of the core's buffers when the
  region is entered, and at any float instance.
-/
import proofs.«135495_j36636071035186_1_alg».proof.Proof.Gen.Kernel.Launch
import proofs.«135495_j36636071035186_1_alg».proof.Proof.Gen.Kernel.Skeleton
import proofs.«135495_j36636071035186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rF : Rect S1024x256 := Rect.unit (s := S1024x256) ![0, 0] S1024x256.size inb_S1024x256_S1024x256_0_0
abbrev rWq : Rect S256x32 := Rect.unit (s := S256x32) ![0, 0] S256x32.size inb_S256x32_S256x32_0_0
abbrev rWv : Rect S256x256 := Rect.unit (s := S256x256) ![0, 0] S256x256.size inb_S256x256_S256x256_0_0
abbrev rB : Rect S1x256 := Rect.unit (s := S1x256) ![0, 0] S1x256.size inb_S1x256_S1x256_0_0
abbrev rQ : Rect S1024x32 := Rect.unit (s := S1024x32) ![0, 0] S1024x32.size inb_S1024x32_S1024x32_0_0

/-- The q block the body leaves: the product of the feature block with the transposed q/k weights. -/
def out0_4 (x0 : Vec F S1024x256 .f32) (x1 : Vec F S256x32 .f32) : Vec F S1024x32 .bf16 :=
  View.canon [⟨rQ, k0_pay2 (View.ld x0 rF) (View.ld x1 rWq)⟩]
/-- The v block the body leaves: the product of the feature block with the transposed value weights, plus the bias row. -/
def out0_5 (x0 : Vec F S1024x256 .f32) (x2 : Vec F S256x256 .f32) (x3 : Vec F S1x256 .f32) : Vec F S1024x256 .bf16 :=
  View.canon [⟨rF, k0_pay3 (View.ld x0 rF) (View.ld x2 rWv) (View.ld x3 rB)⟩]

theorem cover0_4 (p0 : Vec F S1024x32 .bf16) (y : S1024x32.Idx) :
    ∃ pc ∈ ([⟨rQ, p0⟩] : List (View.Piece (Elt F) S1024x32 .bf16)), y ∈ pc.1.set :=
  View.cover_of_tiled [⟨rQ, p0⟩] S1024x32.size (by rfl) y
theorem cover0_5 (p0 : Vec F S1024x256 .bf16) (y : S1024x256.Idx) :
    ∃ pc ∈ ([⟨rF, p0⟩] : List (View.Piece (Elt F) S1024x256 .bf16)), y ∈ pc.1.set :=
  View.cover_of_tiled [⟨rF, p0⟩] S1024x256.size (by rfl) y

set_option maxHeartbeats 1000000 in
/-- The body on whole staging buffers: the inputs are kept, the outputs end at `out0_4` and `out0_5` of the inputs. -/
theorem sound_kernel0 (c : Dev nD) (E : Set ℕ) (i : grid0.Coords)
    (arg1 : Memref sig .tc .vmem S1024x256 .f32) (harg1 : arg1.IsWhole) (arg2 : Memref sig .tc .vmem S256x32 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1024x32 .bf16) (harg5 : arg5.IsWhole) (arg6 : Memref sig .tc .vmem S1024x256 .bf16) (harg6 : arg6.IsWhole)
    (x0 : Vec F S1024x256 .f32) (x1 : Vec F S256x32 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1)
            ∗ owns (c : Thread nD τ) arg6 fullShare (out0_5 x0 x2 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The proof data -/

/-- The proof data of pipeline 0 on core `c`: the arrays as the region finds them; after the body each input's buffer
    at its block and each output's at the body's result on the input blocks; nothing kept between points beyond the
    scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/-
  Region 1 of the program (the softmax statistics on a grid of 8 row blocks by 8 column blocks), first half: the
  body's three control cases run on whole staging buffers.  At the first column block the running maximum and
  running sum are reset (to -inf and 0) before use; at every block the block of energies q_i·q_jᵀ updates them;
  at the last column block the row block's log-sum-exp  m + log l  is stored into the output.  The pieces each
  buffer ends with are found by the run.
-/
import proofs.«135495_j36636071035186_1_alg».proof.Proof.Gen.Kernel.Launch
import proofs.«135495_j36636071035186_1_alg».proof.Proof.Gen.Kernel.Skeleton
import proofs.«135495_j36636071035186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first column block: the statistics are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last column block: the log-sum-exp is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 2000000 in
/-- First column block (and not the last): the statistics are reset, then updated; the output is left as found. -/
noncomputable def kernelRun1_A (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x32 .bf16) (x1 : Vec F S1024x32 .bf16) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 2000000 in
/-- A middle column block: the statistics are updated from what the block before left; the output is left as found. -/
noncomputable def kernelRun1_B (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x32 .bf16) (x1 : Vec F S1024x32 .bf16) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 2000000 in
/-- The last column block: the statistics are updated and the log-sum-exp is stored into the output. -/
noncomputable def kernelRun1_C (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x32 .bf16) (x1 : Vec F S1024x32 .bf16) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.K.Region1.lean ====
/-
  Region 1 of the program (the softmax statistics), second half: what the running maximum, the running sum and the
  output block hold after each grid point (a recursion over the points: reset at the first column block, updated from
  the point before otherwise, the log-sum-exp stored at the last column block), the proof data of the pipeline, and
  the body obligation.
-/
import proofs.«135495_j36636071035186_1_alg».proof.Proof.K.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is called with -/

abbrev ms1_0 (t : Fin cfg1.N) : Memref sig .tc .vmem S1024x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The running maximum's and the running sum's buffers. -/
abbrev scM1_0 : Memref sig .tc .vmem S1024x1 .f32 := Memref.whole cc1_scratch0
abbrev scM1_1 : Memref sig .tc .vmem S1024x1 .f32 := Memref.whole cc1_scratch1

/-- The scoped buffers that are neither a staging buffer of this call nor its two statistics buffers. -/
abbrev restBut1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

/-! ## What each case leaves -/

theorem scover1_A_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i) (x0 x1 : Vec F S1024x32 .bf16) (y : S1024x1.Idx) :
    ∃ pc ∈ (kernelRun1_A c i arg2 harg2 arg3 harg3 arg4 harg4 arg5 harg5 arg6 harg6 hc0 hc1 x0 x1).2.1, y ∈ pc.1.set :=
  View.cover_of_tiledL _ S1024x1.size (by sl_kernel_rfl) y
theorem scover1_A_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i) (x0 x1 : Vec F S1024x32 .bf16) (y : S1024x1.Idx) :
    ∃ pc ∈ (kernelRun1_A c i arg2 harg2 arg3 harg3 arg4 harg4 arg5 harg5 arg6 harg6 hc0 hc1 x0 x1).2.2.1, y ∈ pc.1.set :=
  View.cover_of_tiledL _ S1024x1.size (by sl_kernel_rfl) y
theorem scover1_B_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i) (x0 x1 : Vec F S1024x32 .bf16) (xs0 xs1 : Vec F S1024x1 .f32) (y : S1024x1.Idx) :
    ∃ pc ∈ (kernelRun1_B c i arg2 harg2 arg3 harg3 arg4 harg4 arg5 harg5 arg6 harg6 hc0 hc1 x0 x1 xs0 xs1).2.1, y ∈ pc.1.set :=
  View.cover_of_tiledL _ S1024x1.size (by sl_kernel_rfl) y
theorem scover1_B_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i) (x0 x1 : Vec F S1024x32 .bf16) (xs0 xs1 : Vec F S1024x1 .f32) (y : S1024x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL _ S1024x1.size (by sl_kernel_rfl) y
theorem cover1_C_2 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).1, y ∈ pc.1.set :=
  View.cover_of_tiledL _ S1024x1.size (by sl_kernel_rfl) y
theorem scover1_C_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).2.1, y ∈ pc.1.set :=
  View.cover_of_tiledL _ S1024x1.size (by sl_kernel_rfl) y
theorem scover1_C_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL _ S1024x1.size (by sl_kernel_rfl) y

/-- After a first column block: (output: not stored, a placeholder), the running maximum, the running sum. -/
def stepA1 (c : Dev nD) (t : Fin cfg1.N) (h0 : t.val % 8 = 0) (h1 : ¬t.val % 8 = 7) : Vec F S1024x1 .f32 × Vec F S1024x1 .f32 × Vec F S1024x1 .f32 :=
  (View.canon [],
   View.canon (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1,
   View.canon (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.1)
/-- After a middle column block, from the statistics `p` the block before left. -/
def stepB1 (c : Dev nD) (t : Fin cfg1.N) (h0 : ¬t.val % 8 = 0) (h1 : ¬t.val % 8 = 7) (p : Vec F S1024x1 .f32 × Vec F S1024x1 .f32) : Vec F S1024x1 .f32 × Vec F S1024x1 .f32 × Vec F S1024x1 .f32 :=
  (View.canon [],
   View.canon (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2).2.1,
   View.canon (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2).2.2.1)
/-- After the last column block, from the statistics `p` the block before left: the stored log-sum-exp too. -/
def stepC1 (c : Dev nD) (t : Fin cfg1.N) (h0 : ¬t.val % 8 = 0) (h1 : t.val % 8 = 7) (p : Vec F S1024x1 .f32 × Vec F S1024x1 .f32) : Vec F S1024x1 .f32 × Vec F S1024x1 .f32 × Vec F S1024x1 .f32 :=
  (View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).1,
   View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).2.1,
   View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).2.2.1)

/-- What the output's staging buffer, the running maximum and the running sum hold after the body at position `n`. -/
def outsAt1 (c : Dev nD) : (n : ℕ) → n < cfg1.N → Vec F S1024x1 .f32 × Vec F S1024x1 .f32 × Vec F S1024x1 .f32
  | 0, hn => stepA1 V c ⟨0, hn⟩ (Nat.zero_mod _) (show ¬ ((0 : ℕ) % 8 = 7) from by decide)
  | n + 1, hn =>
    if h0 : (n + 1) % 8 = 0 then
      if h1 : (n + 1) % 8 = 7 then False.elim (by omega)
      else stepA1 V c ⟨n + 1, hn⟩ h0 h1
    else
      if h1 : (n + 1) % 8 = 7 then stepC1 V c ⟨n + 1, hn⟩ h0 h1 (outsAt1 c n (Nat.lt_of_succ_lt hn)).2
      else stepB1 V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = stepA1 V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the two statistics
    buffers at what the point before left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ restBut1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ restBut1 c) ∗ (∃ r, prngReg c r)) := by
  cases n with
  | zero => exact absurd rfl hz
  | succ n => rfl

/-! ## The proof data -/

/-- The proof data of pipeline 1 on core `c`.  Both input windows read the one array of q rows, each at half the
    full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold stepA1; (try dsimp only)
    have hin : (dat1 V c).Φ t.castSucc ⊢ (iprop(iprop(iprop((∃ d, owns (c : Thread nD τ) scM1_0 fullShare d) ∗ (∃ d, owns (c : Thread nD τ) scM1_1 fullShare d)) ∗ restBut1 c) ∗ (∃ r, prngReg c r)) : sProp 𝕄) := by
      by_cases hz : t.val = 0
      · rw [PhiS1_castSucc V c t, PhiS1_zero V c _ _ hz, PhiA1_eq]; try exact .rfl
      · rw [PhiS1_castSucc V c t, PhiS1_pos V c _ _ hz]
        iintro ⟨⟨⟨HS0, HS1⟩, Hr⟩, Hg⟩
        isplitl [HS0 HS1 Hr]
        · isplitl [HS0 HS1]
          · isplitl [HS0]; · iexists _; iexact HS0
            iexists _; iexact HS1
          iexact Hr
        iexact Hg
    iintro ⟨HΦ, Ho, ⟨%d0, H0⟩, ⟨%d1, H1⟩, ⟨%d2, H2⟩⟩
    ihave HΦ' := hin $$ HΦ
    icases HΦ' with ⟨⟨⟨HS0, HS1⟩, Hr⟩, Hg⟩
    iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_eq_canon _ _ _ (scover1_A_0 c _ _ _ _ _ _ _ _ _ _ _ _ _ _ _)
          unfold owns; iexists _; isplitr
          swap; · iexact HS1
          ipureintro; exact View.read_writes_eq_canon _ _ _ (scover1_A_1 c _ _ _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_eq_canon _ _ _ (scover1_C_0 c _ _ _ _ _ _ _ _ _ _ _ _ _ _ _ _ _)
            unfold owns; iexists _; isplitr
            swap; · iexact HS1
            ipureintro; exact View.read_writes_eq_canon _ _ _ (scover1_C_1 c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_eq_canon _ _ _ (cover1_C_2 c _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_eq_canon _ _ _ (scover1_B_0 c _ _ _ _ _ _ _ _ _ _ _ _ _ _ _ _ _)
            unfold owns; iexists _; isplitr
            swap; · iexact HS1
            ipureintro; exact View.read_writes_eq_canon _ _ _ (scover1_B_1 c _ _ _ _ _ _ _ _ _ _ _ _ _ _ _ _ _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the statistics' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Cert.Kernel.Hand

end
-- ==== Proof.K.Region2Runs.lean ====
/-
  Region 2 of the program (the output pass on a grid of 8 output row blocks by 8 contracted row blocks), first
  half: the body's three control cases run on whole staging buffers.  At the first contracted block the accumulator
  is zeroed before use; at every block it gains  exp(q_j·q_iᵀ − lse_i)·v_i ; at the last block  γ·acc + f_j  is
  stored into the output.  The pieces each buffer ends with are found by the run.
-/
import proofs.«135495_j36636071035186_1_alg».proof.Proof.Gen.Kernel.Launch
import proofs.«135495_j36636071035186_1_alg».proof.Proof.Gen.Kernel.Skeleton
import proofs.«135495_j36636071035186_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first contracted block: the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The last contracted block: the output is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

set_option maxHeartbeats 2000000 in
/-- First contracted block (and not the last): the accumulator is zeroed, then gains the block's term; the output is
    left as found. -/
noncomputable def kernelRun2_A (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : cond2_0 i) (hc1 : ¬cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨[], ?_, fun xi6 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- A middle contracted block: the accumulator gains the block's term; the output is left as found. -/
noncomputable def kernelRun2_B (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : ¬cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨[], ?_, fun xi6 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- The last contracted block: the accumulator gains the block's term and the output row block is stored. -/
noncomputable def kernelRun2_C (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Region2.lean ====
/-
  Region 2 of the program (the output pass), second half: what the output block and the accumulator hold after each
  grid point (zeroed at the first contracted block, grown from the point before otherwise, the output stored at the
  last contracted block), the proof data of the pipeline, and the body obligation.
-/
import proofs.«135495_j36636071035186_1_alg».proof.Proof.K.Region2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The buffers the body is called with -/

abbrev ms2_0 (t : Fin cfg2.N) : Memref sig .tc .vmem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x256 .f32 := win2_6.stage (cfg2.slots t 6)
abbrev hs2_6 (t : Fin cfg2.N) : (ms2_6 t).IsWhole := hstage2_6 ((cfg2.slots t 6).cast nbuf2_6)
/-- The accumulator's buffer. -/
abbrev scM2_0 : Memref sig .tc .vmem S1024x256 .f32 := Memref.whole cc2_scratch0

/-- The scoped buffers that are neither a staging buffer of this call nor its accumulator. -/
abbrev restBut2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut2 c) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

/-! ## What each case leaves -/

theorem scover2_A_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : cond2_0 i) (hc1 : ¬cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (y : S1024x256.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL _ S1024x256.size (by sl_kernel_rfl) y
theorem scover2_B_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : ¬cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL _ S1024x256.size (by sl_kernel_rfl) y
theorem cover2_C_6 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL _ S1024x256.size (by sl_kernel_rfl) y
theorem scover2_C_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL _ S1024x256.size (by sl_kernel_rfl) y

/-- After a first contracted block: (output: not stored, a placeholder), the accumulator. -/
def stepA2 (c : Dev nD) (t : Fin cfg2.N) (h0 : t.val % 8 = 0) (h1 : ¬t.val % 8 = 7) : Vec F S1024x256 .f32 × Vec F S1024x256 .f32 :=
  (View.canon [],
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.1)
/-- After a middle contracted block, from the accumulator `p` the block before left. -/
def stepB2 (c : Dev nD) (t : Fin cfg2.N) (h0 : ¬t.val % 8 = 0) (h1 : ¬t.val % 8 = 7) (p : Vec F S1024x256 .f32) : Vec F S1024x256 .f32 × Vec F S1024x256 .f32 :=
  (View.canon [],
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p).2.1)
/-- After the last contracted block, from the accumulator `p` the block before left: the stored output too. -/
def stepC2 (c : Dev nD) (t : Fin cfg2.N) (h0 : ¬t.val % 8 = 0) (h1 : t.val % 8 = 7) (p : Vec F S1024x256 .f32) : Vec F S1024x256 .f32 × Vec F S1024x256 .f32 :=
  (View.canon (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p).1,
   View.canon (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p).2.1)

/-- What the output's staging buffer and the accumulator hold after the body at position `n`. -/
def outsAt2 (c : Dev nD) : (n : ℕ) → n < cfg2.N → Vec F S1024x256 .f32 × Vec F S1024x256 .f32
  | 0, hn => stepA2 V c ⟨0, hn⟩ (Nat.zero_mod _) (show ¬ ((0 : ℕ) % 8 = 7) from by decide)
  | n + 1, hn =>
    if h0 : (n + 1) % 8 = 0 then
      if h1 : (n + 1) % 8 = 7 then False.elim (by omega)
      else stepA2 V c ⟨n + 1, hn⟩ h0 h1
    else
      if h1 : (n + 1) % 8 = 7 then stepC2 V c ⟨n + 1, hn⟩ h0 h1 (outsAt2 c n (Nat.lt_of_succ_lt hn)).2
      else stepB2 V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = stepA2 V c t h0 h1 := by
  obtain ⟨n, hn⟩ := t
  cases n with
  | zero => exact rfl
  | succ n => exact (dif_pos h0).trans ((dif_neg h1).trans rfl)
theorem outsAt2_B (c : Dev nD) (t : Fin cfg2.N) (h0 : ¬t.val % 8 = 0) (h1 : ¬t.val % 8 = 7) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the accumulator at
    what the point before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The proof data -/

/-- The proof data of pipeline 2 on core `c`.  Windows 1 and 2 read the one array of q rows, each at half the full
    share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 64 := lt_of_lt_of_eq t.isLt (show cfg2.N = 64 from N_2)
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold stepA2; (try dsimp only)
    have hin : (dat2 V c).Φ t.castSucc ⊢ (iprop(iprop((∃ d, owns (c : Thread nD τ) scM2_0 fullShare d) ∗ restBut2 c) ∗ (∃ r, prngReg c r)) : sProp 𝕄) := by
      by_cases hz : t.val = 0
      · rw [PhiS2_castSucc V c t, PhiS2_zero V c _ _ hz, PhiA2_eq]; try exact .rfl
      · rw [PhiS2_castSucc V c t, PhiS2_pos V c _ _ hz]
        iintro ⟨⟨HS0, Hr⟩, Hg⟩
        isplitl [HS0 Hr]
        · isplitl [HS0]; · iexists _; iexact HS0
          iexact Hr
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hin $$ HΦ
    icases HΦ' with ⟨⟨HS0, Hr⟩, Hg⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 Hr Hg]
    · isplitl [HS0 Hr]
      · isplitl [HS0]
        · unfold owns; iexists _; isplitr
          swap; · iexact HS0
          ipureintro; exact View.read_writes_eq_canon _ _ _ (scover2_A_0 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun h => h0 (by rw [h])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold stepC2; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_eq_canon _ _ _ (scover2_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover2_C_6 c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold stepB2; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_eq_canon _ _ _ (scover2_B_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hr⟩, Hg⟩
  isplitl [HS0 Hr]
  · isplitl [HS0]; · iexists _; iexact HS0
    iexact Hr
  iexact Hg

end Cert.Kernel.Hand

end
-- ==== Proof.K.RunA.lean ====
/-
  The run of the whole program: the contents of the core's buffers at every boundary between a stretch of host
  operations and a kernel region, each region as a segment entered from the state the segment before it left (its
  arrays split out of the held buffers and put back at what the region's write-backs leave), and the launch.  The
  post: every unscoped buffer ends at the last boundary's contents.  Regions 1 and 2 read the q rows through two
  windows each: the array's full share is split in two halves at entry and joined again at exit.
-/
import proofs.«135495_j36636071035186_1_alg».proof.Proof.K.Region0
import proofs.«135495_j36636071035186_1_alg».proof.Proof.K.Region1
import proofs.«135495_j36636071035186_1_alg».proof.Proof.K.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the q rows and the v rows at what its write-backs leave. -/
def W2 (c : Dev nD) : Valuation τ sig (Elt F) :=
  Function.update (Function.update (W1 m ρ c) (Proc.devRef .tc main_v4_0) ((dat0 (V1 m ρ) c).arrAt 4 cfg0.N))
    (Proc.devRef .tc main_v4_1) ((dat0 (V1 m ρ) c).arrAt 5 cfg0.N)
abbrev V2 : (c : Dev nD) → (b : Ref sig .tc) → Buf (Elt F) ((c : Thread nD τ).loc b) := fun c b => W2 m ρ c b
/-- After region 1: the log-sum-exp column at what its write-backs leave. -/
def W3 (c : Dev nD) : Valuation τ sig (Elt F) :=
  Function.update (W2 m ρ c) (Proc.devRef .tc main_v5) ((dat1 (V2 m ρ) c).arrAt 2 cfg1.N)
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: the result at what its write-backs leave. -/
def W5 (c : Dev nD) : Valuation τ sig (Elt F) :=
  Function.update (W4 m ρ c) (Proc.devRef .tc main_v7) ((dat2 (V4 m ρ) c).arrAt 6 cfg2.N)
abbrev V5 : (c : Dev nD) → (b : Ref sig .tc) → Buf (Elt F) ((c : Thread nD τ).loc b) := fun c b => W5 m ρ c b

theorem W2_v4_0 (c : Dev nD) : W2 m ρ c (Proc.devRef .tc main_v4_0) = (dat0 (V1 m ρ) c).arrAt 4 cfg0.N := by
  unfold W2; rw [Function.update_of_ne (StableHlo.devRef_ne_of_ne (by decide)), Function.update_self]
theorem W2_v4_1 (c : Dev nD) : W2 m ρ c (Proc.devRef .tc main_v4_1) = (dat0 (V1 m ρ) c).arrAt 5 cfg0.N := by
  unfold W2; rw [Function.update_self]
theorem W2_of_ne (c : Dev nD) (b : Ref sig .tc) (h0 : b ≠ main_v4_0) (h1 : b ≠ main_v4_1) :
    W2 m ρ c (Proc.devRef .tc b) = W1 m ρ c (Proc.devRef .tc b) := by
  unfold W2; rw [Function.update_of_ne (StableHlo.devRef_ne_of_ne h1), Function.update_of_ne (StableHlo.devRef_ne_of_ne h0)]
theorem W3_v5 (c : Dev nD) : W3 m ρ c (Proc.devRef .tc main_v5) = (dat1 (V2 m ρ) c).arrAt 2 cfg1.N := by
  unfold W3; rw [Function.update_self]
theorem W3_of_ne (c : Dev nD) (b : Ref sig .tc) (h : b ≠ main_v5) :
    W3 m ρ c (Proc.devRef .tc b) = W2 m ρ c (Proc.devRef .tc b) := by
  unfold W3; rw [Function.update_of_ne (StableHlo.devRef_ne_of_ne h)]
theorem W5_v7 (c : Dev nD) : W5 m ρ c (Proc.devRef .tc main_v7) = (dat2 (V4 m ρ) c).arrAt 6 cfg2.N := by
  unfold W5; rw [Function.update_self]
theorem W5_of_ne (c : Dev nD) (b : Ref sig .tc) (h : b ≠ main_v7) :
    W5 m ρ c (Proc.devRef .tc b) = W4 m ρ c (Proc.devRef .tc b) := by
  unfold W5; rw [Function.update_of_ne (StableHlo.devRef_ne_of_ne h)]

theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c _ (by decide) (by decide)).symm)
  | ⟨1, _⟩ => ((dat0 (V1 m ρ) c).arrAt_in 1 rfl _).trans ((A_eq0 (V1 m ρ) c 1).trans (W2_of_ne m ρ c _ (by decide) (by decide)).symm)
  | ⟨2, _⟩ => ((dat0 (V1 m ρ) c).arrAt_in 2 rfl _).trans ((A_eq0 (V1 m ρ) c 2).trans (W2_of_ne m ρ c _ (by decide) (by decide)).symm)
  | ⟨3, _⟩ => ((dat0 (V1 m ρ) c).arrAt_in 3 rfl _).trans ((A_eq0 (V1 m ρ) c 3).trans (W2_of_ne m ρ c _ (by decide) (by decide)).symm)
  | ⟨4, _⟩ => (W2_v4_0 m ρ c).symm
  | ⟨5, _⟩ => (W2_v4_1 m ρ c).symm
theorem hrest0 (c : Dev nD) : ∀ b, b ∉ Finset.univ.image (Pipeline.arrRef spec0) → V2 m ρ c b = V1 m ρ c b :=
  fun b hb => W2_of_ne m ρ c b (fun e => hb (Finset.mem_image.mpr ⟨4, Finset.mem_univ _, e.symm⟩)) (fun e => hb (Finset.mem_image.mpr ⟨5, Finset.mem_univ _, e.symm⟩))

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## An array read through two windows: its full share split in halves and joined again -/

theorem himg1 : Finset.univ.image (Pipeline.arrRef spec1) = {main_v4_0, main_v5} := by decide
theorem himg2 : Finset.univ.image (Pipeline.arrRef spec2) = {main_v3, main_v4_0, main_v4_1, main_v6, main_arg0, main_v7} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4_0) ↦{fullShare} V main_v4_0) ∗ (((c : Thread nD τ).loc main_v5) ↦{fullShare} V main_v5)) := by
  unfold Pipeline.arrBufs
  exact Idealize.SL.BI.bigSep_eq_bigSepL_of_eq [main_v4_0, main_v5] (by decide) (by decide) _
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v4_0) ↦{fullShare} V main_v4_0)
          ∗ (((c : Thread nD τ).loc main_v4_1) ↦{fullShare} V main_v4_1) ∗ (((c : Thread nD τ).loc main_v6) ↦{fullShare} V main_v6)
          ∗ (((c : Thread nD τ).loc main_arg0) ↦{fullShare} V main_arg0) ∗ (((c : Thread nD τ).loc main_v7) ↦{fullShare} V main_v7)) := by
  unfold Pipeline.arrBufs
  exact Idealize.SL.BI.bigSep_eq_bigSepL_of_eq [main_v3, main_v4_0, main_v4_1, main_v6, main_arg0, main_v7] (by decide) (by decide) _

theorem arrays1_intro (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq]; unfold Dat.arrays
  rw [bigSep_W1, (arr_whole1 0).set_eq_univ,
    (arr_whole1 2).set_eq_univ, h0, h1, h2, hG 0, hG 1, hG 2]
  iintro ⟨Hq, Ho⟩
  ihave Hq' := (pointsTo_share (PosShare.mem_left_op_right fullShare)).1 $$ Hq
  icases Hq' with ⟨Hl, Hr⟩
  isplitl [Hl]; · iexact Hl
  isplitl [Hr]; · iexact Hr
  iexact Ho

theorem arrays1_elim (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  rw [arrBufs1_eq]; unfold Dat.arrays
  rw [bigSep_W1, (arr_whole1 0).set_eq_univ,
    (arr_whole1 2).set_eq_univ, h0, h1, h2, hG 0, hG 1, hG 2]
  iintro ⟨Hl, Hr, Ho⟩
  isplitl [Hl Hr]
  · iapply (pointsTo_share (PosShare.mem_left_op_right fullShare)).2
    isplitl [Hl]; · iexact Hl
    iexact Hr
  iexact Ho

end Cert.Kernel.Hand

end
-- ==== Proof.K.RunB.lean ====
/-
  The run of the whole program, second part: the three regions as segments over the thread state "every unscoped
  buffer at the boundary's contents, the generator register at some state, nothing owed", @main as the list of its
  segments, and the launch: every weakly fair execution terminates and every unscoped buffer ends at the last
  boundary's contents.
-/
import proofs.«135495_j36636071035186_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrays2_intro (c : Dev nD) (dat : Dat τ (Elt F) Unit ℕ (UR sig nD τ) ℕ cfg2 c)
    (h0 : dat.share 0 = fullShare) (h1 : dat.share 1 = fullShare.left) (h2 : dat.share 2 = fullShare.right) (h3 : dat.share 3 = fullShare)
    (h4 : dat.share 4 = fullShare) (h5 : dat.share 5 = fullShare) (h6 : dat.share 6 = fullShare)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  rw [arrBufs2_eq]; unfold Dat.arrays
  rw [bigSep_W2, (arr_whole2 0).set_eq_univ, (arr_whole2 1).set_eq_univ, (arr_whole2 3).set_eq_univ, (arr_whole2 4).set_eq_univ,
    (arr_whole2 5).set_eq_univ, (arr_whole2 6).set_eq_univ, h0, h1, h2, h3, h4, h5, h6, hG 0, hG 1, hG 2, hG 3, hG 4, hG 5, hG 6]
  iintro ⟨H3, Hq, Hv, H6, Ha, H7⟩
  ihave Hq' := (pointsTo_share (PosShare.mem_left_op_right fullShare)).1 $$ Hq
  icases Hq' with ⟨Hl, Hr⟩
  isplitl [H3]; · iexact H3
  isplitl [Hl]; · iexact Hl
  isplitl [Hr]; · iexact Hr
  isplitl [Hv]; · iexact Hv
  isplitl [H6]; · iexact H6
  isplitl [Ha]; · iexact Ha
  iexact H7

theorem arrays2_elim (c : Dev nD) (dat : Dat τ (Elt F) Unit ℕ (UR sig nD τ) ℕ cfg2 c)
    (h0 : dat.share 0 = fullShare) (h1 : dat.share 1 = fullShare.left) (h2 : dat.share 2 = fullShare.right) (h3 : dat.share 3 = fullShare)
    (h4 : dat.share 4 = fullShare) (h5 : dat.share 5 = fullShare) (h6 : dat.share 6 = fullShare)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  rw [arrBufs2_eq]; unfold Dat.arrays
  rw [bigSep_W2, (arr_whole2 0).set_eq_univ, (arr_whole2 1).set_eq_univ, (arr_whole2 3).set_eq_univ, (arr_whole2 4).set_eq_univ,
    (arr_whole2 5).set_eq_univ, (arr_whole2 6).set_eq_univ, h0, h1, h2, h3, h4, h5, h6, hG 0, hG 1, hG 2, hG 3, hG 4, hG 5, hG 6]
  iintro ⟨H3, Hl, Hr, Hv, H6, Ha, H7⟩
  isplitl [H3]; · iexact H3
  isplitl [Hl Hr]
  · iapply (pointsTo_share (PosShare.mem_left_op_right fullShare)).2
    isplitl [Hl]; · iexact Hl
    iexact Hr
  isplitl [Hv]; · iexact Hv
  isplitl [H6]; · iexact H6
  isplitl [Ha]; · iexact Ha
  iexact H7

/-- What region 1 leaves in each of its arrays is the next boundary's contents: the q rows as entered, the column
    at what the write-backs leave. -/
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c _ (by decide)).symm)
  | ⟨1, _⟩ => ((dat1 (V2 m ρ) c).arrAt_in 1 rfl _).trans ((A_eq1 (V2 m ρ) c 1).trans (W3_of_ne m ρ c _ (by decide)).symm)
  | ⟨2, _⟩ => (W3_v5 m ρ c).symm
theorem hrest1 (c : Dev nD) : ∀ b, b ∉ Finset.univ.image (Pipeline.arrRef spec1) → V3 m ρ c b = V2 m ρ c b :=
  fun b hb => W3_of_ne m ρ c b (fun e => hb (Finset.mem_image.mpr ⟨2, Finset.mem_univ _, e.symm⟩))
theorem hF2 (c : Dev nD) : ∀ w : Fin cfg2.W, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_of_ne m ρ c _ (by decide)).symm)
  | ⟨1, _⟩ => ((dat2 (V4 m ρ) c).arrAt_in 1 rfl _).trans ((A_eq2 (V4 m ρ) c 1).trans (W5_of_ne m ρ c _ (by decide)).symm)
  | ⟨2, _⟩ => ((dat2 (V4 m ρ) c).arrAt_in 2 rfl _).trans ((A_eq2 (V4 m ρ) c 2).trans (W5_of_ne m ρ c _ (by decide)).symm)
  | ⟨3, _⟩ => ((dat2 (V4 m ρ) c).arrAt_in 3 rfl _).trans ((A_eq2 (V4 m ρ) c 3).trans (W5_of_ne m ρ c _ (by decide)).symm)
  | ⟨4, _⟩ => ((dat2 (V4 m ρ) c).arrAt_in 4 rfl _).trans ((A_eq2 (V4 m ρ) c 4).trans (W5_of_ne m ρ c _ (by decide)).symm)
  | ⟨5, _⟩ => ((dat2 (V4 m ρ) c).arrAt_in 5 rfl _).trans ((A_eq2 (V4 m ρ) c 5).trans (W5_of_ne m ρ c _ (by decide)).symm)
  | ⟨6, _⟩ => (W5_v7 m ρ c).symm
theorem hrest2 (c : Dev nD) : ∀ b, b ∉ Finset.univ.image (Pipeline.arrRef spec2) → V5 m ρ c b = V4 m ρ c b :=
  fun b hb => W5_of_ne m ρ c b (fun e => hb (Finset.mem_image.mpr ⟨6, Finset.mem_univ _, e.symm⟩))

/-- The unscoped rest off a region's arrays does not see a change of the arrays. -/
theorem unscopedRest_congr {gr W : Nat} (win : Fin W → Pipeline.WinSpec sig gr) (c : Dev nD) (V V' : (b : Ref sig .tc) → Buf (Elt F) ((c : Thread nD τ).loc b))
    (hrest : ∀ b, b ∉ Finset.univ.image (Pipeline.arrRef win) → V' b = V b) :
    (Pipeline.unscopedRest (Ix := Unit) (Name := ℕ) (U := UR sig nD τ) (Lvl := ℕ) win c V : sProp 𝕄) = Pipeline.unscopedRest win c V' := by
  unfold Pipeline.unscopedRest
  exact bigSep_congr fun b hb => by rw [hrest b (Finset.mem_sdiff.mp hb).2]

theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl
theorem share2_0 (V : (c : Dev nD) → (b : Ref sig .tc) → Buf (Elt F) ((c : Thread nD τ).loc b)) (c : Dev nD) : (dat2 V c).share 0 = fullShare := rfl
theorem share2_1 (V : (c : Dev nD) → (b : Ref sig .tc) → Buf (Elt F) ((c : Thread nD τ).loc b)) (c : Dev nD) : (dat2 V c).share 1 = fullShare.left := rfl
theorem share2_2 (V : (c : Dev nD) → (b : Ref sig .tc) → Buf (Elt F) ((c : Thread nD τ).loc b)) (c : Dev nD) : (dat2 V c).share 2 = fullShare.right := rfl
theorem share2_3 (V : (c : Dev nD) → (b : Ref sig .tc) → Buf (Elt F) ((c : Thread nD τ).loc b)) (c : Dev nD) : (dat2 V c).share 3 = fullShare := rfl
theorem share2_4 (V : (c : Dev nD) → (b : Ref sig .tc) → Buf (Elt F) ((c : Thread nD τ).loc b)) (c : Dev nD) : (dat2 V c).share 4 = fullShare := rfl
theorem share2_5 (V : (c : Dev nD) → (b : Ref sig .tc) → Buf (Elt F) ((c : Thread nD τ).loc b)) (c : Dev nD) : (dat2 V c).share 5 = fullShare := rfl
theorem share2_6 (V : (c : Dev nD) → (b : Ref sig .tc) → Buf (Elt F) ((c : Thread nD τ).loc b)) (c : Dev nD) : (dat2 V c).share 6 = fullShare := rfl

set_option backward.isDefEq.respectTransparency.types false in
theorem entry1 (c : Dev nD) : (unscopedBufs (Ix := Unit) (Name := ℕ) (U := UR sig nD τ) (Lvl := ℕ) c (V2 m ρ c) : sProp 𝕄)
    ⊢ iprop((dat1 (V2 m ρ) c).arrays ((dat1 (V2 m ρ) c).arrAt · 0) ∗ Pipeline.unscopedRest spec1 c (V2 m ρ c)) := by
  rw [Pipeline.unscopedBufs_split₀ (Pipeline.pin (pcfgs (F := F)) adm) 1 winFacts₀1.arr_unscoped c (V2 m ρ c)]
  exact sep_mono (arrays1_intro c (dat1 (V2 m ρ) c) (share1_0 _ c) (share1_1 _ c) (share1_2 _ c) (V2 m ρ c) _ (fun _ => rfl)) .rfl
set_option backward.isDefEq.respectTransparency.types false in
theorem exit1 (c : Dev nD) : iprop((dat1 (V2 m ρ) c).arrays ((dat1 (V2 m ρ) c).arrAt · cfg1.N) ∗ Pipeline.unscopedRest spec1 c (V2 m ρ c))
    ⊢ (unscopedBufs (Ix := Unit) (Name := ℕ) (U := UR sig nD τ) (Lvl := ℕ) c (V3 m ρ c) : sProp 𝕄) := by
  rw [Pipeline.unscopedBufs_split₀ (Pipeline.pin (pcfgs (F := F)) adm) 1 winFacts₀1.arr_unscoped c (V3 m ρ c),
    unscopedRest_congr spec1 c (V2 m ρ c) (V3 m ρ c) (hrest1 m ρ c)]
  exact sep_mono (arrays1_elim c (dat1 (V2 m ρ) c) (share1_0 _ c) (share1_1 _ c) (share1_2 _ c) (V3 m ρ c) ((dat1 (V2 m ρ) c).arrAt · cfg1.N) (hF1 m ρ c)) .rfl
set_option backward.isDefEq.respectTransparency.types false in
theorem entry2 (c : Dev nD) : (unscopedBufs (Ix := Unit) (Name := ℕ) (U := UR sig nD τ) (Lvl := ℕ) c (V4 m ρ c) : sProp 𝕄)
    ⊢ iprop((dat2 (V4 m ρ) c).arrays ((dat2 (V4 m ρ) c).arrAt · 0) ∗ Pipeline.unscopedRest spec2 c (V4 m ρ c)) := by
  rw [Pipeline.unscopedBufs_split₀ (Pipeline.pin (pcfgs (F := F)) adm) 2 winFacts₀2.arr_unscoped c (V4 m ρ c)]
  exact sep_mono (arrays2_intro c (dat2 (V4 m ρ) c) (share2_0 _ c) (share2_1 _ c) (share2_2 _ c) (share2_3 _ c) (share2_4 _ c) (share2_5 _ c) (share2_6 _ c) (V4 m ρ c) _ (fun _ => rfl)) .rfl
set_option backward.isDefEq.respectTransparency.types false in
set_option maxHeartbeats 1600000 in
theorem exit2 (c : Dev nD) : iprop((dat2 (V4 m ρ) c).arrays ((dat2 (V4 m ρ) c).arrAt · cfg2.N) ∗ Pipeline.unscopedRest spec2 c (V4 m ρ c))
    ⊢ (unscopedBufs (Ix := Unit) (Name := ℕ) (U := UR sig nD τ) (Lvl := ℕ) c (V5 m ρ c) : sProp 𝕄) := by
  rw [Pipeline.unscopedBufs_split₀ (Pipeline.pin (pcfgs (F := F)) adm) 2 winFacts₀2.arr_unscoped c (V5 m ρ c),
    unscopedRest_congr spec2 c (V4 m ρ c) (V5 m ρ c) (hrest2 m ρ c)]
  exact sep_mono (arrays2_elim c (dat2 (V4 m ρ) c) (share2_0 _ c) (share2_1 _ c) (share2_2 _ c) (share2_3 _ c) (share2_4 _ c) (share2_5 _ c) (share2_6 _ c) (V5 m ρ c) ((dat2 (V4 m ρ) c).arrAt · cfg2.N) (hF2 m ρ c)) .rfl

set_option backward.isDefEq.respectTransparency.types false in
/-- REGION 0 (the projections): entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the softmax statistics): entered at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs (Ix := Unit) (Name := ℕ) (U := UR sig nD τ) (Lvl := ℕ) c (V3 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the output pass): entered at `W4`, left at `W5` (what the launch reads at the end). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs (Ix := Unit) (Name := ℕ) (U := UR sig nD τ) (Lvl := ℕ) c (V5 m ρ c) : sProp 𝕄) := exit2 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.K.Frame.lean ====
/-
  The frame of the program: no host operation and no region writes an argument array, so each ends as launched.
-/
import proofs.«135495_j36636071035186_1_alg».proof.Proof.K.RunB
import proofs.«135495_j36636071035186_1_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer neither host stretch writes and no region changes ends at its launch contents. -/
theorem W5_kept (c : Dev nD) (r : Ref sig .tc) (h7 : r ≠ main_v7) (hh2 : r ∉ hostOps2_W) (h5 : r ≠ main_v5)
    (h40 : r ≠ main_v4_0) (h41 : r ≠ main_v4_1) (hh0 : r ∉ hostOps0_W) :
    W5 m ρ c (Proc.devRef .tc r) = m ((c : Thread nD τ).loc r) :=
  (W5_of_ne m ρ c r h7).trans <| (StableHlo.after_of_writes_sub hostOps2 _ hostOps2_writes hh2).trans <|
    (W3_of_ne m ρ c r h5).trans <| (W2_of_ne m ρ c r h40 h41).trans <| (StableHlo.after_of_writes_sub hostOps0 _ hostOps0_writes hh0).trans rfl

/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_kept m ρ c main_arg0 (by decide) (by decide) (by decide) (by decide) (by decide) (by decide)),
     (h c _ (mem_uc main_arg1 (by decide))).trans (W5_kept m ρ c main_arg1 (by decide) (by decide) (by decide) (by decide) (by decide) (by decide)),
     (h c _ (mem_uc main_arg2 (by decide))).trans (W5_kept m ρ c main_arg2 (by decide) (by decide) (by decide) (by decide) (by decide) (by decide)),
     (h c _ (mem_uc main_arg3 (by decide))).trans (W5_kept m ρ c main_arg3 (by decide) (by decide) (by decide) (by decide) (by decide) (by decide)),
     (h c _ (mem_uc main_arg4 (by decide))).trans (W5_kept m ρ c main_arg4 (by decide) (by decide) (by decide) (by decide) (by decide) (by decide))⟩)
    (run m ρ)

end Cert.Kernel.Hand

end
-- ==== Proof.KI.Region0.lean ====
/-
  Region 0 of the program (the projection kernel on a grid of 8 row blocks): the proof data of its pipeline and
  the body's triple.  The body reads a block of 1024 rows of the features and the whole transposed weight
  matrices and bias row, and writes the block's rows of q = f·Wqkᵀ and of v = f·Wvᵀ + bv.  Nothing is carried
  between grid points.  Everything is stated at a parameter `V`, the contents of the core's buffers when the
  region is entered, and at any float instance.
-/
import proofs.«135495_j36636071035186_1_alg».proof.Proof.Gen.KernelIdeal.Launch
import proofs.«135495_j36636071035186_1_alg».proof.Proof.Gen.KernelIdeal.Skeleton
import proofs.«135495_j36636071035186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rF : Rect S1024x256 := Rect.unit (s := S1024x256) ![0, 0] S1024x256.size inb_S1024x256_S1024x256_0_0
abbrev rWq : Rect S256x32 := Rect.unit (s := S256x32) ![0, 0] S256x32.size inb_S256x32_S256x32_0_0
abbrev rWv : Rect S256x256 := Rect.unit (s := S256x256) ![0, 0] S256x256.size inb_S256x256_S256x256_0_0
abbrev rB : Rect S1x256 := Rect.unit (s := S1x256) ![0, 0] S1x256.size inb_S1x256_S1x256_0_0
abbrev rQ : Rect S1024x32 := Rect.unit (s := S1024x32) ![0, 0] S1024x32.size inb_S1024x32_S1024x32_0_0

/-- The q block the body leaves: the product of the feature block with the transposed q/k weights. -/
def out0_4 (x0 : Vec F S1024x256 .f32) (x1 : Vec F S256x32 .f32) : Vec F S1024x32 .bf16 :=
  View.canon [⟨rQ, k0_pay2 (View.ld x0 rF) (View.ld x1 rWq)⟩]
/-- The v block the body leaves: the product of the feature block with the transposed value weights, plus the bias row. -/
def out0_5 (x0 : Vec F S1024x256 .f32) (x2 : Vec F S256x256 .f32) (x3 : Vec F S1x256 .f32) : Vec F S1024x256 .bf16 :=
  View.canon [⟨rF, k0_pay3 (View.ld x0 rF) (View.ld x2 rWv) (View.ld x3 rB)⟩]

theorem cover0_4 (p0 : Vec F S1024x32 .bf16) (y : S1024x32.Idx) :
    ∃ pc ∈ ([⟨rQ, p0⟩] : List (View.Piece (Elt F) S1024x32 .bf16)), y ∈ pc.1.set :=
  View.cover_of_tiled [⟨rQ, p0⟩] S1024x32.size (by rfl) y
theorem cover0_5 (p0 : Vec F S1024x256 .bf16) (y : S1024x256.Idx) :
    ∃ pc ∈ ([⟨rF, p0⟩] : List (View.Piece (Elt F) S1024x256 .bf16)), y ∈ pc.1.set :=
  View.cover_of_tiled [⟨rF, p0⟩] S1024x256.size (by rfl) y

set_option maxHeartbeats 1000000 in
/-- The body on whole staging buffers: the inputs are kept, the outputs end at `out0_4` and `out0_5` of the inputs. -/
theorem sound_kernel0 (c : Dev nD) (E : Set ℕ) (i : grid0.Coords)
    (arg1 : Memref sig .tc .vmem S1024x256 .f32) (harg1 : arg1.IsWhole) (arg2 : Memref sig .tc .vmem S256x32 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S1024x32 .bf16) (harg5 : arg5.IsWhole) (arg6 : Memref sig .tc .vmem S1024x256 .bf16) (harg6 : arg6.IsWhole)
    (x0 : Vec F S1024x256 .f32) (x1 : Vec F S256x32 .f32) (x2 : Vec F S256x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1)
            ∗ owns (c : Thread nD τ) arg6 fullShare (out0_5 x0 x2 x3)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The proof data -/

/-- The proof data of pipeline 0 on core `c`: the arrays as the region finds them; after the body each input's buffer
    at its block and each output's at the body's result on the input blocks; nothing kept between points beyond the
    scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/-
  Region 1 of the program (the softmax statistics on a grid of 8 row blocks by 8 column blocks), first half: the
  body's three control cases run on whole staging buffers.  At the first column block the running maximum and
  running sum are reset (to -inf and 0) before use; at every block the block of energies q_i·q_jᵀ updates them;
  at the last column block the row block's log-sum-exp  m + log l  is stored into the output.  The pieces each
  buffer ends with are found by the run.
-/
import proofs.«135495_j36636071035186_1_alg».proof.Proof.Gen.KernelIdeal.Launch
import proofs.«135495_j36636071035186_1_alg».proof.Proof.Gen.KernelIdeal.Skeleton
import proofs.«135495_j36636071035186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first column block: the statistics are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The last column block: the log-sum-exp is stored. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

set_option maxHeartbeats 2000000 in
/-- First column block (and not the last): the statistics are reset, then updated; the output is left as found. -/
noncomputable def kernelRun1_A (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i)
    (x0 : Vec F S1024x32 .bf16) (x1 : Vec F S1024x32 .bf16) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 2000000 in
/-- A middle column block: the statistics are updated from what the block before left; the output is left as found. -/
noncomputable def kernelRun1_B (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i)
    (x0 : Vec F S1024x32 .bf16) (x1 : Vec F S1024x32 .bf16) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨[], ?_, ?_, fun xi2 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

set_option maxHeartbeats 2000000 in
/-- The last column block: the statistics are updated and the log-sum-exp is stored into the output. -/
noncomputable def kernelRun1_C (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i)
    (x0 : Vec F S1024x32 .bf16) (x1 : Vec F S1024x32 .bf16) (xs0 : Vec F S1024x1 .f32) (xs1 : Vec F S1024x1 .f32) :
    Σ' (L2 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg2 harg2 arg3 harg3 arg4 harg4 arg5 harg5 arg6 harg6) K } := by
  refine ⟨?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KI.Region1.lean ====
/-
  Region 1 of the program (the softmax statistics), second half: what the running maximum, the running sum and the
  output block hold after each grid point (a recursion over the points: reset at the first column block, updated from
  the point before otherwise, the log-sum-exp stored at the last column block), the proof data of the pipeline, and
  the body obligation.
-/
import proofs.«135495_j36636071035186_1_alg».proof.Proof.KI.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is called with -/

abbrev ms1_0 (t : Fin cfg1.N) : Memref sig .tc .vmem S1024x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The running maximum's and the running sum's buffers. -/
abbrev scM1_0 : Memref sig .tc .vmem S1024x1 .f32 := Memref.whole cc1_scratch0
abbrev scM1_1 : Memref sig .tc .vmem S1024x1 .f32 := Memref.whole cc1_scratch1

/-- The scoped buffers that are neither a staging buffer of this call nor its two statistics buffers. -/
abbrev restBut1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ restBut1 c) ∗ (∃ r, prngReg c r)) := by
  unfold Pipeline.ΦA; rw [scopedRest1_split]; simp only [scM1_0, scM1_1, owns_whole]; try rfl

/-! ## What each case leaves -/

theorem scover1_A_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i) (x0 x1 : Vec F S1024x32 .bf16) (y : S1024x1.Idx) :
    ∃ pc ∈ (kernelRun1_A c i arg2 harg2 arg3 harg3 arg4 harg4 arg5 harg5 arg6 harg6 hc0 hc1 x0 x1).2.1, y ∈ pc.1.set :=
  View.cover_of_tiledL _ S1024x1.size (by sl_kernel_rfl) y
theorem scover1_A_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : cond1_0 i) (hc1 : ¬cond1_1 i) (x0 x1 : Vec F S1024x32 .bf16) (y : S1024x1.Idx) :
    ∃ pc ∈ (kernelRun1_A c i arg2 harg2 arg3 harg3 arg4 harg4 arg5 harg5 arg6 harg6 hc0 hc1 x0 x1).2.2.1, y ∈ pc.1.set :=
  View.cover_of_tiledL _ S1024x1.size (by sl_kernel_rfl) y
theorem scover1_B_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i) (x0 x1 : Vec F S1024x32 .bf16) (xs0 xs1 : Vec F S1024x1 .f32) (y : S1024x1.Idx) :
    ∃ pc ∈ (kernelRun1_B c i arg2 harg2 arg3 harg3 arg4 harg4 arg5 harg5 arg6 harg6 hc0 hc1 x0 x1 xs0 xs1).2.1, y ∈ pc.1.set :=
  View.cover_of_tiledL _ S1024x1.size (by sl_kernel_rfl) y
theorem scover1_B_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : ¬cond1_1 i) (x0 x1 : Vec F S1024x32 .bf16) (xs0 xs1 : Vec F S1024x1 .f32) (y : S1024x1.Idx) :
    ∃ pc ∈ (kernelRun1_B c i arg2 harg2 arg3 harg3 arg4 harg4 arg5 harg5 arg6 harg6 hc0 hc1 x0 x1 xs0 xs1).2.2.1, y ∈ pc.1.set :=
  View.cover_of_tiledL _ S1024x1.size (by sl_kernel_rfl) y
theorem cover1_C_2 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).1, y ∈ pc.1.set :=
  View.cover_of_tiledL _ S1024x1.size (by sl_kernel_rfl) y
theorem scover1_C_0 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).2.1, y ∈ pc.1.set :=
  View.cover_of_tiledL _ S1024x1.size (by sl_kernel_rfl) y
theorem scover1_C_1 (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc0 : ¬cond1_0 i) (hc1 : cond1_1 i) (x0 x1 : Vec F S1024x32 .bf16) (xs0 xs1 : Vec F S1024x1 .f32) (y : S1024x1.Idx) :
    ∃ pc ∈ (kernelRun1_C c i arg2 harg2 arg3 harg3 arg4 harg4 arg5 harg5 arg6 harg6 hc0 hc1 x0 x1 xs0 xs1).2.2.1, y ∈ pc.1.set :=
  View.cover_of_tiledL _ S1024x1.size (by sl_kernel_rfl) y

/-- After a first column block: (output: not stored, a placeholder), the running maximum, the running sum. -/
def stepA1 (c : Dev nD) (t : Fin cfg1.N) (h0 : t.val % 8 = 0) (h1 : ¬t.val % 8 = 7) : Vec F S1024x1 .f32 × Vec F S1024x1 .f32 × Vec F S1024x1 .f32 :=
  (View.canon [],
   View.canon (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.1,
   View.canon (kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.1)
/-- After a middle column block, from the statistics `p` the block before left. -/
def stepB1 (c : Dev nD) (t : Fin cfg1.N) (h0 : ¬t.val % 8 = 0) (h1 : ¬t.val % 8 = 7) (p : Vec F S1024x1 .f32 × Vec F S1024x1 .f32) : Vec F S1024x1 .f32 × Vec F S1024x1 .f32 × Vec F S1024x1 .f32 :=
  (View.canon [],
   View.canon (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2).2.1,
   View.canon (kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) p.1 p.2).2.2.1)
/-- After the last column block, from the statistics `p` the block before left: the stored log-sum-exp too. -/
def stepC1 (c : Dev nD) (t : Fin cfg1.N) (h0 : ¬t.val % 8 = 0) (h1 : t.val % 8 = 7) (p : Vec F S1024x1 .f32 × Vec F S1024x1 .f32) : Vec F S1024x1 .f32 × Vec F S1024x1 .f32 × Vec F S1024x1 .f32 :=
  (View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).1,
   View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).2.1,
   View.canon (kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) p.1 p.2).2.2.1)

/-- What the output's staging buffer, the running maximum and the running sum hold after the body at position `n`. -/
def outsAt1 (c : Dev nD) : (n : ℕ) → n < cfg1.N → Vec F S1024x1 .f32 × Vec F S1024x1 .f32 × Vec F S1024x1 .f32
  | 0, hn => stepA1 V c ⟨0, hn⟩ (Nat.zero_mod _) (show ¬ ((0 : ℕ) % 8 = 7) from by decide)
  | n + 1, hn =>
    if h0 : (n + 1) % 8 = 0 then
      if h1 : (n + 1) % 8 = 7 then False.elim (by omega)
      else stepA1 V c ⟨n + 1, hn⟩ h0 h1
    else
      if h1 : (n + 1) % 8 = 7 then stepC1 V c ⟨n + 1, hn⟩ h0 h1 (outsAt1 c n (Nat.lt_of_succ_lt hn)).2
      else stepB1 V c ⟨n + 1, hn⟩ h0 h1 (outsAt1 c n (Nat.lt_of_succ_lt hn)).2

theorem outsAt1_A (c : Dev nD) (t : Fin cfg1.N) (h0 : t.val % 8 = 0) (h1 : ¬t.val % 8 = 7) :
    outsAt1 V c t.val t.isLt = stepA1 V c t h0 h1 := by
  obtain ⟨n, hn⟩ := t
  cases n with
  | zero => exact rfl
  | succ n => exact (dif_pos h0).trans ((dif_neg h1).trans rfl)
theorem outsAt1_B (c : Dev nD) (t : Fin cfg1.N) (h0 : ¬t.val % 8 = 0) (h1 : ¬t.val % 8 = 7) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 8 = 0) (h1 : t.val % 8 = 7) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the two statistics
    buffers at what the point before left, the other scoped buffers and the generator register at anything. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ restBut1 c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ restBut1 c) ∗ (∃ r, prngReg c r)) := by
  cases n with
  | zero => exact absurd rfl hz
  | succ n => rfl

/-! ## The proof data -/

/-- The proof data of pipeline 1 on core `c`.  Both input windows read the one array of q rows, each at half the
    full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 64 := lt_of_lt_of_eq t.isLt (show cfg1.N = 64 from N_1)
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold stepA1; (try dsimp only)
    have hin : (dat1 V c).Φ t.castSucc ⊢ (iprop(iprop(iprop((∃ d, owns (c : Thread nD τ) scM1_0 fullShare d) ∗ (∃ d, owns (c : Thread nD τ) scM1_1 fullShare d)) ∗ restBut1 c) ∗ (∃ r, prngReg c r)) : sProp 𝕄) := by
      by_cases hz : t.val = 0
      · rw [PhiS1_castSucc V c t, PhiS1_zero V c _ _ hz, PhiA1_eq]; try exact .rfl
      · rw [PhiS1_castSucc V c t, PhiS1_pos V c _ _ hz]
        iintro ⟨⟨⟨HS0, HS1⟩, Hr⟩, Hg⟩
        isplitl [HS0 HS1 Hr]
        · isplitl [HS0 HS1]
          · isplitl [HS0]; · iexists _; iexact HS0
            iexists _; iexact HS1
          iexact Hr
        iexact Hg
    iintro ⟨HΦ, Ho, ⟨%d0, H0⟩, ⟨%d1, H1⟩, ⟨%d2, H2⟩⟩
    ihave HΦ' := hin $$ HΦ
    icases HΦ' with ⟨⟨⟨HS0, HS1⟩, Hr⟩, Hg⟩
    iapply ((kernelRun1_A c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t) (iblk1 V c 1 t)).2.2.2 _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_eq_canon _ _ _ (scover1_A_0 c _ _ _ _ _ _ _ _ _ _ _ _ _ _ _)
          unfold owns; iexists _; isplitr
          swap; · iexact HS1
          ipureintro; exact View.read_writes_eq_canon _ _ _ (scover1_A_1 c _ _ _ _ _ _ _ _ _ _ _ _ _ _ _)
        iexact Hr
      iexact Hg
    isplitl [Ho]; · iexact Ho
    isplitl [H0]; · iexact H0
    isplitl [H1]; · iexact H1
    iexists _; iexact H2
  · have hz : t.val ≠ 0 := fun h => h0 (by rw [h])
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold stepC1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_eq_canon _ _ _ (scover1_C_0 c _ _ _ _ _ _ _ _ _ _ _ _ _ _ _ _ _)
            unfold owns; iexists _; isplitr
            swap; · iexact HS1
            ipureintro; exact View.read_writes_eq_canon _ _ _ (scover1_C_1 c _ _ _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_eq_canon _ _ _ (cover1_C_2 c _ _ _ _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold stepB1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (iblk1 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_eq_canon _ _ _ (scover1_B_0 c _ _ _ _ _ _ _ _ _ _ _ _ _ _ _ _ _)
            unfold owns; iexists _; isplitr
            swap; · iexact HS1
            ipureintro; exact View.read_writes_eq_canon _ _ _ (scover1_B_1 c _ _ _ _ _ _ _ _ _ _ _ _ _ _ _ _ _)
          iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the statistics' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

end Cert.KernelIdeal.Hand

end
-- ==== Proof.KI.Region2Runs.lean ====
/-
  Region 2 of the program (the output pass on a grid of 8 output row blocks by 8 contracted row blocks), first
  half: the body's three control cases run on whole staging buffers.  At the first contracted block the accumulator
  is zeroed before use; at every block it gains  exp(q_j·q_iᵀ − lse_i)·v_i ; at the last block  γ·acc + f_j  is
  stored into the output.  The pieces each buffer ends with are found by the run.
-/
import proofs.«135495_j36636071035186_1_alg».proof.Proof.Gen.KernelIdeal.Launch
import proofs.«135495_j36636071035186_1_alg».proof.Proof.Gen.KernelIdeal.Skeleton
import proofs.«135495_j36636071035186_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first contracted block: the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The last contracted block: the output is stored. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

set_option maxHeartbeats 2000000 in
/-- First contracted block (and not the last): the accumulator is zeroed, then gains the block's term; the output is
    left as found. -/
noncomputable def kernelRun2_A (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : cond2_0 i) (hc1 : ¬cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨[], ?_, fun xi6 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- A middle contracted block: the accumulator gains the block's term; the output is left as found. -/
noncomputable def kernelRun2_B (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : ¬cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) :
    Σ' (L6 : List (View.Piece (Elt F) S1024x256 .f32)), { LS0 : List (View.Piece (Elt F) S1024x256 .f32) //
      ∀ (xi6 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨[], ?_, fun xi6 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

set_option maxHeartbeats 2000000 in
/-- The last contracted block: the accumulator gains the block's term and the output row block is stored. -/
noncomputable def kernelRun2_C (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i)
    (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) :
    Σ' (L6 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E (cc2__out_kernel i arg2 harg2 arg3 harg3 arg4 harg4 arg5 harg5 arg6 harg6 arg7 harg7 arg8 harg8 arg9 harg9) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Region2.lean ====
/-
  Region 2 of the program (the output pass), second half: what the output block and the accumulator hold after each
  grid point (zeroed at the first contracted block, grown from the point before otherwise, the output stored at the
  last contracted block), the proof data of the pipeline, and the body obligation.
-/
import proofs.«135495_j36636071035186_1_alg».proof.Proof.KI.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The buffers the body is called with -/

abbrev ms2_0 (t : Fin cfg2.N) : Memref sig .tc .vmem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x32 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x32 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x256 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x256 .f32 := win2_6.stage (cfg2.slots t 6)
abbrev hs2_6 (t : Fin cfg2.N) : (ms2_6 t).IsWhole := hstage2_6 ((cfg2.slots t 6).cast nbuf2_6)
/-- The accumulator's buffer. -/
abbrev scM2_0 : Memref sig .tc .vmem S1024x256 .f32 := Memref.whole cc2_scratch0

/-- The scoped buffers that are neither a staging buffer of this call nor its accumulator. -/
abbrev restBut2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restBut2 c) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

/-! ## What each case leaves -/

theorem scover2_A_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : cond2_0 i) (hc1 : ¬cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (y : S1024x256.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL _ S1024x256.size (by sl_kernel_rfl) y
theorem scover2_B_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : ¬cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL _ S1024x256.size (by sl_kernel_rfl) y
theorem cover2_C_6 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL _ S1024x256.size (by sl_kernel_rfl) y
theorem scover2_C_0 (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (hc0 : ¬cond2_0 i) (hc1 : cond2_1 i) (x0 : Vec F S1x1 .f32) (x1 : Vec F S1024x32 .bf16) (x2 : Vec F S1024x32 .bf16) (x3 : Vec F S1024x256 .bf16) (x4 : Vec F S1x1024 .f32) (x5 : Vec F S1024x256 .f32) (xs0 : Vec F S1024x256 .f32) (y : S1024x256.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL _ S1024x256.size (by sl_kernel_rfl) y

/-- After a first contracted block: (output: not stored, a placeholder), the accumulator. -/
def stepA2 (c : Dev nD) (t : Fin cfg2.N) (h0 : t.val % 8 = 0) (h1 : ¬t.val % 8 = 7) : Vec F S1024x256 .f32 × Vec F S1024x256 .f32 :=
  (View.canon [],
   View.canon (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.1)
/-- After a middle contracted block, from the accumulator `p` the block before left. -/
def stepB2 (c : Dev nD) (t : Fin cfg2.N) (h0 : ¬t.val % 8 = 0) (h1 : ¬t.val % 8 = 7) (p : Vec F S1024x256 .f32) : Vec F S1024x256 .f32 × Vec F S1024x256 .f32 :=
  (View.canon [],
   View.canon (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) p).2.1)
/-- After the last contracted block, from the accumulator `p` the block before left: the stored output too. -/
def stepC2 (c : Dev nD) (t : Fin cfg2.N) (h0 : ¬t.val % 8 = 0) (h1 : t.val % 8 = 7) (p : Vec F S1024x256 .f32) : Vec F S1024x256 .f32 × Vec F S1024x256 .f32 :=
  (View.canon (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p).1,
   View.canon (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) p).2.1)

/-- What the output's staging buffer and the accumulator hold after the body at position `n`. -/
def outsAt2 (c : Dev nD) : (n : ℕ) → n < cfg2.N → Vec F S1024x256 .f32 × Vec F S1024x256 .f32
  | 0, hn => stepA2 V c ⟨0, hn⟩ (Nat.zero_mod _) (show ¬ ((0 : ℕ) % 8 = 7) from by decide)
  | n + 1, hn =>
    if h0 : (n + 1) % 8 = 0 then
      if h1 : (n + 1) % 8 = 7 then False.elim (by omega)
      else stepA2 V c ⟨n + 1, hn⟩ h0 h1
    else
      if h1 : (n + 1) % 8 = 7 then stepC2 V c ⟨n + 1, hn⟩ h0 h1 (outsAt2 c n (Nat.lt_of_succ_lt hn)).2
      else stepB2 V c ⟨n + 1, hn⟩ h0 h1 (outsAt2 c n (Nat.lt_of_succ_lt hn)).2

theorem outsAt2_A (c : Dev nD) (t : Fin cfg2.N) (h0 : t.val % 8 = 0) (h1 : ¬t.val % 8 = 7) :
    outsAt2 V c t.val t.isLt = stepA2 V c t h0 h1 := by
  obtain ⟨n, hn⟩ := t
  cases n with
  | zero => exact rfl
  | succ n => exact (dif_pos h0).trans ((dif_neg h1).trans rfl)
theorem outsAt2_B (c : Dev nD) (t : Fin cfg2.N) (h0 : ¬t.val % 8 = 0) (h1 : ¬t.val % 8 = 7) :
    outsAt2 V c t.val t.isLt = stepB2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 8 = 0) (h1 : t.val % 8 = 7) :
    outsAt2 V c t.val t.isLt = stepC2 V c t h0 h1 (outsAt2 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at the start what the launch hands over; afterwards the accumulator at
    what the point before left, the other scoped buffers and the generator register at anything. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The proof data -/

/-- The proof data of pipeline 2 on core `c`.  Windows 1 and 2 read the one array of q rows, each at half the full
    share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 64 := lt_of_lt_of_eq t.isLt (show cfg2.N = 64 from N_2)
  by_cases h0 : t.val % 8 = 0
  · have h1 : ¬t.val % 8 = 7 := by omega
    rw [Dat.leavesExact_idle (dat2 V c) 6 t (idleAt2_6 t (fun h => h1 ((hcond2_1 t).mp h))) (noFlush2_6 t (fun h => h1 ((hcond2_1 t).mp h)))]
    rw [outsAt2_A V c t h0 h1]
    unfold stepA2; (try dsimp only)
    have hin : (dat2 V c).Φ t.castSucc ⊢ (iprop(iprop((∃ d, owns (c : Thread nD τ) scM2_0 fullShare d) ∗ restBut2 c) ∗ (∃ r, prngReg c r)) : sProp 𝕄) := by
      by_cases hz : t.val = 0
      · rw [PhiS2_castSucc V c t, PhiS2_zero V c _ _ hz, PhiA2_eq]; try exact .rfl
      · rw [PhiS2_castSucc V c t, PhiS2_pos V c _ _ hz]
        iintro ⟨⟨HS0, Hr⟩, Hg⟩
        isplitl [HS0 Hr]
        · isplitl [HS0]; · iexists _; iexact HS0
          iexact Hr
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hin $$ HΦ
    icases HΦ' with ⟨⟨HS0, Hr⟩, Hg⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iintro ⟨H0, H1, H2, H3, H4, H5, H6, ⟨%es0, HS0⟩⟩
    isplitl [HS0 Hr Hg]
    · isplitl [HS0 Hr]
      · isplitl [HS0]
        · unfold owns; iexists _; isplitr
          swap; · iexact HS0
          ipureintro; exact View.read_writes_eq_canon _ _ _ (scover2_A_0 c _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun h => h0 (by rw [h])
    by_cases h1 : t.val % 8 = 7
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold stepC2; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr Hg]
      · isplitl [HS0 Hr]
        · isplitl [HS0]
          · unfold owns; iexists _; isplitr
            swap; · iexact HS0
            ipureintro; exact View.read_writes_eq_canon _ _ _ (scover2_C_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover2_C_6 c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold stepB2; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hr Hg]
      · isplitl [HS0 Hr]
        · isplitl [HS0]
          · unfold owns; iexists _; isplitr
            swap; · iexact HS0
            ipureintro; exact View.read_writes_eq_canon _ _ _ (scover2_B_0 c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the launch's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hr⟩, Hg⟩
  isplitl [HS0 Hr]
  · isplitl [HS0]; · iexists _; iexact HS0
    iexact Hr
  iexact Hg

end Cert.KernelIdeal.Hand

end
-- ==== Proof.KI.RunA.lean ====
/-
  The run of the whole program: the contents of the core's buffers at every boundary between a stretch of host
  operations and a kernel region, each region as a segment entered from the state the segment before it left (its
  arrays split out of the held buffers and put back at what the region's write-backs leave), and the launch.  The
  post: every unscoped buffer ends at the last boundary's contents.  Regions 1 and 2 read the q rows through two
  windows each: the array's full share is split in two halves at entry and joined again at exit.
-/
import proofs.«135495_j36636071035186_1_alg».proof.Proof.KI.Region0
import proofs.«135495_j36636071035186_1_alg».proof.Proof.KI.Region1
import proofs.«135495_j36636071035186_1_alg».proof.Proof.KI.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: the q rows and the v rows at what its write-backs leave. -/
def W2 (c : Dev nD) : Valuation τ sig (Elt F) :=
  Function.update (Function.update (W1 m ρ c) (Proc.devRef .tc main_v4_0) ((dat0 (V1 m ρ) c).arrAt 4 cfg0.N))
    (Proc.devRef .tc main_v4_1) ((dat0 (V1 m ρ) c).arrAt 5 cfg0.N)
abbrev V2 : (c : Dev nD) → (b : Ref sig .tc) → Buf (Elt F) ((c : Thread nD τ).loc b) := fun c b => W2 m ρ c b
/-- After region 1: the log-sum-exp column at what its write-backs leave. -/
def W3 (c : Dev nD) : Valuation τ sig (Elt F) :=
  Function.update (W2 m ρ c) (Proc.devRef .tc main_v5) ((dat1 (V2 m ρ) c).arrAt 2 cfg1.N)
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2: the result at what its write-backs leave. -/
def W5 (c : Dev nD) : Valuation τ sig (Elt F) :=
  Function.update (W4 m ρ c) (Proc.devRef .tc main_v7) ((dat2 (V4 m ρ) c).arrAt 6 cfg2.N)
abbrev V5 : (c : Dev nD) → (b : Ref sig .tc) → Buf (Elt F) ((c : Thread nD τ).loc b) := fun c b => W5 m ρ c b

theorem W2_v4_0 (c : Dev nD) : W2 m ρ c (Proc.devRef .tc main_v4_0) = (dat0 (V1 m ρ) c).arrAt 4 cfg0.N := by
  unfold W2; rw [Function.update_of_ne (StableHlo.devRef_ne_of_ne (by decide)), Function.update_self]
theorem W2_v4_1 (c : Dev nD) : W2 m ρ c (Proc.devRef .tc main_v4_1) = (dat0 (V1 m ρ) c).arrAt 5 cfg0.N := by
  unfold W2; rw [Function.update_self]
theorem W2_of_ne (c : Dev nD) (b : Ref sig .tc) (h0 : b ≠ main_v4_0) (h1 : b ≠ main_v4_1) :
    W2 m ρ c (Proc.devRef .tc b) = W1 m ρ c (Proc.devRef .tc b) := by
  unfold W2; rw [Function.update_of_ne (StableHlo.devRef_ne_of_ne h1), Function.update_of_ne (StableHlo.devRef_ne_of_ne h0)]
theorem W3_v5 (c : Dev nD) : W3 m ρ c (Proc.devRef .tc main_v5) = (dat1 (V2 m ρ) c).arrAt 2 cfg1.N := by
  unfold W3; rw [Function.update_self]
theorem W3_of_ne (c : Dev nD) (b : Ref sig .tc) (h : b ≠ main_v5) :
    W3 m ρ c (Proc.devRef .tc b) = W2 m ρ c (Proc.devRef .tc b) := by
  unfold W3; rw [Function.update_of_ne (StableHlo.devRef_ne_of_ne h)]
theorem W5_v7 (c : Dev nD) : W5 m ρ c (Proc.devRef .tc main_v7) = (dat2 (V4 m ρ) c).arrAt 6 cfg2.N := by
  unfold W5; rw [Function.update_self]
theorem W5_of_ne (c : Dev nD) (b : Ref sig .tc) (h : b ≠ main_v7) :
    W5 m ρ c (Proc.devRef .tc b) = W4 m ρ c (Proc.devRef .tc b) := by
  unfold W5; rw [Function.update_of_ne (StableHlo.devRef_ne_of_ne h)]

theorem hF0 (c : Dev nD) : ∀ w : Fin cfg0.W, (dat0 (V1 m ρ) c).arrAt w cfg0.N = V2 m ρ c (Pipeline.arrRef spec0 w)
  | ⟨0, _⟩ => ((dat0 (V1 m ρ) c).arrAt_in 0 rfl _).trans ((A_eq0 (V1 m ρ) c 0).trans (W2_of_ne m ρ c _ (by decide) (by decide)).symm)
  | ⟨1, _⟩ => ((dat0 (V1 m ρ) c).arrAt_in 1 rfl _).trans ((A_eq0 (V1 m ρ) c 1).trans (W2_of_ne m ρ c _ (by decide) (by decide)).symm)
  | ⟨2, _⟩ => ((dat0 (V1 m ρ) c).arrAt_in 2 rfl _).trans ((A_eq0 (V1 m ρ) c 2).trans (W2_of_ne m ρ c _ (by decide) (by decide)).symm)
  | ⟨3, _⟩ => ((dat0 (V1 m ρ) c).arrAt_in 3 rfl _).trans ((A_eq0 (V1 m ρ) c 3).trans (W2_of_ne m ρ c _ (by decide) (by decide)).symm)
  | ⟨4, _⟩ => (W2_v4_0 m ρ c).symm
  | ⟨5, _⟩ => (W2_v4_1 m ρ c).symm
theorem hrest0 (c : Dev nD) : ∀ b, b ∉ Finset.univ.image (Pipeline.arrRef spec0) → V2 m ρ c b = V1 m ρ c b :=
  fun b hb => W2_of_ne m ρ c b (fun e => hb (Finset.mem_image.mpr ⟨4, Finset.mem_univ _, e.symm⟩)) (fun e => hb (Finset.mem_image.mpr ⟨5, Finset.mem_univ _, e.symm⟩))

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## An array read through two windows: its full share split in halves and joined again -/

theorem himg1 : Finset.univ.image (Pipeline.arrRef spec1) = {main_v4_0, main_v5} := by decide
theorem himg2 : Finset.univ.image (Pipeline.arrRef spec2) = {main_v3, main_v4_0, main_v4_1, main_v6, main_arg0, main_v7} := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4_0) ↦{fullShare} V main_v4_0) ∗ (((c : Thread nD τ).loc main_v5) ↦{fullShare} V main_v5)) := by
  unfold Pipeline.arrBufs
  exact Idealize.SL.BI.bigSep_eq_bigSepL_of_eq [main_v4_0, main_v5] (by decide) (by decide) _
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v3) ↦{fullShare} V main_v3) ∗ (((c : Thread nD τ).loc main_v4_0) ↦{fullShare} V main_v4_0)
          ∗ (((c : Thread nD τ).loc main_v4_1) ↦{fullShare} V main_v4_1) ∗ (((c : Thread nD τ).loc main_v6) ↦{fullShare} V main_v6)
          ∗ (((c : Thread nD τ).loc main_arg0) ↦{fullShare} V main_arg0) ∗ (((c : Thread nD τ).loc main_v7) ↦{fullShare} V main_v7)) := by
  unfold Pipeline.arrBufs
  exact Idealize.SL.BI.bigSep_eq_bigSepL_of_eq [main_v3, main_v4_0, main_v4_1, main_v6, main_arg0, main_v7] (by decide) (by decide) _

theorem arrays1_intro (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊢ dat.arrays G := by
  rw [arrBufs1_eq]; unfold Dat.arrays
  rw [bigSep_W1, (arr_whole1 0).set_eq_univ,
    (arr_whole1 2).set_eq_univ, h0, h1, h2, hG 0, hG 1, hG 2]
  iintro ⟨Hq, Ho⟩
  ihave Hq' := (pointsTo_share (PosShare.mem_left_op_right fullShare)).1 $$ Hq
  icases Hq' with ⟨Hl, Hr⟩
  isplitl [Hl]; · iexact Hl
  isplitl [Hr]; · iexact Hr
  iexact Ho

theorem arrays1_elim (c : Dev nD) (dat : Dat τ (Elt F) Unit ℕ (UR sig nD τ) ℕ cfg1 c)
    (h0 : dat.share 0 = fullShare.left) (h1 : dat.share 1 = fullShare.right) (h2 : dat.share 2 = fullShare)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    dat.arrays G ⊢ (Pipeline.arrBufs (Ix := Unit) (Name := ℕ) (U := UR sig nD τ) (Lvl := ℕ) spec1 c V : sProp 𝕄) := by
  rw [arrBufs1_eq]; unfold Dat.arrays
  rw [bigSep_W1, (arr_whole1 0).set_eq_univ,
    (arr_whole1 2).set_eq_univ, h0, h1, h2, hG 0, hG 1, hG 2]
  iintro ⟨Hl, Hr, Ho⟩
  isplitl [Hl Hr]
  · iapply (pointsTo_share (PosShare.mem_left_op_right fullShare)).2
    isplitl [Hl]; · iexact Hl
    iexact Hr
  iexact Ho

end Cert.KernelIdeal.Hand

end
-- ==== Proof.KI.RunB.lean ====
/-
  The run of the whole program, second part: the three regions as segments over the thread state "every unscoped
  buffer at the boundary's contents, the generator register at some state, nothing owed", @main as the list of its
  segments, and the launch: every weakly fair execution terminates and every unscoped buffer ends at the last
  boundary's contents.
-/
import proofs.«135495_j36636071035186_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arrays2_intro (c : Dev nD) (dat : Dat τ (Elt F) Unit ℕ (UR sig nD τ) ℕ cfg2 c)
    (h0 : dat.share 0 = fullShare) (h1 : dat.share 1 = fullShare.left) (h2 : dat.share 2 = fullShare.right) (h3 : dat.share 3 = fullShare)
    (h4 : dat.share 4 = fullShare) (h5 : dat.share 5 = fullShare) (h6 : dat.share 6 = fullShare)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  rw [arrBufs2_eq]; unfold Dat.arrays
  rw [bigSep_W2, (arr_whole2 0).set_eq_univ, (arr_whole2 1).set_eq_univ, (arr_whole2 3).set_eq_univ, (arr_whole2 4).set_eq_univ,
    (arr_whole2 5).set_eq_univ, (arr_whole2 6).set_eq_univ, h0, h1, h2, h3, h4, h5, h6, hG 0, hG 1, hG 2, hG 3, hG 4, hG 5, hG 6]
  iintro ⟨H3, Hq, Hv, H6, Ha, H7⟩
  ihave Hq' := (pointsTo_share (PosShare.mem_left_op_right fullShare)).1 $$ Hq
  icases Hq' with ⟨Hl, Hr⟩
  isplitl [H3]; · iexact H3
  isplitl [Hl]; · iexact Hl
  isplitl [Hr]; · iexact Hr
  isplitl [Hv]; · iexact Hv
  isplitl [H6]; · iexact H6
  isplitl [Ha]; · iexact Ha
  iexact H7

theorem arrays2_elim (c : Dev nD) (dat : Dat τ (Elt F) Unit ℕ (UR sig nD τ) ℕ cfg2 c)
    (h0 : dat.share 0 = fullShare) (h1 : dat.share 1 = fullShare.left) (h2 : dat.share 2 = fullShare.right) (h3 : dat.share 3 = fullShare)
    (h4 : dat.share 4 = fullShare) (h5 : dat.share 5 = fullShare) (h6 : dat.share 6 = fullShare)
    (V : (b : Ref sig .tc) → Buf (Elt F) ((c : Thread nD τ).loc b))
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  rw [arrBufs2_eq]; unfold Dat.arrays
  rw [bigSep_W2, (arr_whole2 0).set_eq_univ, (arr_whole2 1).set_eq_univ, (arr_whole2 3).set_eq_univ, (arr_whole2 4).set_eq_univ,
    (arr_whole2 5).set_eq_univ, (arr_whole2 6).set_eq_univ, h0, h1, h2, h3, h4, h5, h6, hG 0, hG 1, hG 2, hG 3, hG 4, hG 5, hG 6]
  iintro ⟨H3, Hl, Hr, Hv, H6, Ha, H7⟩
  isplitl [H3]; · iexact H3
  isplitl [Hl Hr]
  · iapply (pointsTo_share (PosShare.mem_left_op_right fullShare)).2
    isplitl [Hl]; · iexact Hl
    iexact Hr
  isplitl [Hv]; · iexact Hv
  isplitl [H6]; · iexact H6
  isplitl [Ha]; · iexact Ha
  iexact H7

/-- What region 1 leaves in each of its arrays is the next boundary's contents: the q rows as entered, the column
    at what the write-backs leave. -/
theorem hF1 (c : Dev nD) : ∀ w : Fin cfg1.W, (dat1 (V2 m ρ) c).arrAt w cfg1.N = V3 m ρ c (Pipeline.arrRef spec1 w)
  | ⟨0, _⟩ => ((dat1 (V2 m ρ) c).arrAt_in 0 rfl _).trans ((A_eq1 (V2 m ρ) c 0).trans (W3_of_ne m ρ c _ (by decide)).symm)
  | ⟨1, _⟩ => ((dat1 (V2 m ρ) c).arrAt_in 1 rfl _).trans ((A_eq1 (V2 m ρ) c 1).trans (W3_of_ne m ρ c _ (by decide)).symm)
  | ⟨2, _⟩ => (W3_v5 m ρ c).symm
theorem hrest1 (c : Dev nD) : ∀ b, b ∉ Finset.univ.image (Pipeline.arrRef spec1) → V3 m ρ c b = V2 m ρ c b :=
  fun b hb => W3_of_ne m ρ c b (fun e => hb (Finset.mem_image.mpr ⟨2, Finset.mem_univ _, e.symm⟩))
theorem hF2 (c : Dev nD) : ∀ w : Fin cfg2.W, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_of_ne m ρ c _ (by decide)).symm)
  | ⟨1, _⟩ => ((dat2 (V4 m ρ) c).arrAt_in 1 rfl _).trans ((A_eq2 (V4 m ρ) c 1).trans (W5_of_ne m ρ c _ (by decide)).symm)
  | ⟨2, _⟩ => ((dat2 (V4 m ρ) c).arrAt_in 2 rfl _).trans ((A_eq2 (V4 m ρ) c 2).trans (W5_of_ne m ρ c _ (by decide)).symm)
  | ⟨3, _⟩ => ((dat2 (V4 m ρ) c).arrAt_in 3 rfl _).trans ((A_eq2 (V4 m ρ) c 3).trans (W5_of_ne m ρ c _ (by decide)).symm)
  | ⟨4, _⟩ => ((dat2 (V4 m ρ) c).arrAt_in 4 rfl _).trans ((A_eq2 (V4 m ρ) c 4).trans (W5_of_ne m ρ c _ (by decide)).symm)
  | ⟨5, _⟩ => ((dat2 (V4 m ρ) c).arrAt_in 5 rfl _).trans ((A_eq2 (V4 m ρ) c 5).trans (W5_of_ne m ρ c _ (by decide)).symm)
  | ⟨6, _⟩ => (W5_v7 m ρ c).symm
theorem hrest2 (c : Dev nD) : ∀ b, b ∉ Finset.univ.image (Pipeline.arrRef spec2) → V5 m ρ c b = V4 m ρ c b :=
  fun b hb => W5_of_ne m ρ c b (fun e => hb (Finset.mem_image.mpr ⟨6, Finset.mem_univ _, e.symm⟩))

/-- The unscoped rest off a region's arrays does not see a change of the arrays. -/
theorem unscopedRest_congr {gr W : Nat} (win : Fin W → Pipeline.WinSpec sig gr) (c : Dev nD) (V V' : (b : Ref sig .tc) → Buf (Elt F) ((c : Thread nD τ).loc b))
    (hrest : ∀ b, b ∉ Finset.univ.image (Pipeline.arrRef win) → V' b = V b) :
    (Pipeline.unscopedRest (Ix := Unit) (Name := ℕ) (U := UR sig nD τ) (Lvl := ℕ) win c V : sProp 𝕄) = Pipeline.unscopedRest win c V' := by
  unfold Pipeline.unscopedRest
  exact bigSep_congr fun b hb => by rw [hrest b (Finset.mem_sdiff.mp hb).2]

theorem share1_0 (V : (c : Dev nD) → (b : Ref sig .tc) → Buf (Elt F) ((c : Thread nD τ).loc b)) (c : Dev nD) : (dat1 V c).share 0 = fullShare.left := rfl
theorem share1_1 (V : (c : Dev nD) → (b : Ref sig .tc) → Buf (Elt F) ((c : Thread nD τ).loc b)) (c : Dev nD) : (dat1 V c).share 1 = fullShare.right := rfl
theorem share1_2 (V : (c : Dev nD) → (b : Ref sig .tc) → Buf (Elt F) ((c : Thread nD τ).loc b)) (c : Dev nD) : (dat1 V c).share 2 = fullShare := rfl
theorem share2_0 (V : (c : Dev nD) → (b : Ref sig .tc) → Buf (Elt F) ((c : Thread nD τ).loc b)) (c : Dev nD) : (dat2 V c).share 0 = fullShare := rfl
theorem share2_1 (V : (c : Dev nD) → (b : Ref sig .tc) → Buf (Elt F) ((c : Thread nD τ).loc b)) (c : Dev nD) : (dat2 V c).share 1 = fullShare.left := rfl
theorem share2_2 (V : (c : Dev nD) → (b : Ref sig .tc) → Buf (Elt F) ((c : Thread nD τ).loc b)) (c : Dev nD) : (dat2 V c).share 2 = fullShare.right := rfl
theorem share2_3 (V : (c : Dev nD) → (b : Ref sig .tc) → Buf (Elt F) ((c : Thread nD τ).loc b)) (c : Dev nD) : (dat2 V c).share 3 = fullShare := rfl
theorem share2_4 (V : (c : Dev nD) → (b : Ref sig .tc) → Buf (Elt F) ((c : Thread nD τ).loc b)) (c : Dev nD) : (dat2 V c).share 4 = fullShare := rfl
theorem share2_5 (V : (c : Dev nD) → (b : Ref sig .tc) → Buf (Elt F) ((c : Thread nD τ).loc b)) (c : Dev nD) : (dat2 V c).share 5 = fullShare := rfl
theorem share2_6 (V : (c : Dev nD) → (b : Ref sig .tc) → Buf (Elt F) ((c : Thread nD τ).loc b)) (c : Dev nD) : (dat2 V c).share 6 = fullShare := rfl

set_option backward.isDefEq.respectTransparency.types false in
theorem entry1 (c : Dev nD) : (unscopedBufs (Ix := Unit) (Name := ℕ) (U := UR sig nD τ) (Lvl := ℕ) c (V2 m ρ c) : sProp 𝕄)
    ⊢ iprop((dat1 (V2 m ρ) c).arrays ((dat1 (V2 m ρ) c).arrAt · 0) ∗ Pipeline.unscopedRest spec1 c (V2 m ρ c)) := by
  rw [Pipeline.unscopedBufs_split₀ (Pipeline.pin (pcfgs (F := F)) adm) 1 winFacts₀1.arr_unscoped c (V2 m ρ c)]
  exact sep_mono (arrays1_intro c (dat1 (V2 m ρ) c) (share1_0 _ c) (share1_1 _ c) (share1_2 _ c) (V2 m ρ c) _ (fun _ => rfl)) .rfl
set_option backward.isDefEq.respectTransparency.types false in
theorem exit1 (c : Dev nD) : iprop((dat1 (V2 m ρ) c).arrays ((dat1 (V2 m ρ) c).arrAt · cfg1.N) ∗ Pipeline.unscopedRest spec1 c (V2 m ρ c))
    ⊢ (unscopedBufs (Ix := Unit) (Name := ℕ) (U := UR sig nD τ) (Lvl := ℕ) c (V3 m ρ c) : sProp 𝕄) := by
  rw [Pipeline.unscopedBufs_split₀ (Pipeline.pin (pcfgs (F := F)) adm) 1 winFacts₀1.arr_unscoped c (V3 m ρ c),
    unscopedRest_congr spec1 c (V2 m ρ c) (V3 m ρ c) (hrest1 m ρ c)]
  exact sep_mono (arrays1_elim c (dat1 (V2 m ρ) c) (share1_0 _ c) (share1_1 _ c) (share1_2 _ c) (V3 m ρ c) ((dat1 (V2 m ρ) c).arrAt · cfg1.N) (hF1 m ρ c)) .rfl
set_option backward.isDefEq.respectTransparency.types false in
theorem entry2 (c : Dev nD) : (unscopedBufs (Ix := Unit) (Name := ℕ) (U := UR sig nD τ) (Lvl := ℕ) c (V4 m ρ c) : sProp 𝕄)
    ⊢ iprop((dat2 (V4 m ρ) c).arrays ((dat2 (V4 m ρ) c).arrAt · 0) ∗ Pipeline.unscopedRest spec2 c (V4 m ρ c)) := by
  rw [Pipeline.unscopedBufs_split₀ (Pipeline.pin (pcfgs (F := F)) adm) 2 winFacts₀2.arr_unscoped c (V4 m ρ c)]
  exact sep_mono (arrays2_intro c (dat2 (V4 m ρ) c) (share2_0 _ c) (share2_1 _ c) (share2_2 _ c) (share2_3 _ c) (share2_4 _ c) (share2_5 _ c) (share2_6 _ c) (V4 m ρ c) _ (fun _ => rfl)) .rfl
set_option backward.isDefEq.respectTransparency.types false in
set_option maxHeartbeats 1600000 in
theorem exit2 (c : Dev nD) : iprop((dat2 (V4 m ρ) c).arrays ((dat2 (V4 m ρ) c).arrAt · cfg2.N) ∗ Pipeline.unscopedRest spec2 c (V4 m ρ c))
    ⊢ (unscopedBufs (Ix := Unit) (Name := ℕ) (U := UR sig nD τ) (Lvl := ℕ) c (V5 m ρ c) : sProp 𝕄) := by
  rw [Pipeline.unscopedBufs_split₀ (Pipeline.pin (pcfgs (F := F)) adm) 2 winFacts₀2.arr_unscoped c (V5 m ρ c),
    unscopedRest_congr spec2 c (V4 m ρ c) (V5 m ρ c) (hrest2 m ρ c)]
  exact sep_mono (arrays2_elim c (dat2 (V4 m ρ) c) (share2_0 _ c) (share2_1 _ c) (share2_2 _ c) (share2_3 _ c) (share2_4 _ c) (share2_5 _ c) (share2_6 _ c) (V5 m ρ c) ((dat2 (V4 m ρ) c).arrAt · cfg2.N) (hF2 m ρ c)) .rfl

set_option backward.isDefEq.respectTransparency.types false in
/-- REGION 0 (the projections): entered at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (the softmax statistics): entered at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs (Ix := Unit) (Name := ℕ) (U := UR sig nD τ) (Lvl := ℕ) c (V3 m ρ c) : sProp 𝕄) := exit1 m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the output pass): entered at `W4`, left at `W5` (what the launch reads at the end). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := entry2 m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs (Ix := Unit) (Name := ℕ) (U := UR sig nD τ) (Lvl := ℕ) c (V5 m ρ c) : sProp 𝕄) := exit2 m ρ c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KI.Frame.lean ====
/-
  The frame of the program: no host operation and no region writes an argument array, so each ends as launched.
-/
import proofs.«135495_j36636071035186_1_alg».proof.Proof.KI.RunB
import proofs.«135495_j36636071035186_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer neither host stretch writes and no region changes ends at its launch contents. -/
theorem W5_kept (c : Dev nD) (r : Ref sig .tc) (h7 : r ≠ main_v7) (hh2 : r ∉ hostOps2_W) (h5 : r ≠ main_v5)
    (h40 : r ≠ main_v4_0) (h41 : r ≠ main_v4_1) (hh0 : r ∉ hostOps0_W) :
    W5 m ρ c (Proc.devRef .tc r) = m ((c : Thread nD τ).loc r) :=
  (W5_of_ne m ρ c r h7).trans <| (StableHlo.after_of_writes_sub hostOps2 _ hostOps2_writes hh2).trans <|
    (W3_of_ne m ρ c r h5).trans <| (W2_of_ne m ρ c r h40 h41).trans <| (StableHlo.after_of_writes_sub hostOps0 _ hostOps0_writes hh0).trans rfl

/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W5_kept m ρ c main_arg0 (by decide) (by decide) (by decide) (by decide) (by decide) (by decide)),
     (h c _ (mem_uc main_arg1 (by decide))).trans (W5_kept m ρ c main_arg1 (by decide) (by decide) (by decide) (by decide) (by decide) (by decide)),
     (h c _ (mem_uc main_arg2 (by decide))).trans (W5_kept m ρ c main_arg2 (by decide) (by decide) (by decide) (by decide) (by decide) (by decide)),
     (h c _ (mem_uc main_arg3 (by decide))).trans (W5_kept m ρ c main_arg3 (by decide) (by decide) (by decide) (by decide) (by decide) (by decide)),
     (h c _ (mem_uc main_arg4 (by decide))).trans (W5_kept m ρ c main_arg4 (by decide) (by decide) (by decide) (by decide) (by decide) (by decide))⟩)
    (run m ρ)

end Cert.KernelIdeal.Hand

end
-- ==== Proof.Spec.lean ====
/-
  The mathematics of the claim, free of any program text: over extended reals, with
    q = f·Wqkᵀ,  v = f·Wvᵀ + bv,  e(i,j) = ⟨q_i, q_j⟩,
  the reference's result is  γ · Σ_i softmax_j(e)(i,j) · v(i,c) + f(j,c)  with the softmax computed against the
  row maximum, and the kernel's result is the same sum accumulated over eight blocks of 1024 rows, each term
  exp(e(j,i) − lse(i)) · v(i,c) with lse(i) = m(i) + log l(i) the row's log-sum-exp obtained by the running
  maximum / rescaled running sum over eight column blocks.
-/
import Idealize.ShloMosaic.PureOps.Ideal

noncomputable section

namespace Cert.Spec

open Idealize.ShloMosaic

variable (f : Fin 8192 → Fin 256 → EReal) (wqk : Fin 32 → Fin 256 → EReal) (wv : Fin 256 → Fin 256 → EReal)
  (bv : Fin 256 → EReal) (g : EReal)

/-- The shared query/key projection. -/
def q (n : Fin 8192) (k : Fin 32) : EReal := ∑ c : Fin 256, f n c * wqk k c
/-- The value projection with its bias. -/
def v (n : Fin 8192) (c : Fin 256) : EReal := (∑ d : Fin 256, f n d * wv c d) + bv c
/-- The energy of a pair of points. -/
def e (i j : Fin 8192) : EReal := ∑ k : Fin 32, q f wqk i k * q f wqk j k

/-! ## The reference: a softmax of each row against the row's maximum -/

def refM (i : Fin 8192) : EReal := max ⊥ (Finset.univ.sup fun j : Fin 8192 => e f wqk i j)
def refS (i : Fin 8192) : EReal := 0 + ∑ j : Fin 8192, Ideal.exp (e f wqk i j - refM f wqk i)
def refAttn (i j : Fin 8192) : EReal := Ideal.div (Ideal.exp (e f wqk i j - refM f wqk i)) (refS f wqk i)
def refOut (j : Fin 8192) (c : Fin 256) : EReal := g * (∑ i : Fin 8192, refAttn f wqk i j * v f wv bv i c) + f j c

/-! ## The kernel: blocks of 1024 rows, a running maximum and a rescaled running sum -/

/-- Row `r` of block `a`. -/
def row (a : Fin 8) (r : Fin 1024) : Fin 8192 := ⟨1024 * a.val + r.val, by omega⟩

/-- One step of the running statistics of row `n` over column block `b`: the new maximum, and the old sum rescaled to
    it plus the block's sum of exponentials against it. -/
def statStep (n : Fin 8192) (ml : EReal × EReal) (b : Fin 8) : EReal × EReal :=
  let m' := max ml.1 (Finset.univ.sup fun s : Fin 1024 => e f wqk n (row b s))
  (m', ml.2 * Ideal.exp (ml.1 - m') + ∑ s : Fin 1024, Ideal.exp (e f wqk n (row b s) - m'))

/-- The running statistics of row `n` after the column blocks `0 … b`, from the maximum `⊥` and the sum `0`. -/
def stat (n : Fin 8192) : (b : ℕ) → b < 8 → EReal × EReal
  | 0, h => statStep f wqk n (⊥, 0) ⟨0, h⟩
  | b + 1, h => statStep f wqk n (stat n b (Nat.lt_of_succ_lt h)) ⟨b + 1, h⟩

/-- The row's log-sum-exp as the kernel forms it. -/
def lse (n : Fin 8192) : EReal := (stat f wqk n 7 (by omega)).1 + Ideal.log (stat f wqk n 7 (by omega)).2

/-- What row block `b` contributes to the output entry `(j, c)`. -/
def contrib (j : Fin 8192) (c : Fin 256) (b : Fin 8) : EReal :=
  ∑ s : Fin 1024, Ideal.exp (e f wqk j (row b s) - lse f wqk (row b s)) * v f wv bv (row b s) c

/-- The accumulator of entry `(j, c)` after the row blocks `0 … b`, from zero. -/
def acc (j : Fin 8192) (c : Fin 256) : (b : ℕ) → b < 8 → EReal
  | 0, h => 0 + contrib f wqk wv bv j c ⟨0, h⟩
  | b + 1, h => acc j c b (Nat.lt_of_succ_lt h) + contrib f wqk wv bv j c ⟨b + 1, h⟩

def kerOut (j : Fin 8192) (c : Fin 256) : EReal := g * acc f wqk wv bv j c 7 (by omega) + f j c

end Cert.Spec

end
-- ==== Proof.KI.Blocks.lean ====
/-
  The windows' blocks read at an index: block `t` of an array is the array at the block's index times the block's
  extent plus the coordinate inside the block.  The printed index maps are decided once over each grid: the row-block
  coordinate of a point of an 8 by 8 grid is its quotient by 8, the column-block coordinate its remainder.
-/
import proofs.«135495_j36636071035186_1_alg».proof.Proof.KI.Region0
import proofs.«135495_j36636071035186_1_alg».proof.Proof.KI.Region1
import proofs.«135495_j36636071035186_1_alg».proof.Proof.KI.Region2
import proofs.«135495_j36636071035186_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec (row)

variable {F : FTy → Type} [FloatOps F]
variable (V : (c : Dev nD) → (b : Ref sig .tc) → Buf (Elt F) ((c : Thread nD τ).loc b))

/-- The row-block and the column-block coordinate of a point of an 8 by 8 grid. -/
def hi8 (n : ℕ) (h : n < 64) : Fin 8 := ⟨n / 8, by omega⟩
def lo8 (n : ℕ) : Fin 8 := ⟨n % 8, by omega⟩
def pt0 (t : Fin cfg0.N) : Fin 8 := ⟨t.val, lt_of_lt_of_eq t.isLt N_0⟩
theorem lt1 (t : Fin cfg1.N) : t.val < 64 := lt_of_lt_of_eq t.isLt N_1
theorem lt2 (t : Fin cfg2.N) : t.val < 64 := lt_of_lt_of_eq t.isLt N_2

/-! ## The index maps, decided over the grids -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val ∧ win0_4.index t 1 = 0 :=
  (by decide +kernel : ∀ t : Fin grid0.N, win0_4.index t 0 = t.val ∧ win0_4.index t 1 = 0)
theorem idx0_5 : ∀ t : Fin cfg0.N, win0_5.index t 0 = t.val ∧ win0_5.index t 1 = 0 :=
  (by decide +kernel : ∀ t : Fin grid0.N, win0_5.index t 0 = t.val ∧ win0_5.index t 1 = 0)
theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val / 8 ∧ win1_2.index t 1 = 0 :=
  (by decide +kernel : ∀ t : Fin grid1.N, win1_2.index t 0 = t.val / 8 ∧ win1_2.index t 1 = 0)
theorem idx2_0 : ∀ t : Fin cfg2.N, win2_0.index t 0 = 0 ∧ win2_0.index t 1 = 0 :=
  (by decide +kernel : ∀ t : Fin grid2.N, win2_0.index t 0 = 0 ∧ win2_0.index t 1 = 0)
theorem idx2_1 : ∀ t : Fin cfg2.N, win2_1.index t 0 = t.val / 8 ∧ win2_1.index t 1 = 0 :=
  (by decide +kernel : ∀ t : Fin grid2.N, win2_1.index t 0 = t.val / 8 ∧ win2_1.index t 1 = 0)
theorem idx2_2 : ∀ t : Fin cfg2.N, win2_2.index t 0 = t.val % 8 ∧ win2_2.index t 1 = 0 :=
  (by decide +kernel : ∀ t : Fin grid2.N, win2_2.index t 0 = t.val % 8 ∧ win2_2.index t 1 = 0)
theorem idx2_3 : ∀ t : Fin cfg2.N, win2_3.index t 0 = t.val % 8 ∧ win2_3.index t 1 = 0 :=
  (by decide +kernel : ∀ t : Fin grid2.N, win2_3.index t 0 = t.val % 8 ∧ win2_3.index t 1 = 0)
theorem idx2_4 : ∀ t : Fin cfg2.N, win2_4.index t 0 = 0 ∧ win2_4.index t 1 = t.val % 8 :=
  (by decide +kernel : ∀ t : Fin grid2.N, win2_4.index t 0 = 0 ∧ win2_4.index t 1 = t.val % 8)
theorem idx2_5 : ∀ t : Fin cfg2.N, win2_5.index t 0 = t.val / 8 ∧ win2_5.index t 1 = 0 :=
  (by decide +kernel : ∀ t : Fin grid2.N, win2_5.index t 0 = t.val / 8 ∧ win2_5.index t 1 = 0)
theorem idx2_6 : ∀ t : Fin cfg2.N, win2_6.index t 0 = t.val / 8 ∧ win2_6.index t 1 = 0 :=
  (by decide +kernel : ∀ t : Fin grid2.N, win2_6.index t 0 = t.val / 8 ∧ win2_6.index t 1 = 0)

/-! ## Region 0's input blocks -/

theorem iblk0_0_apply (c : Dev nD) (t : Fin cfg0.N) (r : Fin 1024) (k : Fin 256) :
    iblk0 V c 0 t (ix2 r k) = V c main_arg0 (ix2 (row (pt0 t) r) k) := by
  unfold iblk0; rw [View.read_apply]
  show V c main_arg0 _ = V c main_arg0 _
  refine congrArg _ (funext fun a => Fin.ext ?_)
  match a with
  | ⟨0, _⟩ => show win0_0.index t 0 * 1024 + 1 * r.val = 1024 * t.val + r.val; rw [(idx0_0 t).1]; omega
  | ⟨1, _⟩ => show win0_0.index t 1 * 256 + 1 * k.val = k.val; rw [(idx0_0 t).2]; omega
theorem iblk0_1_apply (c : Dev nD) (t : Fin cfg0.N) (r : Fin 256) (k : Fin 32) :
    iblk0 V c 1 t (ix2 r k) = V c main_v0 (ix2 r k) := by
  unfold iblk0; rw [View.read_apply]
  show V c main_v0 _ = V c main_v0 _
  refine congrArg _ (funext fun a => Fin.ext ?_)
  match a with
  | ⟨0, _⟩ => show win0_1.index t 0 * 256 + 1 * r.val = r.val; rw [(idx0_1 t).1]; omega
  | ⟨1, _⟩ => show win0_1.index t 1 * 32 + 1 * k.val = k.val; rw [(idx0_1 t).2]; omega
theorem iblk0_2_apply (c : Dev nD) (t : Fin cfg0.N) (r : Fin 256) (k : Fin 256) :
    iblk0 V c 2 t (ix2 r k) = V c main_v1 (ix2 r k) := by
  unfold iblk0; rw [View.read_apply]
  show V c main_v1 _ = V c main_v1 _
  refine congrArg _ (funext fun a => Fin.ext ?_)
  match a with
  | ⟨0, _⟩ => show win0_2.index t 0 * 256 + 1 * r.val = r.val; rw [(idx0_2 t).1]; omega
  | ⟨1, _⟩ => show win0_2.index t 1 * 256 + 1 * k.val = k.val; rw [(idx0_2 t).2]; omega
theorem iblk0_3_apply (c : Dev nD) (t : Fin cfg0.N) (r : Fin 1) (k : Fin 256) :
    iblk0 V c 3 t (ix2 r k) = V c main_v2 (ix2 r k) := by
  unfold iblk0; rw [View.read_apply]
  show V c main_v2 _ = V c main_v2 _
  refine congrArg _ (funext fun a => Fin.ext ?_)
  match a with
  | ⟨0, _⟩ => show win0_3.index t 0 * 1 + 1 * r.val = r.val; rw [(idx0_3 t).1]; omega
  | ⟨1, _⟩ => show win0_3.index t 1 * 256 + 1 * k.val = k.val; rw [(idx0_3 t).2]; omega

/-! ## Region 1's input blocks: rows of q -/

theorem iblk1_0_apply (c : Dev nD) (t : Fin cfg1.N) (r : Fin 1024) (k : Fin 32) :
    iblk1 V c 0 t (ix2 r k) = V c main_v4_0 (ix2 (row (hi8 t.val (lt1 t)) r) k) := by
  unfold iblk1; rw [View.read_apply]
  show V c main_v4_0 _ = V c main_v4_0 _
  refine congrArg _ (funext fun a => Fin.ext ?_)
  match a with
  | ⟨0, _⟩ => show win1_0.index t 0 * 1024 + 1 * r.val = 1024 * (t.val / 8) + r.val; rw [(idx1_0 t).1]; omega
  | ⟨1, _⟩ => show win1_0.index t 1 * 32 + 1 * k.val = k.val; rw [(idx1_0 t).2]; omega
theorem iblk1_1_apply (c : Dev nD) (t : Fin cfg1.N) (r : Fin 1024) (k : Fin 32) :
    iblk1 V c 1 t (ix2 r k) = V c main_v4_0 (ix2 (row (lo8 t.val) r) k) := by
  unfold iblk1; rw [View.read_apply]
  show V c main_v4_0 _ = V c main_v4_0 _
  refine congrArg _ (funext fun a => Fin.ext ?_)
  match a with
  | ⟨0, _⟩ => show win1_1.index t 0 * 1024 + 1 * r.val = 1024 * (t.val % 8) + r.val; rw [(idx1_1 t).1]; omega
  | ⟨1, _⟩ => show win1_1.index t 1 * 32 + 1 * k.val = k.val; rw [(idx1_1 t).2]; omega

/-! ## Region 2's input blocks -/

theorem iblk2_0_apply (c : Dev nD) (t : Fin cfg2.N) (r : Fin 1) (k : Fin 1) :
    iblk2 V c 0 t (ix2 r k) = V c main_v3 (ix2 r k) := by
  unfold iblk2; rw [View.read_apply]
  show V c main_v3 _ = V c main_v3 _
  refine congrArg _ (funext fun a => Fin.ext ?_)
  match a with
  | ⟨0, _⟩ => show win2_0.index t 0 * 1 + 1 * r.val = r.val; rw [(idx2_0 t).1]; omega
  | ⟨1, _⟩ => show win2_0.index t 1 * 1 + 1 * k.val = k.val; rw [(idx2_0 t).2]; omega
theorem iblk2_1_apply (c : Dev nD) (t : Fin cfg2.N) (r : Fin 1024) (k : Fin 32) :
    iblk2 V c 1 t (ix2 r k) = V c main_v4_0 (ix2 (row (hi8 t.val (lt2 t)) r) k) := by
  unfold iblk2; rw [View.read_apply]
  show V c main_v4_0 _ = V c main_v4_0 _
  refine congrArg _ (funext fun a => Fin.ext ?_)
  match a with
  | ⟨0, _⟩ => show win2_1.index t 0 * 1024 + 1 * r.val = 1024 * (t.val / 8) + r.val; rw [(idx2_1 t).1]; omega
  | ⟨1, _⟩ => show win2_1.index t 1 * 32 + 1 * k.val = k.val; rw [(idx2_1 t).2]; omega
theorem iblk2_2_apply (c : Dev nD) (t : Fin cfg2.N) (r : Fin 1024) (k : Fin 32) :
    iblk2 V c 2 t (ix2 r k) = V c main_v4_0 (ix2 (row (lo8 t.val) r) k) := by
  unfold iblk2; rw [View.read_apply]
  show V c main_v4_0 _ = V c main_v4_0 _
  refine congrArg _ (funext fun a => Fin.ext ?_)
  match a with
  | ⟨0, _⟩ => show win2_2.index t 0 * 1024 + 1 * r.val = 1024 * (t.val % 8) + r.val; rw [(idx2_2 t).1]; omega
  | ⟨1, _⟩ => show win2_2.index t 1 * 32 + 1 * k.val = k.val; rw [(idx2_2 t).2]; omega
theorem iblk2_3_apply (c : Dev nD) (t : Fin cfg2.N) (r : Fin 1024) (k : Fin 256) :
    iblk2 V c 3 t (ix2 r k) = V c main_v4_1 (ix2 (row (lo8 t.val) r) k) := by
  unfold iblk2; rw [View.read_apply]
  show V c main_v4_1 _ = V c main_v4_1 _
  refine congrArg _ (funext fun a => Fin.ext ?_)
  match a with
  | ⟨0, _⟩ => show win2_3.index t 0 * 1024 + 1 * r.val = 1024 * (t.val % 8) + r.val; rw [(idx2_3 t).1]; omega
  | ⟨1, _⟩ => show win2_3.index t 1 * 256 + 1 * k.val = k.val; rw [(idx2_3 t).2]; omega
theorem iblk2_4_apply (c : Dev nD) (t : Fin cfg2.N) (r : Fin 1) (s : Fin 1024) :
    iblk2 V c 4 t (ix2 r s) = V c main_v6 (ix2 r (row (lo8 t.val) s)) := by
  unfold iblk2; rw [View.read_apply]
  show V c main_v6 _ = V c main_v6 _
  refine congrArg _ (funext fun a => Fin.ext ?_)
  match a with
  | ⟨0, _⟩ => show win2_4.index t 0 * 1 + 1 * r.val = r.val; rw [(idx2_4 t).1]; omega
  | ⟨1, _⟩ => show win2_4.index t 1 * 1024 + 1 * s.val = 1024 * (t.val % 8) + s.val; rw [(idx2_4 t).2]; omega
theorem iblk2_5_apply (c : Dev nD) (t : Fin cfg2.N) (r : Fin 1024) (k : Fin 256) :
    iblk2 V c 5 t (ix2 r k) = V c main_arg0 (ix2 (row (hi8 t.val (lt2 t)) r) k) := by
  unfold iblk2; rw [View.read_apply]
  show V c main_arg0 _ = V c main_arg0 _
  refine congrArg _ (funext fun a => Fin.ext ?_)
  match a with
  | ⟨0, _⟩ => show win2_5.index t 0 * 1024 + 1 * r.val = 1024 * (t.val / 8) + r.val; rw [(idx2_5 t).1]; omega
  | ⟨1, _⟩ => show win2_5.index t 1 * 256 + 1 * k.val = k.val; rw [(idx2_5 t).2]; omega

end Cert.KernelIdeal.Hand

end
-- ==== Proof.KI.Pieces.lean ====
/-
  What the bodies' stores leave, as values: each control case's found pieces read back as the skeleton's payloads of
  the blocks the case was run on.  A buffer stored whole and then loaded reads the stored payload; the last whole
  store of a buffer is what it ends holding.
-/
import proofs.«135495_j36636071035186_1_alg».proof.Proof.KI.Region1Runs
import proofs.«135495_j36636071035186_1_alg».proof.Proof.KI.Region2Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl

/-! ## The statistics kernel -/

section K1
variable (c : Dev nD) (i : grid1.Coords) (arg2 : Memref sig .tc .vmem S1024x32 .bf16) (harg2 : arg2.IsWhole) (arg3 : Memref sig .tc .vmem S1024x32 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (x0 x1 : Vec F S1024x32 .bf16)

/-- First column block: the maximum of -inf and the block's row maxima. -/
theorem run1_A_m (hc0 : cond1_0 i) (hc1 : ¬cond1_1 i) :
    View.canon (kernelRun1_A c i arg2 harg2 arg3 harg3 arg4 harg4 arg5 harg5 arg6 harg6 hc0 hc1 x0 x1).2.1 = k1_pay6 x0 x1 (k1_pay1 (F := F)) := by
  unfold kernelRun1_A; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
/-- First column block: the zero sum rescaled plus the block's sum of exponentials. -/
theorem run1_A_l (hc0 : cond1_0 i) (hc1 : ¬cond1_1 i) :
    View.canon (kernelRun1_A c i arg2 harg2 arg3 harg3 arg4 harg4 arg5 harg5 arg6 harg6 hc0 hc1 x0 x1).2.2.1 = k1_pay5 x0 x1 (k1_pay1 (F := F)) (k1_pay1 (F := F)) (k1_pay2 (F := F)) := by
  unfold kernelRun1_A; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
theorem run1_B_m (hc0 : ¬cond1_0 i) (hc1 : ¬cond1_1 i) (xs0 xs1 : Vec F S1024x1 .f32) :
    View.canon (kernelRun1_B c i arg2 harg2 arg3 harg3 arg4 harg4 arg5 harg5 arg6 harg6 hc0 hc1 x0 x1 xs0 xs1).2.1 = k1_pay6 x0 x1 xs0 := by
  unfold kernelRun1_B; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
theorem run1_B_l (hc0 : ¬cond1_0 i) (hc1 : ¬cond1_1 i) (xs0 xs1 : Vec F S1024x1 .f32) :
    View.canon (kernelRun1_B c i arg2 harg2 arg3 harg3 arg4 harg4 arg5 harg5 arg6 harg6 hc0 hc1 x0 x1 xs0 xs1).2.2.1 = k1_pay5 x0 x1 xs0 xs0 xs1 := by
  unfold kernelRun1_B; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
theorem run1_C_m (hc0 : ¬cond1_0 i) (hc1 : cond1_1 i) (xs0 xs1 : Vec F S1024x1 .f32) :
    View.canon (kernelRun1_C c i arg2 harg2 arg3 harg3 arg4 harg4 arg5 harg5 arg6 harg6 hc0 hc1 x0 x1 xs0 xs1).2.1 = k1_pay6 x0 x1 xs0 := by
  unfold kernelRun1_C; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
theorem run1_C_l (hc0 : ¬cond1_0 i) (hc1 : cond1_1 i) (xs0 xs1 : Vec F S1024x1 .f32) :
    View.canon (kernelRun1_C c i arg2 harg2 arg3 harg3 arg4 harg4 arg5 harg5 arg6 harg6 hc0 hc1 x0 x1 xs0 xs1).2.2.1 = k1_pay5 x0 x1 xs0 xs0 xs1 := by
  unfold kernelRun1_C; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
/-- Last column block: the stored log-sum-exp, of the statistics just updated. -/
theorem run1_C_out (hc0 : ¬cond1_0 i) (hc1 : cond1_1 i) (xs0 xs1 : Vec F S1024x1 .f32) :
    View.canon (kernelRun1_C c i arg2 harg2 arg3 harg3 arg4 harg4 arg5 harg5 arg6 harg6 hc0 hc1 x0 x1 xs0 xs1).1 = k1_pay7 (k1_pay6 x0 x1 xs0) (k1_pay5 x0 x1 xs0 xs0 xs1) := by
  unfold kernelRun1_C; dsimp only; sl_unfold_words
  simp only [View.canon_unit_zero (S := S1024x1) hz2, View.canon_cons_unit_zero (S := S1024x1) hz2, View.readCov_unit_zero (S := S1024x1) _ hz2,
    View.readAt_eq_ld, harg2.read_unread, harg3.read_unread, harg4.read_unread, harg5.read_unread, harg6.read_unread,
    View.ld_unit_zero (S := S1024x32) hz2, View.ld_unit_zero (S := S1024x1) hz2]
end K1

/-! ## The output kernel -/

section K2
variable (c : Dev nD) (i : grid2.Coords) (arg2 : Memref sig .tc .vmem S1x1 .f32) (harg2 : arg2.IsWhole) (arg3 : Memref sig .tc .vmem S1024x32 .bf16) (harg3 : arg3.IsWhole) (arg4 : Memref sig .tc .vmem S1024x32 .bf16) (harg4 : arg4.IsWhole) (arg5 : Memref sig .tc .vmem S1024x256 .bf16) (harg5 : arg5.IsWhole) (arg6 : Memref sig .tc .vmem S1x1024 .f32) (harg6 : arg6.IsWhole) (arg7 : Memref sig .tc .vmem S1024x256 .f32) (harg7 : arg7.IsWhole) (arg8 : Memref sig .tc .vmem S1024x256 .f32) (harg8 : arg8.IsWhole) (arg9 : Memref sig .tc .vmem S1024x256 .f32) (harg9 : arg9.IsWhole) (x0 : Vec F S1x1 .f32) (x1 : Vec F S1024x32 .bf16) (x2 : Vec F S1024x32 .bf16) (x3 : Vec F S1024x256 .bf16) (x4 : Vec F S1x1024 .f32) (x5 : Vec F S1024x256 .f32)

theorem run2_A_acc (hc0 : cond2_0 i) (hc1 : ¬cond2_1 i) :
    View.canon (kernelRun2_A c i arg2 harg2 arg3 harg3 arg4 harg4 arg5 harg5 arg6 harg6 arg7 harg7 arg8 harg8 arg9 harg9 hc0 hc1 x0 x1 x2 x3 x4 x5).2.1 = k2_pay2 x1 x2 x4 x3 (k2_pay1 (F := F)) := by
  unfold kernelRun2_A; dsimp only; sl_unfold_words
  simp only [View.canon_unit_zero (S := S1024x256) hz2, View.canon_cons_unit_zero (S := S1024x256) hz2, View.readCov_unit_zero (S := S1024x256) _ hz2,
    View.readAt_eq_ld, harg2.read_unread, harg3.read_unread, harg4.read_unread, harg5.read_unread, harg6.read_unread, harg7.read_unread, harg8.read_unread, harg9.read_unread,
    View.ld_unit_zero (S := S1024x32) hz2, View.ld_unit_zero (S := S1024x256) hz2, View.ld_unit_zero (S := S1x1) hz2, View.ld_unit_zero (S := S1x1024) hz2]
theorem run2_B_acc (hc0 : ¬cond2_0 i) (hc1 : ¬cond2_1 i) (xs0 : Vec F S1024x256 .f32) :
    View.canon (kernelRun2_B c i arg2 harg2 arg3 harg3 arg4 harg4 arg5 harg5 arg6 harg6 arg7 harg7 arg8 harg8 arg9 harg9 hc0 hc1 x0 x1 x2 x3 x4 x5 xs0).2.1 = k2_pay2 x1 x2 x4 x3 xs0 := by
  unfold kernelRun2_B; dsimp only; sl_unfold_words
  simp only [View.canon_unit_zero (S := S1024x256) hz2, View.canon_cons_unit_zero (S := S1024x256) hz2, View.readCov_unit_zero (S := S1024x256) _ hz2,
    View.readAt_eq_ld, harg2.read_unread, harg3.read_unread, harg4.read_unread, harg5.read_unread, harg6.read_unread, harg7.read_unread, harg8.read_unread, harg9.read_unread,
    View.ld_unit_zero (S := S1024x32) hz2, View.ld_unit_zero (S := S1024x256) hz2, View.ld_unit_zero (S := S1x1) hz2, View.ld_unit_zero (S := S1x1024) hz2]
theorem run2_C_acc (hc0 : ¬cond2_0 i) (hc1 : cond2_1 i) (xs0 : Vec F S1024x256 .f32) :
    View.canon (kernelRun2_C c i arg2 harg2 arg3 harg3 arg4 harg4 arg5 harg5 arg6 harg6 arg7 harg7 arg8 harg8 arg9 harg9 hc0 hc1 x0 x1 x2 x3 x4 x5 xs0).2.1 = k2_pay2 x1 x2 x4 x3 xs0 := by
  unfold kernelRun2_C; dsimp only; sl_unfold_words
  simp only [View.canon_unit_zero (S := S1024x256) hz2, View.canon_cons_unit_zero (S := S1024x256) hz2, View.readCov_unit_zero (S := S1024x256) _ hz2,
    View.readAt_eq_ld, harg2.read_unread, harg3.read_unread, harg4.read_unread, harg5.read_unread, harg6.read_unread, harg7.read_unread, harg8.read_unread, harg9.read_unread,
    View.ld_unit_zero (S := S1024x32) hz2, View.ld_unit_zero (S := S1024x256) hz2, View.ld_unit_zero (S := S1x1) hz2, View.ld_unit_zero (S := S1x1024) hz2]
/-- Last contracted block: the stored output, of the accumulator just grown. -/
theorem run2_C_out (hc0 : ¬cond2_0 i) (hc1 : cond2_1 i) (xs0 : Vec F S1024x256 .f32) :
    View.canon (kernelRun2_C c i arg2 harg2 arg3 harg3 arg4 harg4 arg5 harg5 arg6 harg6 arg7 harg7 arg8 harg8 arg9 harg9 hc0 hc1 x0 x1 x2 x3 x4 x5 xs0).1 = k2_pay3 x0 (k2_pay2 x1 x2 x4 x3 xs0) x5 := by
  unfold kernelRun2_C; dsimp only; sl_unfold_words
  simp only [View.canon_unit_zero (S := S1024x256) hz2, View.canon_cons_unit_zero (S := S1024x256) hz2, View.readCov_unit_zero (S := S1024x256) _ hz2,
    View.readAt_eq_ld, harg2.read_unread, harg3.read_unread, harg4.read_unread, harg5.read_unread, harg6.read_unread, harg7.read_unread, harg8.read_unread, harg9.read_unread,
    View.ld_unit_zero (S := S1024x32) hz2, View.ld_unit_zero (S := S1024x256) hz2, View.ld_unit_zero (S := S1x1) hz2, View.ld_unit_zero (S := S1x1024) hz2]
end K2

end Cert.KernelIdeal.Hand

end
-- ==== Proof.Pay.Common.lean ====
/-
  Shared reading lemmas for the kernel payloads at the ideal float instance: the bit pattern of minus
  infinity, the two keepdims column layouts ([a] viewed [a,1]; a column [a,1] spread over [a,b]),
  and the score matrix of two [1024,32] operands contracted along their second axes.
-/
import proofs.«135495_j36636071035186_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The f32 pattern of minus infinity denotes the bottom extended real. -/
theorem ofBits_neg_inf_f32 : Ideal.ofBits .f32 0xFF800000#32 = ⊥ := by simp [Ideal.ofBits, Ideal.ieee]

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The score of row `r` of `x` against row `s` of `y`: their inner product over the 32 features. -/
def E (x y : Vec Ideal S1024x32 .bf16) (r s : Fin 1024) : EReal := ∑ k : Fin 32, x (ix2 r k) * y (ix2 s k)

/-! ## The score contraction: `[1024,32] × [1024,32] → [1024,1024]` along the feature axis of both -/

theorem scores_lhs_0 (i : S1024x1024.Idx) (q : dot_S1024x32_S1024x32_S1024x1024_1_1_0_0_n_n.contr.Idx) :
    (dot_S1024x32_S1024x32_S1024x1024_1_1_0_0_n_n.lhsIdx i q 0).val = (i 0).val := by
  unfold DotDims.lhsIdx
  rw [dif_neg (show ¬(0 : Fin S1024x32.rank) ∈ dot_S1024x32_S1024x32_S1024x1024_1_1_0_0_n_n.lhsBatch by decide),
    dif_pos (show (0 : Fin S1024x32.rank) ∈ dot_S1024x32_S1024x32_S1024x1024_1_1_0_0_n_n.lhsNonContracting by decide)]
  rfl
theorem scores_lhs_1 (i : S1024x1024.Idx) (q : dot_S1024x32_S1024x32_S1024x1024_1_1_0_0_n_n.contr.Idx) :
    (dot_S1024x32_S1024x32_S1024x1024_1_1_0_0_n_n.lhsIdx i q 1).val = (q ⟨0, by decide⟩).val :=
  dot_S1024x32_S1024x32_S1024x1024_1_1_0_0_n_n.lhsIdx_val_of_single rfl i q
theorem scores_rhs_0 (i : S1024x1024.Idx) (q : dot_S1024x32_S1024x32_S1024x1024_1_1_0_0_n_n.contr.Idx) :
    (dot_S1024x32_S1024x32_S1024x1024_1_1_0_0_n_n.rhsIdx i q 0).val = (i 1).val := by
  unfold DotDims.rhsIdx
  rw [dif_neg (show ¬(0 : Fin S1024x32.rank) ∈ dot_S1024x32_S1024x32_S1024x1024_1_1_0_0_n_n.rhsBatch by decide),
    dif_pos (show (0 : Fin S1024x32.rank) ∈ dot_S1024x32_S1024x32_S1024x1024_1_1_0_0_n_n.rhsNonContracting by decide)]
  rfl
theorem scores_rhs_1 (i : S1024x1024.Idx) (q : dot_S1024x32_S1024x32_S1024x1024_1_1_0_0_n_n.contr.Idx) :
    (dot_S1024x32_S1024x32_S1024x1024_1_1_0_0_n_n.rhsIdx i q 1).val = (q ⟨0, by decide⟩).val :=
  dot_S1024x32_S1024x32_S1024x1024_1_1_0_0_n_n.rhsIdx_val_of_single rfl i q

/-- The score matmul into the zero splat, read at `(r, s)`, is the score `E x y r s`: the left operand's row `r`
    against the right operand's row `s`. -/
theorem scores_apply (x y : FVec Ideal S1024x32 .bf16) (r s : Fin 1024) :
    matmul dot_S1024x32_S1024x32_S1024x1024_1_1_0_0_n_n none x y
        (constant (F := Ideal) S1024x1024 .f32 0x00000000#32) (ix2 r s) = E x y r s := by
  refine (Ideal.matmul_constant_zero_apply dot_S1024x32_S1024x32_S1024x1024_1_1_0_0_n_n none x y (ix2 r s)).trans ?_
  rw [← Equiv.sum_comp (contrEquiv1 dot_S1024x32_S1024x32_S1024x1024_1_1_0_0_n_n 32 rfl rfl).symm]
  unfold E
  refine Finset.sum_congr rfl fun k _ => ?_
  have hk := contrEquiv1_symm_val dot_S1024x32_S1024x32_S1024x1024_1_1_0_0_n_n 32 rfl rfl k
  have el : dot_S1024x32_S1024x32_S1024x1024_1_1_0_0_n_n.lhsIdx (ix2 r s)
      ((contrEquiv1 dot_S1024x32_S1024x32_S1024x1024_1_1_0_0_n_n 32 rfl rfl).symm k) = ix2 r k :=
    funext fun a => Fin.ext (by
      match a with
      | ⟨0, _⟩ => exact scores_lhs_0 _ _
      | ⟨1, _⟩ => exact (scores_lhs_1 _ _).trans hk)
  have er : dot_S1024x32_S1024x32_S1024x1024_1_1_0_0_n_n.rhsIdx (ix2 r s)
      ((contrEquiv1 dot_S1024x32_S1024x32_S1024x1024_1_1_0_0_n_n 32 rfl rfl).symm k) = ix2 s k :=
    funext fun a => Fin.ext (by
      match a with
      | ⟨0, _⟩ => exact scores_rhs_0 _ _
      | ⟨1, _⟩ => exact (scores_rhs_1 _ _).trans hk)
  rw [el, er]

end Cert.KernelIdeal.Pay
-- ==== Proof.Pay.K0.lean ====
/-
  The projection kernel's two stored values read at an index, at the ideal float instance: the feature
  projection `x0 · x1` and the value projection `x0 · x2 + x3` (the bias row spread over the rows). The
  narrowing format changes are the identity on extended reals and the matmuls accumulate into zero.
-/
import proofs.«135495_j36636071035186_1_alg».proof.Proof.Pay.Common

noncomputable section

open scoped BigOperators

namespace Cert.KernelIdeal.Pay

open Cert.KernelIdeal Cert.KernelIdeal.Gen Idealize.ShloMosaic Idealize.ShloMosaic.ValueIdx

/-! ## The two projections' contractions -/

theorem featProj_lhs_0 (i : S1024x32.Idx) (q : dot_S1024x256_S256x32_S1024x32_1_0_0_1_n_n.contr.Idx) :
    (dot_S1024x256_S256x32_S1024x32_1_0_0_1_n_n.lhsIdx i q 0).val = (i 0).val := by
  unfold DotDims.lhsIdx
  rw [dif_neg (show ¬(0 : Fin S1024x256.rank) ∈ dot_S1024x256_S256x32_S1024x32_1_0_0_1_n_n.lhsBatch by decide),
    dif_pos (show (0 : Fin S1024x256.rank) ∈ dot_S1024x256_S256x32_S1024x32_1_0_0_1_n_n.lhsNonContracting by decide)]
  rfl
theorem featProj_lhs_1 (i : S1024x32.Idx) (q : dot_S1024x256_S256x32_S1024x32_1_0_0_1_n_n.contr.Idx) :
    (dot_S1024x256_S256x32_S1024x32_1_0_0_1_n_n.lhsIdx i q 1).val = (q ⟨0, by decide⟩).val :=
  dot_S1024x256_S256x32_S1024x32_1_0_0_1_n_n.lhsIdx_val_of_single rfl i q
theorem featProj_rhs_0 (i : S1024x32.Idx) (q : dot_S1024x256_S256x32_S1024x32_1_0_0_1_n_n.contr.Idx) :
    (dot_S1024x256_S256x32_S1024x32_1_0_0_1_n_n.rhsIdx i q 0).val = (q ⟨0, by decide⟩).val :=
  dot_S1024x256_S256x32_S1024x32_1_0_0_1_n_n.rhsIdx_val_of_single rfl i q
theorem featProj_rhs_1 (i : S1024x32.Idx) (q : dot_S1024x256_S256x32_S1024x32_1_0_0_1_n_n.contr.Idx) :
    (dot_S1024x256_S256x32_S1024x32_1_0_0_1_n_n.rhsIdx i q 1).val = (i 1).val := by
  unfold DotDims.rhsIdx
  rw [dif_neg (show ¬(1 : Fin S256x32.rank) ∈ dot_S1024x256_S256x32_S1024x32_1_0_0_1_n_n.rhsBatch by decide),
    dif_pos (show (1 : Fin S256x32.rank) ∈ dot_S1024x256_S256x32_S1024x32_1_0_0_1_n_n.rhsNonContracting by decide)]
  rfl

/-- The feature projection's matmul into the zero splat, read at `(r, c)`: row `r` of the left operand against column `c` of the right. -/
theorem featProj_apply (x : FVec Ideal S1024x256 .bf16) (y : FVec Ideal S256x32 .bf16) (r : Fin 1024) (c : Fin 32) :
    matmul dot_S1024x256_S256x32_S1024x32_1_0_0_1_n_n none x y
        (constant (F := Ideal) S1024x32 .f32 0x00000000#32) (ix2 r c) = ∑ k : Fin 256, x (ix2 r k) * y (ix2 k c) := by
  refine (Ideal.matmul_constant_zero_apply dot_S1024x256_S256x32_S1024x32_1_0_0_1_n_n none x y (ix2 r c)).trans ?_
  rw [← Equiv.sum_comp (contrEquiv1 dot_S1024x256_S256x32_S1024x32_1_0_0_1_n_n 256 rfl rfl).symm]
  refine Finset.sum_congr rfl fun k _ => ?_
  have hk := contrEquiv1_symm_val dot_S1024x256_S256x32_S1024x32_1_0_0_1_n_n 256 rfl rfl k
  have el : dot_S1024x256_S256x32_S1024x32_1_0_0_1_n_n.lhsIdx (ix2 r c)
      ((contrEquiv1 dot_S1024x256_S256x32_S1024x32_1_0_0_1_n_n 256 rfl rfl).symm k) = ix2 r k :=
    funext fun a => Fin.ext (by
      match a with
      | ⟨0, _⟩ => exact featProj_lhs_0 _ _
      | ⟨1, _⟩ => exact (featProj_lhs_1 _ _).trans hk)
  have er : dot_S1024x256_S256x32_S1024x32_1_0_0_1_n_n.rhsIdx (ix2 r c)
      ((contrEquiv1 dot_S1024x256_S256x32_S1024x32_1_0_0_1_n_n 256 rfl rfl).symm k) = ix2 k c :=
    funext fun a => Fin.ext (by
      match a with
      | ⟨0, _⟩ => exact (featProj_rhs_0 _ _).trans hk
      | ⟨1, _⟩ => exact featProj_rhs_1 _ _)
  rw [el, er]

theorem valProj_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem valProj_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem valProj_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem valProj_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The value projection's matmul into the zero splat, read at `(r, c)`: row `r` of the left operand against column `c` of the right. -/
theorem valProj_apply (x : FVec Ideal S1024x256 .bf16) (y : FVec Ideal S256x256 .bf16) (r : Fin 1024) (c : Fin 256) :
    matmul dot_S1024x256_S256x256_S1024x256_1_0_0_1_n_n none x y
        (constant (F := Ideal) S1024x256 .f32 0x00000000#32) (ix2 r c) = ∑ k : Fin 256, x (ix2 r k) * y (ix2 k c) := by
  refine (Ideal.matmul_constant_zero_apply dot_S1024x256_S256x256_S1024x256_1_0_0_1_n_n none x y (ix2 r c)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r c)
      ((contrEquiv1 dot_S1024x256_S256x256_S1024x256_1_0_0_1_n_n 256 rfl rfl).symm k) = ix2 r k :=
    funext fun a => Fin.ext (by
      match a with
      | ⟨0, _⟩ => exact valProj_lhs_0 _ _
      | ⟨1, _⟩ => exact (valProj_lhs_1 _ _).trans hk)
  have er : dot_S1024x256_S256x256_S1024x256_1_0_0_1_n_n.rhsIdx (ix2 r c)
      ((contrEquiv1 dot_S1024x256_S256x256_S1024x256_1_0_0_1_n_n 256 rfl rfl).symm k) = ix2 k c :=
    funext fun a => Fin.ext (by
      match a with
      | ⟨0, _⟩ => exact (valProj_rhs_0 _ _).trans hk
      | ⟨1, _⟩ => exact valProj_rhs_1 _ _)
  rw [el, er]

/-! ## The stored values -/

/-- The stored feature projection at `(r, k)`. -/
theorem k0_pay2_apply (x0 : Vec Ideal S1024x256 .f32) (x1 : Vec Ideal S256x32 .f32) (r : Fin 1024) (k : Fin 32) :
    k0_pay2 (F := Ideal) x0 x1 (ix2 r k) = ∑ c : Fin 256, x0 (ix2 r c) * x1 (ix2 c k) := by
  unfold k0_pay2 k0_pay1
  refine (featProj_apply _ _ r k).trans ?_
  refine Finset.sum_congr rfl fun c _ => ?_
  rw [shapeCast_self]
  rfl

/-- The stored value projection at `(r, c)`: the product plus the bias row's entry at column `c`. -/
theorem k0_pay3_apply (x0 : Vec Ideal S1024x256 .f32) (x2 : Vec Ideal S256x256 .f32) (x3 : Vec Ideal S1x256 .f32)
    (r : Fin 1024) (c : Fin 256) :
    k0_pay3 (F := Ideal) x0 x2 x3 (ix2 r c) = (∑ d : Fin 256, x0 (ix2 r d) * x2 (ix2 d c)) + x3 (ix2 0 c) := by
  unfold k0_pay3 k0_pay1
  refine (addf_apply _ _ (ix2 r c)).trans ?_
  refine congrArg₂ (· + ·) ((valProj_apply _ _ r c).trans ?_) ?_
  · refine Finset.sum_congr rfl fun d _ => ?_
    rw [shapeCast_self]
    rfl
  · refine (broadcastTo_1b_ab_apply _ _ r c).trans ?_
    rw [shapeCast_self]

end Cert.KernelIdeal.Pay
-- ==== Proof.KI.Val0.lean ====
/-
  Region 0's results as whole arrays, at the ideal instance: the q rows are the features times the transposed q/k
  weights, the v rows the features times the transposed value weights plus the bias row.  Each grid point writes
  back one block of 1024 rows; the blocks tile the arrays.
-/
import proofs.«135495_j36636071035186_1_alg».proof.Proof.KI.Blocks
import proofs.«135495_j36636071035186_1_alg».proof.Proof.KI.Pieces
import proofs.«135495_j36636071035186_1_alg».proof.Proof.Pay.K0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (row)

variable (V : (c : Dev nD) → (b : Ref sig .tc) → Buf (Elt Ideal) ((c : Thread nD τ).loc b))

/-- A product of the feature rows with a matrix of 256 rows, entry by entry. -/
def prodAt {n : ℕ} (a0 : S8192x256.Idx → EReal) (w : (⟨2, ![256, n]⟩ : Shape).Idx → EReal) (r : Fin 8192) (k : Fin n) : EReal :=
  ∑ d : Fin 256, a0 (ix2 r d) * w (ix2 d k)

def Gq (c : Dev nD) : S8192x32.Idx → EReal := fun i => prodAt (V c main_arg0) (V c main_v0) (i 0) (i 1)
def Gv (c : Dev nD) : S8192x256.Idx → EReal := fun i => prodAt (V c main_arg0) (V c main_v1) (i 0) (i 1) + V c main_v2 (ix2 (0 : Fin 1) (i 1))

theorem flushed0_4 (c : Dev nD) (t : Fin cfg0.N) :
    (dat0 V c).flushed 4 t = ((cfg0.win 4).blk t).view.read (Elt Ideal) (Gq V c) := by
  show (cfg0.win 4).cut (grid0.coords t) ((dat0 V c).after 4 t) = _
  rw [after0_4]
  unfold out0_4
  rw [View.canon_unit_zero hz2]
  simp only [View.ld_unit_zero (S := S1024x256) hz2, View.ld_unit_zero (S := S256x32) hz2]
  funext j
  obtain ⟨r, k, rfl⟩ : ∃ (r : Fin 1024) (k : Fin 32), j = ix2 r k := ⟨j 0, j 1, eq_ix2 j⟩
  rw [View.read_apply]
  refine (Pay.k0_pay2_apply _ _ r k).trans ?_
  simp only [iblk0_0_apply, iblk0_1_apply]
  have e0 : ((((cfg0.win 4).blk t).view.emb (ix2 r k)) 0 : Fin 8192) = row (pt0 t) r :=
    Fin.ext (by show win0_4.index t 0 * 1024 + 1 * r.val = 1024 * t.val + r.val; rw [(idx0_4 t).1]; omega)
  have e1 : ((((cfg0.win 4).blk t).view.emb (ix2 r k)) 1 : Fin 32) = k :=
    Fin.ext (by show win0_4.index t 1 * 32 + 1 * k.val = k.val; rw [(idx0_4 t).2]; omega)
  show _ = prodAt (V c main_arg0) (V c main_v0) ((((cfg0.win 4).blk t).view.emb (ix2 r k)) 0 : Fin 8192) ((((cfg0.win 4).blk t).view.emb (ix2 r k)) 1 : Fin 32)
  rw [e0, e1]
  rfl

theorem mem_blk0_4 (t : Fin cfg0.N) (i : S8192x32.Idx) :
    i ∈ ((cfg0.win 4).blk t).view.set ↔ ∀ a : Fin 2, win0_4.index t a * S1024x32.size a ≤ (i a).val ∧ (i a).val < win0_4.index t a * S1024x32.size a + S1024x32.size a := by
  show i ∈ ((View.whole main_v4_0).slice (win0_4.rect t)).set ↔ _
  rw [View.set_slice_whole, Rect.mem_set_unit]
  exact Iff.rfl

/-- The q rows after region 0. -/
theorem q_final (c : Dev nD) : (dat0 V c).arrAt 4 cfg0.N = Gq V c :=
  (dat0 V c).arrAt_eq_of_cover 4 (Gq V c) (fun t _ => flushed0_4 V c t) fun i => by
    have hi0 : (i 0).val < 8192 := (i 0).isLt
    have hi1 : (i 1).val < 32 := (i 1).isLt
    refine ⟨⟨(i 0).val / 1024, by rw [show cfg0.N = 8 from N_0]; omega⟩, flush0_4 _, ?_⟩
    rw [mem_blk0_4]
    intro a
    match a with
    | ⟨0, _⟩ => show win0_4.index _ 0 * 1024 ≤ (i 0).val ∧ (i 0).val < win0_4.index _ 0 * 1024 + 1024; rw [(idx0_4 _).1]; dsimp only; omega
    | ⟨1, _⟩ => show win0_4.index _ 1 * 32 ≤ (i 1).val ∧ (i 1).val < win0_4.index _ 1 * 32 + 32; rw [(idx0_4 _).2]; omega

theorem flushed0_5 (c : Dev nD) (t : Fin cfg0.N) :
    (dat0 V c).flushed 5 t = ((cfg0.win 5).blk t).view.read (Elt Ideal) (Gv V c) := by
  show (cfg0.win 5).cut (grid0.coords t) ((dat0 V c).after 5 t) = _
  rw [after0_5]
  unfold out0_5
  rw [View.canon_unit_zero hz2]
  simp only [View.ld_unit_zero (S := S1024x256) hz2, View.ld_unit_zero (S := S256x256) hz2, View.ld_unit_zero (S := S1x256) hz2]
  funext j
  obtain ⟨r, k, rfl⟩ : ∃ (r : Fin 1024) (k : Fin 256), j = ix2 r k := ⟨j 0, j 1, eq_ix2 j⟩
  rw [View.read_apply]
  refine (Pay.k0_pay3_apply _ _ _ r k).trans ?_
  simp only [iblk0_0_apply, iblk0_2_apply, iblk0_3_apply]
  have e0 : ((((cfg0.win 5).blk t).view.emb (ix2 r k)) 0 : Fin 8192) = row (pt0 t) r :=
    Fin.ext (by show win0_5.index t 0 * 1024 + 1 * r.val = 1024 * t.val + r.val; rw [(idx0_5 t).1]; omega)
  have e1 : ((((cfg0.win 5).blk t).view.emb (ix2 r k)) 1 : Fin 256) = k :=
    Fin.ext (by show win0_5.index t 1 * 256 + 1 * k.val = k.val; rw [(idx0_5 t).2]; omega)
  show _ = prodAt (V c main_arg0) (V c main_v1) ((((cfg0.win 5).blk t).view.emb (ix2 r k)) 0 : Fin 8192) ((((cfg0.win 5).blk t).view.emb (ix2 r k)) 1 : Fin 256)
      + V c main_v2 (ix2 (0 : Fin 1) ((((cfg0.win 5).blk t).view.emb (ix2 r k)) 1 : Fin 256))
  rw [e0, e1]
  rfl

theorem mem_blk0_5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v4_1).slice (win0_5.rect t)).set ↔ _
  rw [View.set_slice_whole, Rect.mem_set_unit]
  exact Iff.rfl

/-- The v rows after region 0. -/
theorem v_final (c : Dev nD) : (dat0 V c).arrAt 5 cfg0.N = Gv V c :=
  (dat0 V c).arrAt_eq_of_cover 5 (Gv V c) (fun t _ => flushed0_5 V c t) fun i => by
    have hi0 : (i 0).val < 8192 := (i 0).isLt
    have hi1 : (i 1).val < 256 := (i 1).isLt
    refine ⟨⟨(i 0).val / 1024, by rw [show cfg0.N = 8 from N_0]; omega⟩, flush0_5 _, ?_⟩
    rw [mem_blk0_5]
    intro a
    match a with
    | ⟨0, _⟩ => show win0_5.index _ 0 * 1024 ≤ (i 0).val ∧ (i 0).val < win0_5.index _ 0 * 1024 + 1024; rw [(idx0_5 _).1]; dsimp only; omega
    | ⟨1, _⟩ => show win0_5.index _ 1 * 256 ≤ (i 1).val ∧ (i 1).val < win0_5.index _ 1 * 256 + 256; rw [(idx0_5 _).2]; omega

end Cert.KernelIdeal.Hand

end
-- ==== Proof.KI.Chain.lean ====
/-
  The recursions over the grid points in closed form: what the running maximum, the running sum and the accumulator
  hold after each point, and what the two stored outputs are at their last blocks, as the skeleton's payloads of the
  windows' blocks.
-/
import proofs.«135495_j36636071035186_1_alg».proof.Proof.KI.Region1
import proofs.«135495_j36636071035186_1_alg».proof.Proof.KI.Region2
import proofs.«135495_j36636071035186_1_alg».proof.Proof.KI.Pieces

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (V : (c : Dev nD) → (b : Ref sig .tc) → Buf (Elt F) ((c : Thread nD τ).loc b))

/-! ## The statistics -/

theorem stat1_first (c : Dev nD) (t : Fin cfg1.N) (h0 : t.val % 8 = 0) :
    (outsAt1 V c t.val t.isLt).2 = (k1_pay6 (iblk1 V c 0 t) (iblk1 V c 1 t) (k1_pay1 (F := F)), k1_pay5 (iblk1 V c 0 t) (iblk1 V c 1 t) (k1_pay1 (F := F)) (k1_pay1 (F := F)) (k1_pay2 (F := F))) := by
  have h1 : ¬t.val % 8 = 7 := by omega
  rw [outsAt1_A V c t h0 h1]; unfold stepA1; dsimp only
  rw [run1_A_m, run1_A_l]

theorem stat1_next (c : Dev nD) (t : Fin cfg1.N) (h0 : ¬t.val % 8 = 0) :
    (outsAt1 V c t.val t.isLt).2
      = (k1_pay6 (iblk1 V c 0 t) (iblk1 V c 1 t) (outsAt1 V c (t.val - 1) (Nat.lt_of_le_of_lt (Nat.sub_le _ _) t.isLt)).2.1,
         k1_pay5 (iblk1 V c 0 t) (iblk1 V c 1 t) (outsAt1 V c (t.val - 1) (Nat.lt_of_le_of_lt (Nat.sub_le _ _) t.isLt)).2.1
           (outsAt1 V c (t.val - 1) (Nat.lt_of_le_of_lt (Nat.sub_le _ _) t.isLt)).2.1
           (outsAt1 V c (t.val - 1) (Nat.lt_of_le_of_lt (Nat.sub_le _ _) t.isLt)).2.2) := by
  by_cases h1 : t.val % 8 = 7
  · rw [outsAt1_C V c t h0 h1]; unfold stepC1; dsimp only
    rw [run1_C_m, run1_C_l]
  · rw [outsAt1_B V c t h0 h1]; unfold stepB1; dsimp only
    rw [run1_B_m, run1_B_l]

/-- At a last column block the stored block is the log-sum-exp of the statistics just updated. -/
theorem out1_last (c : Dev nD) (t : Fin cfg1.N) (h1 : t.val % 8 = 7) :
    (outsAt1 V c t.val t.isLt).1 = k1_pay7 (outsAt1 V c t.val t.isLt).2.1 (outsAt1 V c t.val t.isLt).2.2 := by
  have h0 : ¬t.val % 8 = 0 := by omega
  rw [outsAt1_C V c t h0 h1]; unfold stepC1; dsimp only
  rw [run1_C_out, run1_C_m, run1_C_l]

/-! ## The accumulator -/

theorem acc2_first (c : Dev nD) (t : Fin cfg2.N) (h0 : t.val % 8 = 0) :
    (outsAt2 V c t.val t.isLt).2 = k2_pay2 (iblk2 V c 1 t) (iblk2 V c 2 t) (iblk2 V c 4 t) (iblk2 V c 3 t) (k2_pay1 (F := F)) := by
  have h1 : ¬t.val % 8 = 7 := by omega
  rw [outsAt2_A V c t h0 h1]; unfold stepA2; dsimp only
  rw [run2_A_acc]

theorem acc2_next (c : Dev nD) (t : Fin cfg2.N) (h0 : ¬t.val % 8 = 0) :
    (outsAt2 V c t.val t.isLt).2 = k2_pay2 (iblk2 V c 1 t) (iblk2 V c 2 t) (iblk2 V c 4 t) (iblk2 V c 3 t) (outsAt2 V c (t.val - 1) (Nat.lt_of_le_of_lt (Nat.sub_le _ _) t.isLt)).2 := by
  by_cases h1 : t.val % 8 = 7
  · rw [outsAt2_C V c t h0 h1]; unfold stepC2; dsimp only
    rw [run2_C_acc]
  · rw [outsAt2_B V c t h0 h1]; unfold stepB2; dsimp only
    rw [run2_B_acc]

/-- At a last contracted block the stored block is γ times the accumulator just grown, plus the feature block. -/
theorem out2_last (c : Dev nD) (t : Fin cfg2.N) (h1 : t.val % 8 = 7) :
    (outsAt2 V c t.val t.isLt).1 = k2_pay3 (iblk2 V c 0 t) (outsAt2 V c t.val t.isLt).2 (iblk2 V c 5 t) := by
  have h0 : ¬t.val % 8 = 0 := by omega
  rw [outsAt2_C V c t h0 h1]; unfold stepC2; dsimp only
  rw [run2_C_out, run2_C_acc]

end Cert.KernelIdeal.Hand

end
-- ==== Proof.Pay.K2.lean ====
/-
  The output kernel's three stored values read at an index, at the ideal float instance: the zero
  accumulator, the accumulator plus the block's unnormalised attention output
  `∑ s, exp (E r s - lse s) · v s c`, and the final `γ · acc + residual`.
-/
import proofs.«135495_j36636071035186_1_alg».proof.Proof.Pay.Common

noncomputable section

open scoped BigOperators

namespace Cert.KernelIdeal.Pay

open Cert.KernelIdeal Cert.KernelIdeal.Gen Idealize.ShloMosaic Idealize.ShloMosaic.ValueIdx

/-! ## The weights-times-values contraction -/

theorem attnOut_lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem attnOut_lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem attnOut_rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem attnOut_rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The weights-times-values matmul into the zero splat, read at `(r, c)`: row `r` of the weights against column `c` of the values. -/
theorem attnOut_apply (x : FVec Ideal S1024x1024 .bf16) (y : FVec Ideal S1024x256 .bf16) (r : Fin 1024) (c : Fin 256) :
    matmul dot_S1024x1024_S1024x256_S1024x256_1_0_0_1_n_n none x y
        (constant (F := Ideal) S1024x256 .f32 0x00000000#32) (ix2 r c) = ∑ k : Fin 1024, x (ix2 r k) * y (ix2 k c) := by
  refine (Ideal.matmul_constant_zero_apply dot_S1024x1024_S1024x256_S1024x256_1_0_0_1_n_n none x y (ix2 r c)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r c)
      ((contrEquiv1 dot_S1024x1024_S1024x256_S1024x256_1_0_0_1_n_n 1024 rfl rfl).symm k) = ix2 r k :=
    funext fun a => Fin.ext (by
      match a with
      | ⟨0, _⟩ => exact attnOut_lhs_0 _ _
      | ⟨1, _⟩ => exact (attnOut_lhs_1 _ _).trans hk)
  have er : dot_S1024x1024_S1024x256_S1024x256_1_0_0_1_n_n.rhsIdx (ix2 r c)
      ((contrEquiv1 dot_S1024x1024_S1024x256_S1024x256_1_0_0_1_n_n 1024 rfl rfl).symm k) = ix2 k c :=
    funext fun a => Fin.ext (by
      match a with
      | ⟨0, _⟩ => exact (attnOut_rhs_0 _ _).trans hk
      | ⟨1, _⟩ => exact attnOut_rhs_1 _ _)
  rw [el, er]

/-! ## The stored values -/

/-- The accumulator's initial value is zero everywhere. -/
theorem k2_pay1_apply (r : Fin 1024) (c : Fin 256) : k2_pay1 (F := Ideal) (ix2 r c) = 0 := by
  unfold k2_pay1
  rw [shapeCast_self]
  exact Ideal.ofBits_zero_f32

/-- The accumulator after one block at `(r, c)`: its old value plus the sum over the block's 1024 columns `s` of
    `exp (score r s - x4 s)` times the value at `(s, c)`. -/
theorem k2_pay2_apply (x1 x2 : Vec Ideal S1024x32 .bf16) (x4 : Vec Ideal S1x1024 .f32) (x3 : Vec Ideal S1024x256 .bf16)
    (a : Vec Ideal S1024x256 .f32) (r : Fin 1024) (c : Fin 256) :
    k2_pay2 (F := Ideal) x1 x2 x4 x3 a (ix2 r c)
      = a (ix2 r c) + ∑ s : Fin 1024, Ideal.exp (E x1 x2 r s - x4 (ix2 0 s)) * x3 (ix2 s c) := by
  unfold k2_pay2
  simp only [shapeCast_self]
  refine (addf_apply _ _ (ix2 r c)).trans ?_
  refine congrArg (a (ix2 r c) + ·) ((attnOut_apply _ _ r c).trans ?_)
  refine Finset.sum_congr rfl fun s _ => ?_
  refine congrArg (· * x3 (ix2 s c)) ?_
  exact congrArg Ideal.exp (congrArg₂ (· - ·) (scores_apply x1 x2 r s) (broadcastTo_1b_ab_apply x4 _ r s))

/-- The single entry of a `[1, 1]` array extracted at position `(0, 0)`. -/
theorem extractAt_00 (x0 : Vec Ideal S1x1 .f32) (h : ∀ a, (![0, 0] : Fin 2 → Nat) a < S1x1.size a) :
    extractAt ![0, 0] x0 h = x0 (ix2 0 0) := by
  unfold extractAt
  exact congrArg x0 (funext fun a => Fin.ext (by match a with | ⟨0, _⟩ => rfl | ⟨1, _⟩ => rfl))

/-- The stored output at `(r, c)`: the scalar gain times the accumulator plus the residual. -/
theorem k2_pay3_apply (x0 : Vec Ideal S1x1 .f32) (a x5 : Vec Ideal S1024x256 .f32) (r : Fin 1024) (c : Fin 256) :
    k2_pay3 (F := Ideal) x0 a x5 (ix2 r c) = x0 (ix2 0 0) * a (ix2 r c) + x5 (ix2 r c) := by
  unfold k2_pay3
  exact congrArg (· * a (ix2 r c) + x5 (ix2 r c)) (extractAt_00 x0 _)

end Cert.KernelIdeal.Pay
-- ==== Proof.KI.Val2.lean ====
/-
  Region 2's result as a whole array, at the ideal instance, given what its input arrays hold: the q rows, the v
  rows, the row of log-sum-exps, γ and the features.  The accumulator of an output row block after the contracted
  blocks 0 … b is the specification's partial sum; the block stored at the last contracted block is γ times it plus
  the feature block; the stored blocks tile the result.
-/
import proofs.«135495_j36636071035186_1_alg».proof.Proof.KI.Blocks
import proofs.«135495_j36636071035186_1_alg».proof.Proof.KI.Chain
import proofs.«135495_j36636071035186_1_alg».proof.Proof.Pay.K2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (row)

variable (V : (c : Dev nD) → (b : Ref sig .tc) → Buf (Elt Ideal) ((c : Thread nD τ).loc b))
variable (f : Fin 8192 → Fin 256 → EReal) (wqk : Fin 32 → Fin 256 → EReal) (wv : Fin 256 → Fin 256 → EReal)
  (bv : Fin 256 → EReal) (g : EReal)

theorem outsAt2_congr (c : Dev nD) {n n' : ℕ} (e : n = n') (h : n < cfg2.N) (h' : n' < cfg2.N) :
    outsAt2 V c n h = outsAt2 V c n' h' := by subst e; rfl

theorem pt2_lt (a : Fin 8) (b : ℕ) (hb : b < 8) : 8 * a.val + b < cfg2.N := by
  rw [show cfg2.N = 64 from N_2]; omega

section
variable (c : Dev nD)
  (hQ : ∀ n k, V c main_v4_0 (ix2 n k) = Cert.Spec.q f wqk n k)
  (hV : ∀ n d, V c main_v4_1 (ix2 n d) = Cert.Spec.v f wv bv n d)
  (hL : ∀ n, V c main_v6 (ix2 (0 : Fin 1) n) = Cert.Spec.lse f wqk n)
  (hG : V c main_v3 (ix2 (0 : Fin 1) (0 : Fin 1)) = g)
  (hF : ∀ n d, V c main_arg0 (ix2 n d) = f n d)

include hQ hV hL in
/-- What a contracted block adds to an output entry is the specification's term of that block. -/
theorem term2 (a : Fin 8) (b : ℕ) (hb : b < 8) (r : Fin 1024) (d : Fin 256) :
    (∑ s : Fin 1024, Ideal.exp (Pay.E (iblk2 V c 1 ⟨8 * a.val + b, pt2_lt a b hb⟩) (iblk2 V c 2 ⟨8 * a.val + b, pt2_lt a b hb⟩) r s
        - iblk2 V c 4 ⟨8 * a.val + b, pt2_lt a b hb⟩ (ix2 (0 : Fin 1) s)) * iblk2 V c 3 ⟨8 * a.val + b, pt2_lt a b hb⟩ (ix2 s d))
      = Cert.Spec.contrib f wqk wv bv (row a r) d ⟨b, hb⟩ := by
  have ha : hi8 (8 * a.val + b) (lt2 ⟨8 * a.val + b, pt2_lt a b hb⟩) = a := Fin.ext (by show (8 * a.val + b) / 8 = a.val; omega)
  have hl : lo8 (8 * a.val + b) = ⟨b, hb⟩ := Fin.ext (by show (8 * a.val + b) % 8 = b; omega)
  unfold Cert.Spec.contrib
  refine Finset.sum_congr rfl fun s _ => ?_
  rw [iblk2_4_apply, iblk2_3_apply, hL, hV]
  have hE : Pay.E (iblk2 V c 1 ⟨8 * a.val + b, pt2_lt a b hb⟩) (iblk2 V c 2 ⟨8 * a.val + b, pt2_lt a b hb⟩) r s
      = Cert.Spec.e f wqk (row a r) (row ⟨b, hb⟩ s) := by
    unfold Pay.E Cert.Spec.e
    refine Finset.sum_congr rfl fun k _ => ?_
    rw [iblk2_1_apply, iblk2_2_apply, hQ, hQ]
    show Cert.Spec.q f wqk (row (hi8 (8 * a.val + b) _) r) k * Cert.Spec.q f wqk (row (lo8 (8 * a.val + b)) s) k = _
    rw [ha, hl]
  rw [hE]
  show Ideal.exp (_ - Cert.Spec.lse f wqk (row (lo8 (8 * a.val + b)) s)) * Cert.Spec.v f wv bv (row (lo8 (8 * a.val + b)) s) d = _
  rw [hl]

include hQ hV hL in
/-- The accumulator after the contracted blocks 0 … b of output row block a. -/
theorem acc_inv (a : Fin 8) (r : Fin 1024) (d : Fin 256) : ∀ (b : ℕ) (hb : b < 8),
    (outsAt2 V c (8 * a.val + b) (pt2_lt a b hb)).2 (ix2 r d) = Cert.Spec.acc f wqk wv bv (row a r) d b hb
  | 0, hb => by
    have h0 : (⟨8 * a.val + 0, pt2_lt a 0 hb⟩ : Fin cfg2.N).val % 8 = 0 := by show (8 * a.val + 0) % 8 = 0; omega
    have e := acc2_first V c ⟨8 * a.val + 0, pt2_lt a 0 hb⟩ h0
    rw [show (outsAt2 V c (8 * a.val + 0) (pt2_lt a 0 hb)).2 = _ from e]
    refine (Pay.k2_pay2_apply _ _ _ _ _ r d).trans ?_
    rw [Pay.k2_pay1_apply, term2 V f wqk wv bv c hQ hV hL a 0 hb r d]
    rfl
  | b + 1, hb => by
    have h0 : ¬(⟨8 * a.val + (b + 1), pt2_lt a (b + 1) hb⟩ : Fin cfg2.N).val % 8 = 0 := by show ¬(8 * a.val + (b + 1)) % 8 = 0; omega
    have e := acc2_next V c ⟨8 * a.val + (b + 1), pt2_lt a (b + 1) hb⟩ h0
    rw [show (outsAt2 V c (8 * a.val + (b + 1)) (pt2_lt a (b + 1) hb)).2 = _ from e]
    refine (Pay.k2_pay2_apply _ _ _ _ _ r d).trans ?_
    rw [term2 V f wqk wv bv c hQ hV hL a (b + 1) hb r d]
    have ep := outsAt2_congr V c (show (⟨8 * a.val + (b + 1), pt2_lt a (b + 1) hb⟩ : Fin cfg2.N).val - 1 = 8 * a.val + b from by show 8 * a.val + (b + 1) - 1 = 8 * a.val + b; omega)
      (Nat.lt_of_le_of_lt (Nat.sub_le _ _) (pt2_lt a (b + 1) hb)) (pt2_lt a b (Nat.lt_of_succ_lt hb))
    rw [ep, acc_inv a r d b (Nat.lt_of_succ_lt hb)]
    rfl

def Gout : S8192x256.Idx → EReal := fun i => Cert.Spec.kerOut f wqk wv bv g (i 0) (i 1)

include hQ hV hL hG hF in
theorem flushed2_6 (t : Fin cfg2.N) (hf : (cfg2.win 6).flush t = true) :
    (dat2 V c).flushed 6 t = ((cfg2.win 6).blk t).view.read (Elt Ideal) (Gout f wqk wv bv g) := by
  have h7 : t.val % 8 = 7 := (flush2_6 t).mp hf
  have hN := lt2 t
  show (cfg2.win 6).cut (grid2.coords t) ((dat2 V c).after 6 t) = _
  rw [after2_6, out2_last V c t h7]
  funext j
  obtain ⟨r, d, rfl⟩ : ∃ (r : Fin 1024) (d : Fin 256), j = ix2 r d := ⟨j 0, j 1, eq_ix2 j⟩
  rw [View.read_apply]
  refine (Pay.k2_pay3_apply _ _ _ r d).trans ?_
  rw [iblk2_0_apply, iblk2_5_apply, hG, hF]
  have et : t.val = 8 * (hi8 t.val hN).val + 7 := by show t.val = 8 * (t.val / 8) + 7; omega
  have eo := outsAt2_congr V c et t.isLt (pt2_lt (hi8 t.val hN) 7 (by omega))
  rw [eo, acc_inv V f wqk wv bv c hQ hV hL (hi8 t.val hN) r d 7 (by omega)]
  have e0 : ((((cfg2.win 6).blk t).view.emb (ix2 r d)) 0 : Fin 8192) = row (hi8 t.val hN) r :=
    Fin.ext (by show win2_6.index t 0 * 1024 + 1 * r.val = 1024 * (t.val / 8) + r.val; rw [(idx2_6 t).1]; omega)
  have e1 : ((((cfg2.win 6).blk t).view.emb (ix2 r d)) 1 : Fin 256) = d :=
    Fin.ext (by show win2_6.index t 1 * 256 + 1 * d.val = d.val; rw [(idx2_6 t).2]; omega)
  show _ = Cert.Spec.kerOut f wqk wv bv g ((((cfg2.win 6).blk t).view.emb (ix2 r d)) 0 : Fin 8192) ((((cfg2.win 6).blk t).view.emb (ix2 r d)) 1 : Fin 256)
  rw [e0, e1]
  rfl

theorem mem_blk2_6 (t : Fin cfg2.N) (i : S8192x256.Idx) :
    i ∈ ((cfg2.win 6).blk t).view.set ↔ ∀ a : Fin 2, win2_6.index t a * S1024x256.size a ≤ (i a).val ∧ (i a).val < win2_6.index t a * S1024x256.size a + S1024x256.size a := by
  show i ∈ ((View.whole main_v7).slice (win2_6.rect t)).set ↔ _
  rw [View.set_slice_whole, Rect.mem_set_unit]
  exact Iff.rfl

include hQ hV hL hG hF in
/-- The result after region 2. -/
theorem out_final : (dat2 V c).arrAt 6 cfg2.N = Gout f wqk wv bv g :=
  (dat2 V c).arrAt_eq_of_cover 6 (Gout f wqk wv bv g) (fun t hf => flushed2_6 V f wqk wv bv g c hQ hV hL hG hF t hf) fun i => by
    have hi0 : (i 0).val < 8192 := (i 0).isLt
    have hi1 : (i 1).val < 256 := (i 1).isLt
    refine ⟨⟨8 * ((i 0).val / 1024) + 7, by rw [show cfg2.N = 64 from N_2]; omega⟩, (flush2_6 _).mpr (by show (8 * ((i 0).val / 1024) + 7) % 8 = 7; omega), ?_⟩
    rw [mem_blk2_6]
    intro a
    match a with
    | ⟨0, _⟩ => show win2_6.index _ 0 * 1024 ≤ (i 0).val ∧ (i 0).val < win2_6.index _ 0 * 1024 + 1024; rw [(idx2_6 _).1]; dsimp only; omega
    | ⟨1, _⟩ => show win2_6.index _ 1 * 256 ≤ (i 1).val ∧ (i 1).val < win2_6.index _ 1 * 256 + 256; rw [(idx2_6 _).2]; omega
end

end Cert.KernelIdeal.Hand

end
-- ==== Proof.Pay.K1.lean ====
/-
  The statistics kernel's stored values read at an index, at the ideal float instance: the initial running
  maximum (minus infinity) and running sum (zero); the new running maximum `max m (sup_s E r s)`; the
  rescaled running sum `l · exp (m' - M) + ∑ s, exp (E r s - M)` with `M` that new maximum; and the final
  `m + log l`. A row maximum is a supremum over the 1024 columns and a row sum a sum over them; both
  land in a `[1024, 1]` column.
-/
import proofs.«135495_j36636071035186_1_alg».proof.Proof.Pay.Common

noncomputable section

open scoped BigOperators

namespace Cert.KernelIdeal.Pay

open Cert.KernelIdeal Cert.KernelIdeal.Gen Idealize.ShloMosaic Idealize.ShloMosaic.ValueIdx

/-! ## Row reductions of a `[1024, 1024]` array -/

/-- The row index with a column inserted is the pair. -/
theorem lift_row (r s : Fin 1024) : reduces_S1024x1024_S1024.lift (ix1 r) s = ix2 r s :=
  funext fun a => Fin.ext (by match a with | ⟨0, _⟩ => rfl | ⟨1, _⟩ => rfl)

/-- The maximum along each row, started from the pattern of minus infinity, is the supremum of the row. -/
theorem rowMax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = Finset.univ.sup fun s : Fin 1024 => src (ix2 r s) := by
  refine (Ideal.multiReduction_maximumf_single src _ reduces_S1024x1024_S1024 hφ hacc (ix1 r)).trans ?_
  have hf : (src ∘ reduces_S1024x1024_S1024.lift (ix1 r)) = fun s : Fin 1024 => src (ix2 r s) :=
    funext fun s => congrArg src (lift_row r s)
  refine (congrArg (fun f => Finset.fold max (FloatOps.ofBits (F := Ideal) .f32 0xFF800000#32) f
    (Finset.univ : Finset (Fin 1024))) hf).trans ?_
  show Finset.fold max (Ideal.ofBits .f32 0xFF800000#32) _ _ = _
  rw [ofBits_neg_inf_f32]
  rfl

/-- The sum along each row, started from zero, is the sum of the row. -/
theorem rowSum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ s : Fin 1024, src (ix2 r s) := by
  refine (Ideal.multiReduction_add_single src _ reduces_S1024x1024_S1024 hφ hacc (ix1 r)).trans ?_
  exact Finset.sum_congr rfl fun s _ => congrArg src (lift_row r s)

/-! ## The stored values -/

/-- The running maximum starts at minus infinity. -/
theorem k1_pay1_apply (r : Fin 1024) : k1_pay1 (F := Ideal) (ix2 r 0) = ⊥ := by
  unfold k1_pay1
  rw [shapeCast_self]
  exact ofBits_neg_inf_f32

/-- The running sum starts at zero. -/
theorem k1_pay2_apply (r : Fin 1024) : k1_pay2 (F := Ideal) (ix2 r 0) = 0 := by
  unfold k1_pay2
  rw [shapeCast_self]
  exact Ideal.ofBits_zero_f32

/-- The block's score matrix at `(r, s)`. -/
theorem k1_pay3_apply (x0 x1 : Vec Ideal S1024x32 .bf16) (r s : Fin 1024) :
    k1_pay3 (F := Ideal) x0 x1 (ix2 r s) = E x0 x1 r s := by
  unfold k1_pay3
  simp only [shapeCast_self]
  exact scores_apply x0 x1 r s

/-- The new running maximum of row `r`: the old one against the supremum of the block's scores on that row. -/
theorem k1_pay4_apply (x0 x1 : Vec Ideal S1024x32 .bf16) (m : Vec Ideal S1024x1 .f32) (r : Fin 1024) :
    k1_pay4 (F := Ideal) x0 x1 m (ix2 r 0)
      = max (m (ix2 r 0)) (Finset.univ.sup fun s : Fin 1024 => E x0 x1 r s) := by
  unfold k1_pay4
  refine (maximumf_apply _ _ _).trans ?_
  refine congrArg (max (m (ix2 r 0)) ·) ?_
  refine (shapeCast_a_a1_apply _ _ r 0).trans ?_
  refine (rowMax_apply _ _ _ r).trans ?_
  exact congrArg (Finset.univ.sup) (funext fun s => k1_pay3_apply x0 x1 r s)

/-- The stored running maximum is that new maximum. -/
theorem k1_pay6_apply (x0 x1 : Vec Ideal S1024x32 .bf16) (m : Vec Ideal S1024x1 .f32) (r : Fin 1024) :
    k1_pay6 (F := Ideal) x0 x1 m (ix2 r 0)
      = max (m (ix2 r 0)) (Finset.univ.sup fun s : Fin 1024 => E x0 x1 r s) := by
  unfold k1_pay6
  rw [shapeCast_self]
  exact k1_pay4_apply x0 x1 m r

/-- The stored running sum of row `r`: the old sum rescaled from the old maximum `m'` to the new one, plus the
    block's exponentials taken against the new maximum. -/
theorem k1_pay5_apply (x0 x1 : Vec Ideal S1024x32 .bf16) (m m' l : Vec Ideal S1024x1 .f32) (r : Fin 1024) :
    k1_pay5 (F := Ideal) x0 x1 m m' l (ix2 r 0)
      = l (ix2 r 0) * Ideal.exp (m' (ix2 r 0) - max (m (ix2 r 0)) (Finset.univ.sup fun s : Fin 1024 => E x0 x1 r s))
        + ∑ s : Fin 1024, Ideal.exp (E x0 x1 r s - max (m (ix2 r 0)) (Finset.univ.sup fun s : Fin 1024 => E x0 x1 r s)) := by
  unfold k1_pay5
  rw [shapeCast_self]
  refine (addf_apply _ _ _).trans ?_
  refine congrArg₂ (· + ·) ?_ ?_
  · exact congrArg (fun t => l (ix2 r 0) * Ideal.exp (m' (ix2 r 0) - t)) (k1_pay4_apply x0 x1 m r)
  · refine (shapeCast_a_a1_apply _ _ r 0).trans ?_
    refine (rowSum_apply _ _ _ r).trans ?_
    refine Finset.sum_congr rfl fun s _ => ?_
    exact congrArg Ideal.exp (congrArg₂ (· - ·) (k1_pay3_apply x0 x1 r s)
      ((broadcastTo_a1_ab_apply _ _ r s).trans (k1_pay4_apply x0 x1 m r)))

/-- The stored log-sum-exp of row `r`: the maximum plus the logarithm of the sum. -/
theorem k1_pay7_apply (mm ll : Vec Ideal S1024x1 .f32) (r : Fin 1024) :
    k1_pay7 (F := Ideal) mm ll (ix2 r 0) = mm (ix2 r 0) + Ideal.log (ll (ix2 r 0)) := by
  unfold k1_pay7
  rfl

end Cert.KernelIdeal.Pay
-- ==== Proof.Math.Stat.lean ====
/-
  The statistics the kernel's second region carries are the specification's running statistics: after the grid point
  t (row block t / 8, column block t % 8) the running maximum and the running sum of row r of the row block are the
  pair stat of that row after the column blocks 0 … t % 8. By induction on the column block: the first block starts
  from −∞ and 0, a later block from what the block before left; the block's scores are the energies of the row
  against the column block's rows, because both windows read rows of the shared projection q.
-/
import proofs.«135495_j36636071035186_1_alg».proof.Proof.Spec
import proofs.«135495_j36636071035186_1_alg».proof.Proof.KI.Chain
import proofs.«135495_j36636071035186_1_alg».proof.Proof.KI.Blocks
import proofs.«135495_j36636071035186_1_alg».proof.Proof.Pay.K1

set_option maxRecDepth 16384

noncomputable section

namespace Cert.Math

open Cert.KernelIdeal Cert.KernelIdeal.Gen Cert.KernelIdeal.Hand Cert.KernelIdeal.Pay
open Idealize.ShloMosaic Idealize.ShloMosaic.TcCoe Idealize.ShloMosaic.ValueIdx
open Idealize.SL Idealize.SL.Sem
open Cert.Spec (row)

variable (V : (c : Dev nD) → (b : Ref sig .tc) → Buf (Elt Ideal) ((c : Thread nD τ).loc b))
variable (f : Fin 8192 → Fin 256 → EReal) (wqk : Fin 32 → Fin 256 → EReal)

/-- The statistics after a first column block. -/
theorem stat_at_zero (i : Fin 8192) (b : ℕ) (hb : b < 8) (h0 : b = 0) :
    Cert.Spec.stat f wqk i b hb = Cert.Spec.statStep f wqk i (⊥, 0) ⟨b, hb⟩ := by
  subst h0; rfl

/-- The statistics after a later column block, from those the block before left. -/
theorem stat_at_succ (i : Fin 8192) (b : ℕ) (hb : b < 8) (b' : ℕ) (hb' : b' < 8) (h : b = b' + 1) :
    Cert.Spec.stat f wqk i b hb = Cert.Spec.statStep f wqk i (Cert.Spec.stat f wqk i b' hb') ⟨b, hb⟩ := by
  subst h; rfl

/-- One update of the stored statistics of row r is one step of the specification's, when the block's scores on that
    row are the energies of row i against column block b. -/
theorem pay_step (x0 x1 : Vec Ideal S1024x32 .bf16) (m l : Vec Ideal S1024x1 .f32) (i : Fin 8192) (b : Fin 8)
    (r : Fin 1024) (hE : ∀ s, E x0 x1 r s = Cert.Spec.e f wqk i (row b s)) :
    (k1_pay6 (F := Ideal) x0 x1 m (ix2 r 0), k1_pay5 (F := Ideal) x0 x1 m m l (ix2 r 0))
      = Cert.Spec.statStep f wqk i (m (ix2 r 0), l (ix2 r 0)) b := by
  rw [k1_pay6_apply, k1_pay5_apply]
  simp only [hE]
  rfl

section Region
variable (c : Dev nD) (hQ : ∀ n k, V c main_v4_0 (ix2 n k) = Cert.Spec.q f wqk n k)
include hQ

/-- The scores of the blocks at point t: the energies of the row block's rows against the column block's rows. -/
theorem scores_eq (t : Fin cfg1.N) (r s : Fin 1024) :
    E (iblk1 V c 0 t) (iblk1 V c 1 t) r s
      = Cert.Spec.e f wqk (row (hi8 t.val (lt1 t)) r) (row (lo8 t.val) s) := by
  unfold Cert.KernelIdeal.Pay.E Cert.Spec.e
  exact Finset.sum_congr rfl fun k _ => by rw [iblk1_0_apply, iblk1_1_apply, hQ, hQ]

theorem stat_first_case (n : ℕ) (hn : n < cfg1.N) (h0 : n % 8 = 0) (r : Fin 1024) :
    ((outsAt1 V c n hn).2.1 (ix2 r 0), (outsAt1 V c n hn).2.2 (ix2 r 0))
      = Cert.Spec.stat f wqk (row (hi8 n (lt_of_lt_of_eq hn N_1)) r) (n % 8) (Nat.mod_lt _ (by decide)) := by
  have h : (outsAt1 V c n hn).2
      = (k1_pay6 (iblk1 V c 0 ⟨n, hn⟩) (iblk1 V c 1 ⟨n, hn⟩) (k1_pay1 (F := Ideal)),
         k1_pay5 (iblk1 V c 0 ⟨n, hn⟩) (iblk1 V c 1 ⟨n, hn⟩) (k1_pay1 (F := Ideal)) (k1_pay1 (F := Ideal)) (k1_pay2 (F := Ideal))) :=
    stat1_first V c ⟨n, hn⟩ h0
  rw [congrArg Prod.fst h, congrArg Prod.snd h, stat_at_zero f wqk _ _ _ h0]
  refine (pay_step f wqk _ _ _ _ (row (hi8 n (lt_of_lt_of_eq hn N_1)) r) (lo8 n) r
    (fun s => scores_eq V f wqk c hQ ⟨n, hn⟩ r s)).trans ?_
  rw [k1_pay1_apply, k1_pay2_apply]
  rfl

theorem stat_next_case (n : ℕ) (hn : n + 1 < cfg1.N) (h0 : ¬(n + 1) % 8 = 0) (r : Fin 1024)
    (ih : ((outsAt1 V c n (Nat.lt_of_succ_lt hn)).2.1 (ix2 r 0), (outsAt1 V c n (Nat.lt_of_succ_lt hn)).2.2 (ix2 r 0))
      = Cert.Spec.stat f wqk (row (hi8 n (lt_of_lt_of_eq (Nat.lt_of_succ_lt hn) N_1)) r) (n % 8) (Nat.mod_lt _ (by decide))) :
    ((outsAt1 V c (n + 1) hn).2.1 (ix2 r 0), (outsAt1 V c (n + 1) hn).2.2 (ix2 r 0))
      = Cert.Spec.stat f wqk (row (hi8 (n + 1) (lt_of_lt_of_eq hn N_1)) r) ((n + 1) % 8) (Nat.mod_lt _ (by decide)) := by
  have h : (outsAt1 V c (n + 1) hn).2
      = (k1_pay6 (iblk1 V c 0 ⟨n + 1, hn⟩) (iblk1 V c 1 ⟨n + 1, hn⟩) (outsAt1 V c n (Nat.lt_of_succ_lt hn)).2.1,
         k1_pay5 (iblk1 V c 0 ⟨n + 1, hn⟩) (iblk1 V c 1 ⟨n + 1, hn⟩) (outsAt1 V c n (Nat.lt_of_succ_lt hn)).2.1
           (outsAt1 V c n (Nat.lt_of_succ_lt hn)).2.1 (outsAt1 V c n (Nat.lt_of_succ_lt hn)).2.2) :=
    stat1_next V c ⟨n + 1, hn⟩ h0
  have hN : n + 1 < 64 := lt_of_lt_of_eq hn N_1
  have hrow : hi8 n (lt_of_lt_of_eq (Nat.lt_of_succ_lt hn) N_1) = hi8 (n + 1) (lt_of_lt_of_eq hn N_1) :=
    Fin.ext (by show n / 8 = (n + 1) / 8; omega)
  rw [hrow] at ih
  rw [congrArg Prod.fst h, congrArg Prod.snd h,
    stat_at_succ f wqk _ ((n + 1) % 8) _ (n % 8) (Nat.mod_lt _ (by decide)) (by omega)]
  refine (pay_step f wqk _ _ _ _ (row (hi8 (n + 1) (lt_of_lt_of_eq hn N_1)) r) (lo8 (n + 1)) r
    (fun s => scores_eq V f wqk c hQ ⟨n + 1, hn⟩ r s)).trans ?_
  exact congrArg (fun p => Cert.Spec.statStep f wqk (row (hi8 (n + 1) (lt_of_lt_of_eq hn N_1)) r) p (lo8 (n + 1))) ih

/-- After grid point n the stored running maximum and running sum of row r are the specification's statistics of that
    row of row block n / 8 after the column blocks 0 … n % 8. -/
theorem stat_eq : ∀ (n : ℕ) (hn : n < cfg1.N) (r : Fin 1024),
    ((outsAt1 V c n hn).2.1 (ix2 r 0), (outsAt1 V c n hn).2.2 (ix2 r 0))
      = Cert.Spec.stat f wqk (row (hi8 n (lt_of_lt_of_eq hn N_1)) r) (n % 8) (Nat.mod_lt _ (by decide)) := by
  intro n
  induction n with
  | zero => exact fun hn r => stat_first_case V f wqk c hQ 0 hn rfl r
  | succ n ih =>
    intro hn r
    by_cases h0 : (n + 1) % 8 = 0
    · exact stat_first_case V f wqk c hQ (n + 1) hn h0 r
    · exact stat_next_case V f wqk c hQ n hn h0 r (ih (Nat.lt_of_succ_lt hn) r)

end Region

end Cert.Math

end
-- ==== Proof.Math.Lse.lean ====
/-
  What the kernel's second region leaves in its output array: the specification's log-sum-exp of every row. The
  output window's block is written back at the last column block of each row block, holding the running maximum plus
  the logarithm of the running sum just updated, which are the row's statistics after all eight column blocks; the
  block's element (r, 0) sits at row 1024 · (t / 8) + r of the array, and row n is in the block written back at point
  8 · (n / 1024) + 7.
-/
import proofs.«135495_j36636071035186_1_alg».proof.Proof.Math.Stat
import proofs.«135495_j36636071035186_1_alg».proof.Proof.Gen.KernelIdeal.Points
import Idealize.ShloMosaic.Lib.Pipeline.Value

set_option maxRecDepth 16384

noncomputable section

namespace Cert.Math

open Cert.KernelIdeal Cert.KernelIdeal.Gen Cert.KernelIdeal.Hand Cert.KernelIdeal.Pay
open Idealize.ShloMosaic Idealize.ShloMosaic.TcCoe Idealize.ShloMosaic.ValueIdx
open Idealize.SL Idealize.SL.Sem
open Cert.Spec (row)

variable (V : (c : Dev nD) → (b : Ref sig .tc) → Buf (Elt Ideal) ((c : Thread nD τ).loc b))
variable (f : Fin 8192 → Fin 256 → EReal) (wqk : Fin 32 → Fin 256 → EReal)

/-- The statistics do not depend on how the block number is written. -/
theorem stat_congr (i : Fin 8192) (b b' : ℕ) (hb : b < 8) (hb' : b' < 8) (h : b = b') :
    Cert.Spec.stat f wqk i b hb = Cert.Spec.stat f wqk i b' hb' := by
  subst h; rfl

/-- The array the output window writes, as a function of its index: the row's log-sum-exp. -/
abbrev lseArr : S8192x1.Idx → EReal := fun i => Cert.Spec.lse f wqk (i 0)

section Region
variable (c : Dev nD) (hQ : ∀ n k, V c main_v4_0 (ix2 n k) = Cert.Spec.q f wqk n k)
include hQ

/-- What a writing point writes back is its block of the log-sum-exp array. -/
theorem flushed_eq (t : Fin cfg1.N) (hf : (cfg1.win 2).flush t = true) :
    (dat1 V c).flushed 2 t = ((cfg1.win 2).blk t).view.read (Elt Ideal) (lseArr f wqk) := by
  have h7 : t.val % 8 = 7 := (flush1_2 t).mp hf
  show (cfg1.win 2).cut (grid1.coords t) ((dat1 V c).after 2 t) = _
  rw [after1_2, out1_last V c t h7]
  refine funext fun (y : S1024x1.Idx) => ?_
  obtain ⟨r, u, rfl⟩ : ∃ (r : Fin 1024) (u : Fin 1), y = ix2 r u := ⟨y 0, y 1, eq_ix2 y⟩
  obtain rfl : u = 0 := Subsingleton.elim _ _
  rw [View.read_apply]
  have hrow : (((cfg1.win 2).blk t).view.emb (ix2 r (0 : Fin 1))) 0 = row (hi8 t.val (lt1 t)) r :=
    Fin.ext (by
      show win1_2.index t 0 * 1024 + 1 * r.val = 1024 * (t.val / 8) + r.val
      rw [(idx1_2 t).1]; omega)
  show k1_pay7 (F := Ideal) (outsAt1 V c t.val t.isLt).2.1 (outsAt1 V c t.val t.isLt).2.2 (ix2 r 0)
    = Cert.Spec.lse f wqk ((((cfg1.win 2).blk t).view.emb (ix2 r (0 : Fin 1))) 0)
  rw [hrow, k1_pay7_apply]
  have hs := (stat_eq V f wqk c hQ t.val t.isLt r).trans
    (stat_congr f wqk _ (t.val % 8) 7 (Nat.mod_lt _ (by decide)) (by decide) h7)
  have h1 : (outsAt1 V c t.val t.isLt).2.1 (ix2 r 0)
      = (Cert.Spec.stat f wqk (row (hi8 t.val (lt1 t)) r) 7 (by decide)).1 := congrArg Prod.fst hs
  have h2 : (outsAt1 V c t.val t.isLt).2.2 (ix2 r 0)
      = (Cert.Spec.stat f wqk (row (hi8 t.val (lt1 t)) r) 7 (by decide)).2 := congrArg Prod.snd hs
  rw [h1, h2]
  rfl

omit hQ in
/-- Every row of the array is in the block some writing point writes back. -/
theorem cover (i : S8192x1.Idx) :
    ∃ t : Fin cfg1.N, (cfg1.win 2).flush t = true ∧ i ∈ ((cfg1.win 2).blk t).view.set := by
  have hi0 : (i 0).val < 8192 := (i 0).isLt
  have hi1 : (i 1).val < 1 := (i 1).isLt
  have hN : cfg1.N = 64 := N_1
  obtain ⟨t, ht⟩ : ∃ t : Fin cfg1.N, t.val = 8 * ((i 0).val / 1024) + 7 :=
    ⟨⟨8 * ((i 0).val / 1024) + 7, by rw [hN]; omega⟩, rfl⟩
  refine ⟨t, (flush1_2 t).mpr (by omega), ?_⟩
  show i ∈ ((View.whole main_v5).slice (win1_2.rect t)).set
  rw [View.set_slice_whole, Rect.mem_set_unit]
  intro a
  match a with
  | ⟨0, _⟩ =>
    show win1_2.index t 0 * 1024 ≤ (i 0).val ∧ (i 0).val < win1_2.index t 0 * 1024 + 1024
    rw [(idx1_2 t).1]; omega
  | ⟨1, _⟩ =>
    show win1_2.index t 1 * 1 ≤ (i 1).val ∧ (i 1).val < win1_2.index t 1 * 1 + 1
    rw [(idx1_2 t).2]; omega

/-- The second region's output array after the run: every row's log-sum-exp. -/
theorem lse_final : (dat1 V c).arrAt 2 cfg1.N = lseArr f wqk :=
  (dat1 V c).arrAt_eq_of_cover 2 (lseArr f wqk) (flushed_eq V f wqk c hQ) cover

end Region

end Cert.Math

end
-- ==== Proof.Pay.Host.lean ====
/-
  The host operations' results read at an index. Before the first region the two weight matrices are
  transposed and the bias vector and the gain scalar are given a leading unit axis; between the second
  and third regions the log-sum-exp column is transposed into a row. Each result element is one element
  of the operand; a buffer no host operation writes keeps its contents.
-/
import proofs.«135495_j36636071035186_1_alg».proof.Proof.KI.RunA
import proofs.«135495_j36636071035186_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]

variable (m : (ℓ : Loc nD τ sig) → Buf (Elt F) ℓ) (ρ : Dev nD → PrngReg)

/-! ## Before the first region -/

/-- The first weight matrix transposed: entry `(d, k)` of the result is entry `(k, d)` of the argument. -/
theorem V1_v0 (c : Dev nD) (d : Fin 256) (k : Fin 32) :
    V1 m ρ c main_v0 (ix2 d k) = m ((c : Thread nD τ).loc main_arg1) (ix2 k d) := by
  have e : (V1 m ρ c main_v0 : S256x32.Idx → Elt F .f32)
      = transpose S256x32 [1, 0] (m ((c : Thread nD τ).loc main_arg1)) transposes_S32x256_S256x32_1_0 := by
    dsimp only [V1, W1, W0, hostOps0]
    after_results
  exact (congrFun e (ix2 d k)).trans (transpose_ix2_apply _ _ d k)

/-- The second weight matrix transposed: entry `(d, e)` of the result is entry `(e, d)` of the argument. -/
theorem V1_v1 (c : Dev nD) (d e : Fin 256) :
    V1 m ρ c main_v1 (ix2 d e) = m ((c : Thread nD τ).loc main_arg2) (ix2 e d) := by
  have h : (V1 m ρ c main_v1 : S256x256.Idx → Elt F .f32)
      = transpose S256x256 [1, 0] (m ((c : Thread nD τ).loc main_arg2)) transposes_S256x256_S256x256_1_0 := by
    dsimp only [V1, W1, W0, hostOps0]
    after_results
  exact (congrFun h (ix2 d e)).trans (transpose_ix2_apply _ _ d e)

/-- The bias vector as a one-row matrix: entry `(0, k)` is entry `k` of the argument. -/
theorem V1_v2 (c : Dev nD) (k : Fin 256) :
    V1 m ρ c main_v2 (ix2 (0 : Fin 1) k) = m ((c : Thread nD τ).loc main_arg3) (ix1 k) := by
  have h : (V1 m ρ c main_v2 : S1x256.Idx → Elt F .f32)
      = shapeCast S1x256 (m ((c : Thread nD τ).loc main_arg3)) shapeCasts_S256_S1x256 := by
    dsimp only [V1, W1, W0, hostOps0]
    after_results
    rfl
  exact (congrFun h (ix2 (0 : Fin 1) k)).trans (shapeCast_a_1a_apply _ _ (0 : Fin 1) k)

/-- The gain scalar as a one-by-one matrix: its entry is the argument's entry. -/
theorem V1_v3 (c : Dev nD) :
    V1 m ρ c main_v3 (ix2 (0 : Fin 1) (0 : Fin 1)) = m ((c : Thread nD τ).loc main_arg4) (ix1 (0 : Fin 1)) := by
  have h : (V1 m ρ c main_v3 : S1x1.Idx → Elt F .f32)
      = shapeCast S1x1 (m ((c : Thread nD τ).loc main_arg4)) shapeCasts_S1_S1x1 := by
    dsimp only [V1, W1, W0, hostOps0]
    after_results
    rfl
  exact (congrFun h (ix2 (0 : Fin 1) (0 : Fin 1))).trans (shapeCast_a_1a_apply _ _ (0 : Fin 1) (0 : Fin 1))

/-- The input rows are not written by the host operations before the first region. -/
theorem V1_arg0 (c : Dev nD) : V1 m ρ c main_arg0 = m ((c : Thread nD τ).loc main_arg0) :=
  (StableHlo.after_of_writes_sub hostOps0 _ hostOps0_writes (by decide)).trans rfl

/-! ## Between the second and third regions -/

/-- The log-sum-exp column transposed into a row: entry `(0, n)` of the result is entry `(n, 0)` of the column. -/
theorem V4_v6 (c : Dev nD) (n : Fin 8192) :
    V4 m ρ c main_v6 (ix2 (0 : Fin 1) n) = V3 m ρ c main_v5 (ix2 n (0 : Fin 1)) := by
  have h : (V4 m ρ c main_v6 : S1x8192.Idx → Elt F .f32)
      = transpose S1x8192 [1, 0] (V3 m ρ c main_v5) transposes_S8192x1_S1x8192_1_0 := by
    dsimp only [V4, W4, V3, hostOps2]
    generalize W3 m ρ c = X
    after_results
  exact (congrFun h (ix2 (0 : Fin 1) n)).trans (transpose_ix2_apply _ _ (0 : Fin 1) n)

/-- A buffer the transposition does not write keeps its contents. -/
theorem V4_keep (c : Dev nD) (r : Ref sig .tc) (h : r ∉ hostOps2_W) : V4 m ρ c r = V3 m ρ c r :=
  StableHlo.after_of_writes_sub hostOps2 _ hostOps2_writes h

end Cert.KernelIdeal.Hand
-- ==== Proof.KI.Final.lean ====
/-
  The idealized kernel's result: the run's last boundary read at the result array is the specification's
  kernel-shaped function of the argument arrays.  Region 0's arrays are q and v of the arguments (the transposed
  weights read back through the host transposes), region 1's column is the log-sum-exp of the q rows, the host
  transpose lays it as a row, and region 2's array is γ times the accumulated sums plus the features.
-/
import proofs.«135495_j36636071035186_1_alg».proof.Proof.KI.Frame
import proofs.«135495_j36636071035186_1_alg».proof.Proof.KI.Val0
import proofs.«135495_j36636071035186_1_alg».proof.Proof.KI.Val2
import proofs.«135495_j36636071035186_1_alg».proof.Proof.Math.Lse
import proofs.«135495_j36636071035186_1_alg».proof.Proof.Pay.Host

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The argument arrays as functions of their coordinates. -/
def fA (c : Dev nD) : Fin 8192 → Fin 256 → EReal := fun n d => m ((c : Thread nD τ).loc main_arg0) (ix2 n d)
def wqkA (c : Dev nD) : Fin 32 → Fin 256 → EReal := fun k d => m ((c : Thread nD τ).loc main_arg1) (ix2 k d)
def wvA (c : Dev nD) : Fin 256 → Fin 256 → EReal := fun e d => m ((c : Thread nD τ).loc main_arg2) (ix2 e d)
def bvA (c : Dev nD) : Fin 256 → EReal := fun e => m ((c : Thread nD τ).loc main_arg3) (ix1 e)
def gA (c : Dev nD) : EReal := m ((c : Thread nD τ).loc main_arg4) (ix1 (0 : Fin 1))

/-- After region 0 the first result array holds q. -/
theorem hQ2 (c : Dev nD) (n : Fin 8192) (k : Fin 32) :
    V2 m ρ c main_v4_0 (ix2 n k) = Cert.Spec.q (fA m c) (wqkA m c) n k := by
  show W2 m ρ c (Proc.devRef .tc main_v4_0) (ix2 n k) = _
  rw [W2_v4_0, q_final]
  show prodAt (V1 m ρ c main_arg0) (V1 m ρ c main_v0) n k = _
  unfold prodAt Cert.Spec.q
  refine Finset.sum_congr rfl fun d _ => ?_
  rw [V1_arg0, V1_v0]
  rfl

/-- After region 0 the second result array holds v. -/
theorem hV2 (c : Dev nD) (n : Fin 8192) (e : Fin 256) :
    V2 m ρ c main_v4_1 (ix2 n e) = Cert.Spec.v (fA m c) (wvA m c) (bvA m c) n e := by
  show W2 m ρ c (Proc.devRef .tc main_v4_1) (ix2 n e) = _
  rw [W2_v4_1, v_final]
  show prodAt (V1 m ρ c main_arg0) (V1 m ρ c main_v1) n e + V1 m ρ c main_v2 (ix2 (0 : Fin 1) e) = _
  unfold prodAt Cert.Spec.v
  rw [V1_v2]
  refine congrArg₂ (· + ·) (Finset.sum_congr rfl fun d _ => ?_) rfl
  rw [V1_arg0, V1_v1]
  rfl

/-- After region 1 the column holds each row's log-sum-exp. -/
theorem hL3 (c : Dev nD) (n : Fin 8192) :
    V3 m ρ c main_v5 (ix2 n (0 : Fin 1)) = Cert.Spec.lse (fA m c) (wqkA m c) n := by
  show W3 m ρ c (Proc.devRef .tc main_v5) (ix2 n (0 : Fin 1)) = _
  rw [W3_v5, Cert.Math.lse_final (V2 m ρ) (fA m c) (wqkA m c) c (hQ2 m ρ c)]

theorem hQ4 (c : Dev nD) (n : Fin 8192) (k : Fin 32) :
    V4 m ρ c main_v4_0 (ix2 n k) = Cert.Spec.q (fA m c) (wqkA m c) n k := by
  rw [V4_keep m ρ c main_v4_0 (by decide)]
  show W3 m ρ c (Proc.devRef .tc main_v4_0) (ix2 n k) = _
  rw [W3_of_ne m ρ c main_v4_0 (by decide)]
  exact hQ2 m ρ c n k
theorem hV4 (c : Dev nD) (n : Fin 8192) (e : Fin 256) :
    V4 m ρ c main_v4_1 (ix2 n e) = Cert.Spec.v (fA m c) (wvA m c) (bvA m c) n e := by
  rw [V4_keep m ρ c main_v4_1 (by decide)]
  show W3 m ρ c (Proc.devRef .tc main_v4_1) (ix2 n e) = _
  rw [W3_of_ne m ρ c main_v4_1 (by decide)]
  exact hV2 m ρ c n e
theorem hL4 (c : Dev nD) (n : Fin 8192) :
    V4 m ρ c main_v6 (ix2 (0 : Fin 1) n) = Cert.Spec.lse (fA m c) (wqkA m c) n := by
  rw [V4_v6]; exact hL3 m ρ c n
theorem hG4 (c : Dev nD) : V4 m ρ c main_v3 (ix2 (0 : Fin 1) (0 : Fin 1)) = gA m c := by
  rw [V4_keep m ρ c main_v3 (by decide)]
  show W3 m ρ c (Proc.devRef .tc main_v3) (ix2 (0 : Fin 1) (0 : Fin 1)) = _
  rw [W3_of_ne m ρ c main_v3 (by decide), W2_of_ne m ρ c main_v3 (by decide) (by decide)]
  exact V1_v3 m ρ c
theorem hF4 (c : Dev nD) (n : Fin 8192) (d : Fin 256) : V4 m ρ c main_arg0 (ix2 n d) = fA m c n d := by
  rw [V4_keep m ρ c main_arg0 (by decide)]
  show W3 m ρ c (Proc.devRef .tc main_arg0) (ix2 n d) = _
  rw [W3_of_ne m ρ c main_arg0 (by decide), W2_of_ne m ρ c main_arg0 (by decide) (by decide)]
  show V1 m ρ c main_arg0 (ix2 n d) = _
  rw [V1_arg0]
  rfl

/-- The last boundary at the result array. -/
theorem result_eq (c : Dev nD) :
    W5 m ρ c (Proc.devRef .tc main_v7) = Gout (fA m c) (wqkA m c) (wvA m c) (bvA m c) (gA m c) :=
  (W5_v7 m ρ c).trans (out_final (V4 m ρ) (fA m c) (wqkA m c) (wvA m c) (bvA m c) (gA m c) c
    (hQ4 m ρ c) (hV4 m ρ c) (hL4 m ρ c) (hG4 m ρ c) (hF4 m ρ c))

/-- THE KERNEL'S VALUE: every weakly fair execution terminates with the result array at the kernel-shaped
    specification of the argument arrays, and the arguments unchanged. -/
theorem value_run : θ_run defs (onTc (τ := τ) (main (F := Ideal))) ⟨m, fun _ => 0, ρ⟩ (fun r => ∀ c : Dev nD,
      r.2.mem ((c.tc : Thread nD τ).loc main_v7) = Gout (fA m c) (wqkA m c) (wvA m c) (bvA m c) (gA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (result_eq m ρ c),
     (h c _ (mem_uc main_arg0 (by decide))).trans (W5_kept m ρ c main_arg0 (by decide) (by decide) (by decide) (by decide) (by decide) (by decide)),
     (h c _ (mem_uc main_arg1 (by decide))).trans (W5_kept m ρ c main_arg1 (by decide) (by decide) (by decide) (by decide) (by decide) (by decide)),
     (h c _ (mem_uc main_arg2 (by decide))).trans (W5_kept m ρ c main_arg2 (by decide) (by decide) (by decide) (by decide) (by decide) (by decide)),
     (h c _ (mem_uc main_arg3 (by decide))).trans (W5_kept m ρ c main_arg3 (by decide) (by decide) (by decide) (by decide) (by decide) (by decide)),
     (h c _ (mem_uc main_arg4 (by decide))).trans (W5_kept m ρ c main_arg4 (by decide) (by decide) (by decide) (by decide) (by decide) (by decide))⟩)
    (run m ρ)

end Cert.KernelIdeal.Hand

end
-- ==== Proof.RefFrame.lean ====
/-
  The reference program's frame: its run terminates without a fault and leaves every argument array as it was.
  The run itself (each result as the composed term of the host operations) is the generated run module's; here
  only the value is dropped from its postcondition.
-/
import proofs.«135495_j36636071035186_1_alg».proof.Defs
import proofs.«135495_j36636071035186_1_alg».proof.Proof.Gen.ReferenceIdeal.Run
import proofs.«135495_j36636071035186_1_alg».proof.Proof.Gen.ReferenceIdeal.Read

noncomputable section

open Idealize.ShloMosaic Idealize.ShloMosaic.TcCoe Idealize.SL.Sem

namespace Cert.Proof.RefClaims

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Math.RefEnergy.lean ====
/-
  The reference program's projection and energies, read at an index: its first product is the shared projection
  q = f·Wqkᵀ and its second the energies e(i, j) = ⟨q_i, q_j⟩ of the specification, over the argument arrays read as
  functions of their coordinates.
-/
import proofs.«135495_j36636071035186_1_alg».proof.Proof.Spec
import proofs.«135495_j36636071035186_1_alg».proof.Proof.Gen.ReferenceIdeal.Read

noncomputable section

namespace Cert.Math

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x1 : (⟨S32x256, .f32⟩ : BufTy).Contents (Elt Ideal))

/-- The projection: entry (n, k) of the first product. -/
theorem v1_eq (n : Fin 8192) (k : Fin 32) :
    val_main_v1 (F := Ideal) x0 x1 (ix2 n k) = Cert.Spec.q (fun n c => x0 (ix2 n c)) (fun k c => x1 (ix2 k c)) n k := by
  rw [val_main_v1_apply]
  unfold Cert.Spec.q
  refine Finset.sum_congr rfl fun c _ => ?_
  rw [val_main_v0_apply]
  have e1 : lidx_main_v1 (ix2 n k) c = ix2 n c :=
    funext fun a => Fin.ext (by match a with | ⟨0, _⟩ => rfl | ⟨1, _⟩ => rfl)
  have e2 : idx_main_v0 (ridx_main_v1 (ix2 n k) c) = ix2 k c :=
    funext fun a => Fin.ext (by match a with | ⟨0, _⟩ => rfl | ⟨1, _⟩ => rfl)
  rw [e1, e2]

/-- The energies: entry (i, j) of the second product. -/
theorem v3_eq (i j : Fin 8192) :
    val_main_v3 (F := Ideal) x0 x1 (ix2 i j) = Cert.Spec.e (fun n c => x0 (ix2 n c)) (fun k c => x1 (ix2 k c)) i j := by
  rw [val_main_v3_apply]
  unfold Cert.Spec.e
  refine Finset.sum_congr rfl fun k _ => ?_
  rw [val_main_v2_apply]
  have e1 : lidx_main_v3 (ix2 i j) k = ix2 i k :=
    funext fun a => Fin.ext (by match a with | ⟨0, _⟩ => rfl | ⟨1, _⟩ => rfl)
  have e2 : idx_main_v2 (ridx_main_v3 (ix2 i j) k) = ix2 j k :=
    funext fun a => Fin.ext (by match a with | ⟨0, _⟩ => rfl | ⟨1, _⟩ => rfl)
  rw [e1, e2, v1_eq, v1_eq]

end Cert.Math

end
-- ==== Proof.Math.RefSoftmax.lean ====
/-
  The reference program's softmax, read at an index: the row maximum (a fold of the maximum from −∞ over the row,
  which is the supremum of the row), the exponentials against it, their row sum, and the quotient are the
  specification's refM, refS and refAttn.
-/
import proofs.«135495_j36636071035186_1_alg».proof.Proof.Spec
import proofs.«135495_j36636071035186_1_alg».proof.Proof.Gen.ReferenceIdeal.Read
import proofs.«135495_j36636071035186_1_alg».proof.Proof.Math.RefEnergy

noncomputable section

namespace Cert.Math

open Cert.ReferenceIdeal Cert.ReferenceIdeal.Gen Cert.ReferenceIdeal.Read Idealize.ShloMosaic Idealize.ShloMosaic.ValueIdx

/-- The word of −∞. -/
theorem ofBits_neg_inf : Ideal.ofBits .f32 0xFF800000#32 = (⊥ : EReal) := by simp [Ideal.ofBits, Ideal.ieee]

/-- The maximum-reduce over the second axis from −∞, at row n: the supremum of the row. -/
theorem rowMax_apply (y : (⟨S8192x8192, .f32⟩ : BufTy).Contents (Elt Ideal)) (n : Fin 8192) :
    Host.reduce (FloatOps.maximumf (F := Ideal) (φ := .f32)) y (val_main_cst (F := Ideal)) reducesTo_S8192x8192_S8192_d1 h_S_ (ix1 n)
      = Finset.univ.sup fun j : Fin 8192 => y (ix2 n j) := by
  have hR : S8192x8192.Reduces [1] S8192 := by decide
  rw [Host.reduce_eq_fold_single (FloatOps.maximumf (F := Ideal) (φ := .f32)) y _ reducesTo_S8192x8192_S8192_d1 hR h_S_]
  have hb : val_main_cst (F := Ideal) (Shape.Idx.first h_S_) = ⊥ := ofBits_neg_inf
  rw [hb]
  have hf : (y ∘ hR.lift (ix1 n)) = fun j : Fin 8192 => y (ix2 n j) :=
    funext fun k => congrArg y (funext fun a => Fin.ext (by match a with | ⟨0, _⟩ => rfl | ⟨1, _⟩ => rfl))
  rw [hf]
  rfl

variable (x0 : (⟨S8192x256, .f32⟩ : BufTy).Contents (Elt Ideal)) (x1 : (⟨S32x256, .f32⟩ : BufTy).Contents (Elt Ideal))

theorem v4_eq (n : Fin 8192) :
    val_main_v4 (F := Ideal) x0 x1 (ix1 n) = Finset.univ.sup fun j : Fin 8192 => Cert.Spec.e (fun n c => x0 (ix2 n c)) (fun k c => x1 (ix2 k c)) n j := by
  unfold val_main_v4
  rw [rowMax_apply]
  exact congrArg (fun g : Fin 8192 → EReal => Finset.univ.sup g) (funext fun j => v3_eq x0 x1 n j)

theorem v6_eq (n : Fin 8192) : val_main_v6 (F := Ideal) x0 x1 (ix1 n) = Cert.Spec.refM (fun n c => x0 (ix2 n c)) (fun k c => x1 (ix2 k c)) n := by
  rw [val_main_v6_apply, val_main_v5_apply, val_main_cst_0_apply, v4_eq, Ideal.maximumf_def, Ideal.ofBits_def, ofBits_neg_inf]
  rfl

theorem v8_eq (n j : Fin 8192) : val_main_v8 (F := Ideal) x0 x1 (ix2 n j) = Cert.Spec.refM (fun n c => x0 (ix2 n c)) (fun k c => x1 (ix2 k c)) n := by
  rw [val_main_v8_apply, val_main_v7_apply]
  have e1 : idx_main_v7 (idx_main_v8 (ix2 n j)) = ix1 n := funext fun a => Fin.ext (by match a with | ⟨0, _⟩ => rfl)
  rw [e1, v6_eq]

theorem v10_eq (n j : Fin 8192) :
    val_main_v10 (F := Ideal) x0 x1 (ix2 n j) = Ideal.exp (Cert.Spec.e (fun n c => x0 (ix2 n c)) (fun k c => x1 (ix2 k c)) n j - Cert.Spec.refM (fun n c => x0 (ix2 n c)) (fun k c => x1 (ix2 k c)) n) := by
  rw [val_main_v10_apply, val_main_v9_apply, v3_eq, v8_eq, Ideal.hostUnary_exp_def, Ideal.subf_def]

theorem v11_eq (n : Fin 8192) : val_main_v11 (F := Ideal) x0 x1 (ix1 n) = Cert.Spec.refS (fun n c => x0 (ix2 n c)) (fun k c => x1 (ix2 k c)) n := by
  rw [val_main_v11_apply, val_main_cst_1_apply, Ideal.ofBits_def, Ideal.ofBits_zero_f32]
  unfold Cert.Spec.refS
  refine congrArg (0 + ·) (Finset.sum_congr rfl fun k _ => ?_)
  have e1 : idx_main_v11 (ix1 n) k = ix2 n k :=
    funext fun a => Fin.ext (by match a with | ⟨0, _⟩ => rfl | ⟨1, _⟩ => rfl)
  rw [e1, v10_eq]

theorem v13_eq (n j : Fin 8192) : val_main_v13 (F := Ideal) x0 x1 (ix2 n j) = Cert.Spec.refS (fun n c => x0 (ix2 n c)) (fun k c => x1 (ix2 k c)) n := by
  rw [val_main_v13_apply, val_main_v12_apply]
  have e1 : idx_main_v12 (idx_main_v13 (ix2 n j)) = ix1 n := funext fun a => Fin.ext (by match a with | ⟨0, _⟩ => rfl)
  rw [e1, v11_eq]

/-- The softmax weight of the pair (n, j). -/
theorem v14_eq (n j : Fin 8192) : val_main_v14 (F := Ideal) x0 x1 (ix2 n j) = Cert.Spec.refAttn (fun n c => x0 (ix2 n c)) (fun k c => x1 (ix2 k c)) n j := by
  rw [val_main_v14_apply, v10_eq, v13_eq, Ideal.hostDivf_def]
  rfl

end Cert.Math

end
-- ==== Proof.Math.RefValue.lean ====
/-
  The reference program's value projection with its bias, read at an index: the specification's v = f·Wvᵀ + bv.
-/
import proofs.«135495_j36636071035186_1_alg».proof.Proof.Spec
import proofs.«135495_j36636071035186_1_alg».proof.Proof.Gen.ReferenceIdeal.Read

noncomputable section

namespace Cert.Math

open Cert.ReferenceIdeal Cert.ReferenceIdeal.Gen Cert.ReferenceIdeal.Read Idealize.ShloMosaic Idealize.ShloMosaic.ValueIdx

variable (x0 : (⟨S8192x256, .f32⟩ : BufTy).Contents (Elt Ideal)) (x2 : (⟨S256x256, .f32⟩ : BufTy).Contents (Elt Ideal))
  (x3 : (⟨S256, .f32⟩ : BufTy).Contents (Elt Ideal))

theorem v19_eq (k : Fin 8192) (c : Fin 256) :
    val_main_v19 (F := Ideal) x0 x2 x3 (ix2 k c)
      = Cert.Spec.v (fun n c => x0 (ix2 n c)) (fun c d => x2 (ix2 c d)) (fun c => x3 (ix1 c)) k c := by
  rw [val_main_v19_apply, val_main_v16_apply, val_main_v18_apply, val_main_v17_apply, Ideal.addf_def]
  unfold Cert.Spec.v
  have e3 : idx_main_v17 (idx_main_v18 (ix2 k c)) = ix1 c := funext fun a => Fin.ext (by match a with | ⟨0, _⟩ => rfl)
  rw [e3]
  refine congrArg (· + x3 (ix1 c)) (Finset.sum_congr rfl fun d _ => ?_)
  rw [val_main_v15_apply]
  have e1 : lidx_main_v16 (ix2 k c) d = ix2 k d :=
    funext fun a => Fin.ext (by match a with | ⟨0, _⟩ => rfl | ⟨1, _⟩ => rfl)
  have e2 : idx_main_v15 (ridx_main_v16 (ix2 k c) d) = ix2 c d :=
    funext fun a => Fin.ext (by match a with | ⟨0, _⟩ => rfl | ⟨1, _⟩ => rfl)
  rw [e1, e2]

end Cert.Math

end
-- ==== Proof.Math.RefG.lean ====
/-
  The reference program's result IS the specification's refOut: the scale (the one entry of the fifth argument, reshaped
  to a scalar and broadcast) times the product of the softmax weights with the values, contracted over the weights'
  first axis, plus the first argument.
-/
import proofs.«135495_j36636071035186_1_alg».proof.Proof.Spec
import proofs.«135495_j36636071035186_1_alg».proof.Proof.Gen.ReferenceIdeal.Read
import proofs.«135495_j36636071035186_1_alg».proof.Proof.Math.RefSoftmax
import proofs.«135495_j36636071035186_1_alg».proof.Proof.Math.RefValue

noncomputable section

namespace Cert.Math

open Cert.ReferenceIdeal Cert.ReferenceIdeal.Gen Cert.ReferenceIdeal.Read Idealize.ShloMosaic Idealize.ShloMosaic.ValueIdx

/-- The reshape of the one-entry vector to a scalar reads its entry. -/
theorem v21_apply (x4 : (⟨S1, .f32⟩ : BufTy).Contents (Elt Ideal)) (j : S_.Idx) :
    val_main_v21 (F := Ideal) x4 j = x4 (ix1 0) := by
  unfold val_main_v21 shapeCast
  refine congrArg x4 (funext fun a => Fin.ext ?_)
  match a with
  | ⟨0, _⟩ =>
    have h1 : ((Shape.reshapeEquiv shapeCasts_S1_S_ j) 0).val < 1 := ((Shape.reshapeEquiv shapeCasts_S1_S_ j) 0).isLt
    show ((Shape.reshapeEquiv shapeCasts_S1_S_ j) 0).val = 0
    omega

theorem ref_eq (x0 : (⟨S8192x256, .f32⟩ : BufTy).Contents (Elt Ideal)) (x1 : (⟨S32x256, .f32⟩ : BufTy).Contents (Elt Ideal))
    (x2 : (⟨S256x256, .f32⟩ : BufTy).Contents (Elt Ideal)) (x3 : (⟨S256, .f32⟩ : BufTy).Contents (Elt Ideal))
    (x4 : (⟨S1, .f32⟩ : BufTy).Contents (Elt Ideal)) :
    val_main_v24 (F := Ideal) x0 x1 x2 x3 x4
      = fun i => Cert.Spec.refOut (fun n c => x0 (ix2 n c)) (fun k c => x1 (ix2 k c)) (fun c d => x2 (ix2 c d))
          (fun c => x3 (ix1 c)) (x4 (ix1 0)) (i 0) (i 1) := by
  funext i
  obtain ⟨j, c, rfl⟩ : ∃ (j : Fin 8192) (c : Fin 256), i = ix2 j c := ⟨i 0, i 1, eq_ix2 i⟩
  rw [val_main_v24_apply, val_main_v23_apply, val_main_v22_apply, v21_apply, val_main_v20_apply, Ideal.addf_def,
    Ideal.mulf_def]
  show _ = Cert.Spec.refOut (fun n c => x0 (ix2 n c)) (fun k c => x1 (ix2 k c)) (fun c d => x2 (ix2 c d))
    (fun c => x3 (ix1 c)) (x4 (ix1 0)) j c
  unfold Cert.Spec.refOut
  refine congrArg (fun X => x4 (ix1 0) * X + x0 (ix2 j c)) (Finset.sum_congr rfl fun k _ => ?_)
  have e1 : lidx_main_v20 (ix2 j c) k = ix2 k j :=
    funext fun a => Fin.ext (by match a with | ⟨0, _⟩ => rfl | ⟨1, _⟩ => rfl)
  have e2 : ridx_main_v20 (ix2 j c) k = ix2 k c :=
    funext fun a => Fin.ext (by match a with | ⟨0, _⟩ => rfl | ⟨1, _⟩ => rfl)
  rw [e1, e2, v14_eq, v19_eq]

end Cert.Math

end
-- ==== Proof.Math.RefRun.lean ====
/-
  The reference program's run, re-posted at the specification: every weakly fair execution terminates with the result
  array holding refOut of the argument arrays (read as functions of their coordinates) and the arguments unchanged.
-/
import proofs.«135495_j36636071035186_1_alg».proof.Proof.Math.RefG
import proofs.«135495_j36636071035186_1_alg».proof.Proof.Gen.ReferenceIdeal.Run
import proofs.«135495_j36636071035186_1_alg».proof.Proof.Gen.ReferenceIdeal.Read

noncomputable section

namespace Cert.Math

open Idealize.ShloMosaic Idealize.ShloMosaic.TcCoe Idealize.SL.Sem Idealize.ShloMosaic.ValueIdx

theorem ref_run [Cert.ReferenceIdeal.Facts]
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v24)
          = (fun i => Cert.Spec.refOut (fun n d => m' ((c.tc : Thread Cert.ReferenceIdeal.nD Cert.ReferenceIdeal.τ).loc Cert.ReferenceIdeal.main_arg0) (ix2 n d))
              (fun k d => m' ((c.tc : Thread Cert.ReferenceIdeal.nD Cert.ReferenceIdeal.τ).loc Cert.ReferenceIdeal.main_arg1) (ix2 k d))
              (fun e d => m' ((c.tc : Thread Cert.ReferenceIdeal.nD Cert.ReferenceIdeal.τ).loc Cert.ReferenceIdeal.main_arg2) (ix2 e d))
              (fun e => m' ((c.tc : Thread Cert.ReferenceIdeal.nD Cert.ReferenceIdeal.τ).loc Cert.ReferenceIdeal.main_arg3) (ix1 e))
              (m' ((c.tc : Thread Cert.ReferenceIdeal.nD Cert.ReferenceIdeal.τ).loc Cert.ReferenceIdeal.main_arg4) (ix1 0)) (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨by rw [(h c).1, Cert.ReferenceIdeal.Read.val_main_v24_eq, Cert.Math.ref_eq]; rfl, (h c).2⟩)
    (Cert.ReferenceIdeal.Value.run (F := Ideal) m' ρ')

end Cert.Math

end
-- ==== Proof.Math.RealCore.lean ====
/-
  Extended reals that are real: sums, the exponential, the logarithm and the quotient of reals computed in the
  extended reals are the real ones; and the real-number identities behind the rescaled running sum of exponentials.
-/
import Idealize.ShloMosaic.PureOps.Ideal

noncomputable section

namespace Cert.Math

open Idealize.ShloMosaic

/-- The coercion of the reals into the extended reals commutes with finite sums. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of extended reals that are all real is real. -/
theorem sum_real {ι : Type*} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- The supremum of finitely many (at least one) reals, taken in the extended reals, is one of them. -/
theorem sup_real {ι : Type*} (s : Finset ι) (hs : s.Nonempty) (g : ι → EReal) (h : ∀ i ∈ s, ∃ r : ℝ, g i = (r : EReal)) :
    ∃ r : ℝ, s.sup g = (r : EReal) := by
  obtain ⟨i, hi, hsup⟩ := Finset.exists_mem_eq_sup s hs g
  obtain ⟨r, hr⟩ := h i hi
  exact ⟨r, by rw [hsup, hr]⟩

theorem max_coe (a b : ℝ) : max (a : EReal) (b : EReal) = ((max a b : ℝ) : EReal) :=
  (EReal.coe_strictMono.monotone.map_max).symm

theorem exp_sub_coe (a b : ℝ) : Ideal.exp ((a : EReal) - (b : EReal)) = ((Real.exp (a - b) : ℝ) : EReal) := by
  rw [← EReal.coe_sub, Ideal.exp_coe]

theorem log_coe_pos {l : ℝ} (hl : 0 < l) : Ideal.log (l : EReal) = ((Real.log l : ℝ) : EReal) := by
  rw [Ideal.log_coe, if_neg (not_le.mpr hl)]

/-- The quotient of two reals, the divisor nonzero, is the real quotient. -/
theorem div_coe_coe (a : ℝ) {s : ℝ} (hs : s ≠ 0) : Ideal.div (a : EReal) (s : EReal) = ((a * (1 / s) : ℝ) : EReal) := by
  rw [Ideal.div_coe hs, ← EReal.coe_mul]

/-! ### The real identities -/

/-- Rescaling the running sum to a new reference point keeps the product of the sum with the exponential of the
    reference point, and adds the block's exponentials to it. -/
theorem rescale_step {ι : Type*} (s : Finset ι) (m l m' : ℝ) (x : ι → ℝ) :
    (l * Real.exp (m - m') + ∑ i ∈ s, Real.exp (x i - m')) * Real.exp m' = l * Real.exp m + ∑ i ∈ s, Real.exp (x i) := by
  rw [add_mul, Finset.sum_mul, mul_assoc, ← Real.exp_add, sub_add_cancel]
  congr 1
  exact Finset.sum_congr rfl fun i _ => by rw [← Real.exp_add, sub_add_cancel]

/-- The sum of exponentials against a reference point, times the exponential of that point. -/
theorem shifted_sum {ι : Type*} (s : Finset ι) (m' : ℝ) (x : ι → ℝ) :
    (∑ i ∈ s, Real.exp (x i - m')) * Real.exp m' = ∑ i ∈ s, Real.exp (x i) := by
  rw [Finset.sum_mul]
  exact Finset.sum_congr rfl fun i _ => by rw [← Real.exp_add, sub_add_cancel]

/-- The weight exp (a − (m + log l)) formed from a log-sum-exp is the softmax weight exp (a − M) / S, whenever
    l · exp m and S · exp M are the same number Z (positive, as l is). -/
theorem softmax_weight (a m l M S Z : ℝ) (hl : 0 < l) (hZ : l * Real.exp m = Z) (hS : S * Real.exp M = Z) :
    Real.exp (a - (m + Real.log l)) = Real.exp (a - M) * (1 / S) := by
  have hZpos : 0 < Z := by rw [← hZ]; exact mul_pos hl (Real.exp_pos m)
  have hSpos : 0 < S := by
    have h1 : 0 < S * Real.exp M := by rw [hS]; exact hZpos
    exact (mul_pos_iff_of_pos_right (Real.exp_pos M)).mp h1
  rw [Real.exp_sub, Real.exp_add, Real.exp_log hl, Real.exp_sub]
  have hm := Real.exp_pos m
  have hM := Real.exp_pos M
  field_simp
  rw [mul_comm (Real.exp m) l, hZ, mul_comm (Real.exp M) S, hS]

end Cert.Math

end
-- ==== Proof.Math.Rows.lean ====
/-
  The eight blocks of 1024 rows tile the 8192 rows: a sum over all rows is the sum over the blocks of the sums
  over each block's rows; and a quantity accumulated block after block from zero is the sum over the blocks.
-/
import proofs.«135495_j36636071035186_1_alg».proof.Proof.Spec

noncomputable section

namespace Cert.Math

open Cert.Spec

/-- Block and offset of a row: the inverse of the row numbering. -/
def rowEquiv : Fin 8 × Fin 1024 ≃ Fin 8192 where
  toFun p := row p.1 p.2
  invFun i := (⟨i.val / 1024, by omega⟩, ⟨i.val % 1024, by omega⟩)
  left_inv := by
    rintro ⟨a, r⟩
    refine Prod.ext (Fin.ext ?_) (Fin.ext ?_)
    · show (1024 * a.val + r.val) / 1024 = a.val
      omega
    · show (1024 * a.val + r.val) % 1024 = r.val
      omega
  right_inv := by
    intro i
    refine Fin.ext ?_
    show 1024 * (i.val / 1024) + i.val % 1024 = i.val
    omega

/-- A sum over the rows, block by block. -/
theorem sum_rows {M : Type*} [AddCommMonoid M] (G : Fin 8192 → M) :
    ∑ b : Fin 8, ∑ s : Fin 1024, G (row b s) = ∑ i : Fin 8192, G i := by
  rw [← Fintype.sum_prod_type']
  exact Fintype.sum_equiv rowEquiv _ _ (fun _ => rfl)

/-- The initial segment of the blocks up to a given one, as blocks. -/
def upTo (b : ℕ) (h : b < 8) (i : Fin (b + 1)) : Fin 8 := Fin.castLE h i

/-- Summing the blocks up to the next one adds that block. -/
theorem sum_upTo_succ {M : Type*} [AddCommMonoid M] (F : Fin 8 → M) (b : ℕ) (h : b + 1 < 8) :
    ∑ i : Fin (b + 1 + 1), F (upTo (b + 1) h i)
      = (∑ i : Fin (b + 1), F (upTo b (Nat.lt_of_succ_lt h) i)) + F ⟨b + 1, h⟩ := by
  rw [Fin.sum_univ_castSucc]
  rfl

theorem sum_upTo_zero {M : Type*} [AddCommMonoid M] (F : Fin 8 → M) (h : 0 < 8) :
    ∑ i : Fin (0 + 1), F (upTo 0 h i) = F ⟨0, h⟩ := by
  rw [Fin.sum_univ_one]
  rfl

theorem sum_upTo_seven {M : Type*} [AddCommMonoid M] (F : Fin 8 → M) (h : 7 < 8) :
    ∑ i : Fin (7 + 1), F (upTo 7 h i) = ∑ b : Fin 8, F b :=
  Finset.sum_congr rfl fun _ _ => rfl

end Cert.Math

end
-- ==== Proof.Math.Online.lean ====
/-
  The kernel-shaped result is the reference result. Over real inputs the energies are real; the running maximum and
  the rescaled running sum over the eight column blocks end at a pair (m, l) of reals with l · exp m the row's sum of
  exponentials, whatever reference points were used on the way; so exp (e − (m + log l)) is the softmax weight
  exp (e − M) / S of the reference, which divides by the same sum taken against the row maximum M; and the accumulation
  over the eight row blocks is the sum over all rows.
-/
import proofs.«135495_j36636071035186_1_alg».proof.Proof.Spec
import proofs.«135495_j36636071035186_1_alg».proof.Proof.Math.RealCore
import proofs.«135495_j36636071035186_1_alg».proof.Proof.Math.Rows

noncomputable section

namespace Cert.Math

open Cert.Spec Idealize.ShloMosaic

variable (f : Fin 8192 → Fin 256 → EReal) (wqk : Fin 32 → Fin 256 → EReal) (wv : Fin 256 → Fin 256 → EReal)
  (bv : Fin 256 → EReal) (g : EReal)

/-! ### The energies: symmetric, and real over real inputs -/

theorem e_comm (i j : Fin 8192) : e f wqk i j = e f wqk j i := by
  unfold e
  exact Finset.sum_congr rfl fun k _ => mul_comm _ _

theorem q_real (hf : ∀ n c, ∃ r : ℝ, f n c = (r : EReal)) (hq : ∀ k c, ∃ r : ℝ, wqk k c = (r : EReal))
    (n : Fin 8192) (k : Fin 32) : ∃ r : ℝ, q f wqk n k = (r : EReal) := by
  unfold q
  refine sum_real _ _ fun c _ => ?_
  obtain ⟨a, ha⟩ := hf n c
  obtain ⟨b, hb⟩ := hq k c
  exact ⟨a * b, by rw [ha, hb, EReal.coe_mul]⟩

theorem e_real (hf : ∀ n c, ∃ r : ℝ, f n c = (r : EReal)) (hq : ∀ k c, ∃ r : ℝ, wqk k c = (r : EReal))
    (i j : Fin 8192) : ∃ r : ℝ, e f wqk i j = (r : EReal) := by
  unfold e
  refine sum_real _ _ fun k _ => ?_
  obtain ⟨a, ha⟩ := q_real f wqk hf hq i k
  obtain ⟨b, hb⟩ := q_real f wqk hf hq j k
  exact ⟨a * b, by rw [ha, hb, EReal.coe_mul]⟩

/-! ### The running statistics of a row whose energies are the reals x -/

section Row
variable (n : Fin 8192) (x : Fin 8192 → ℝ) (hx : ∀ j, e f wqk n j = (x j : EReal))
include hx

/-- One step from a real state: a real state again, its sum times the exponential of its maximum grown by the
    block's exponentials. -/
theorem statStep_real (m l : ℝ) (b : Fin 8) :
    ∃ m' l' : ℝ, statStep f wqk n ((m : EReal), (l : EReal)) b = ((m' : EReal), (l' : EReal)) ∧
      l' * Real.exp m' = l * Real.exp m + ∑ s : Fin 1024, Real.exp (x (row b s)) := by
  obtain ⟨r, hr⟩ := sup_real Finset.univ Finset.univ_nonempty (fun s : Fin 1024 => ((x (row b s) : ℝ) : EReal))
    (fun s _ => ⟨_, rfl⟩)
  refine ⟨max m r, l * Real.exp (m - max m r) + ∑ s : Fin 1024, Real.exp (x (row b s) - max m r), ?_,
    rescale_step _ _ _ _ _⟩
  simp only [statStep, hx, hr, max_coe, exp_sub_coe, ← coe_finset_sum, ← EReal.coe_mul, ← EReal.coe_add]

/-- The first step, from the maximum −∞ and the sum 0. -/
theorem statStep_init (b : Fin 8) :
    ∃ m' l' : ℝ, statStep f wqk n (⊥, 0) b = ((m' : EReal), (l' : EReal)) ∧
      l' * Real.exp m' = ∑ s : Fin 1024, Real.exp (x (row b s)) := by
  obtain ⟨r, hr⟩ := sup_real Finset.univ Finset.univ_nonempty (fun s : Fin 1024 => ((x (row b s) : ℝ) : EReal))
    (fun s _ => ⟨_, rfl⟩)
  refine ⟨r, ∑ s : Fin 1024, Real.exp (x (row b s) - r), ?_, shifted_sum _ _ _⟩
  simp only [statStep, hx, hr, max_bot_left, EReal.bot_sub, Ideal.exp_bot, mul_zero, zero_add, exp_sub_coe,
    ← coe_finset_sum]

/-- After the blocks 0 … b the state is a pair of reals (m, l) with l · exp m the sum of the exponentials of the
    energies seen so far. -/
theorem stat_real : ∀ (b : ℕ) (h : b < 8), ∃ m l : ℝ, stat f wqk n b h = ((m : EReal), (l : EReal)) ∧
    l * Real.exp m = ∑ i : Fin (b + 1), ∑ s : Fin 1024, Real.exp (x (row (upTo b h i) s))
  | 0, h => by
    obtain ⟨m, l, h1, h2⟩ := statStep_init f wqk n x hx ⟨0, h⟩
    exact ⟨m, l, h1, by rw [h2, sum_upTo_zero (fun b => ∑ s : Fin 1024, Real.exp (x (row b s)))]⟩
  | b + 1, h => by
    obtain ⟨m, l, h1, h2⟩ := stat_real b (Nat.lt_of_succ_lt h)
    obtain ⟨m', l', h1', h2'⟩ := statStep_real f wqk n x hx m l ⟨b + 1, h⟩
    refine ⟨m', l', ?_, ?_⟩
    · rw [stat, h1, h1']
    · rw [h2', h2, sum_upTo_succ (fun b => ∑ s : Fin 1024, Real.exp (x (row b s)))]

/-- The row's log-sum-exp as the kernel forms it: m + log l with l positive and l · exp m the row's sum of
    exponentials. -/
theorem lse_real : ∃ m l : ℝ, 0 < l ∧ lse f wqk n = ((m + Real.log l : ℝ) : EReal) ∧
    l * Real.exp m = ∑ j : Fin 8192, Real.exp (x j) := by
  obtain ⟨m, l, h1, h2⟩ := stat_real f wqk n x hx 7 (by omega)
  rw [sum_upTo_seven (fun b => ∑ s : Fin 1024, Real.exp (x (row b s))), sum_rows (fun j => Real.exp (x j))] at h2
  have hpos : 0 < ∑ j : Fin 8192, Real.exp (x j) :=
    Finset.sum_pos (fun j _ => Real.exp_pos _) Finset.univ_nonempty
  have hl : 0 < l := by
    rw [← h2] at hpos
    exact (mul_pos_iff_of_pos_right (Real.exp_pos m)).mp hpos
  refine ⟨m, l, hl, ?_, h2⟩
  unfold lse
  rw [h1]
  show (m : EReal) + Ideal.log (l : EReal) = _
  rw [log_coe_pos hl, ← EReal.coe_add]

/-- The reference's row maximum is a real. -/
theorem refM_real : ∃ M : ℝ, refM f wqk n = (M : EReal) := by
  obtain ⟨r, hr⟩ := sup_real Finset.univ Finset.univ_nonempty (fun j : Fin 8192 => e f wqk n j) (fun j _ => ⟨_, hx j⟩)
  exact ⟨r, by unfold refM; rw [hr, max_bot_left]⟩

/-- The reference's row sum, against a real reference point. -/
theorem refS_real (M : ℝ) (hM : refM f wqk n = (M : EReal)) :
    refS f wqk n = ((∑ j : Fin 8192, Real.exp (x j - M) : ℝ) : EReal) := by
  unfold refS
  simp only [hx, hM, exp_sub_coe, ← coe_finset_sum, zero_add]

end Row

/-! ### The weights agree, and so do the results -/

theorem weight_eq (E : Fin 8192 → Fin 8192 → ℝ) (hE : ∀ i j, e f wqk i j = (E i j : EReal)) (i j : Fin 8192) :
    Ideal.exp (e f wqk j i - lse f wqk i) = refAttn f wqk i j := by
  obtain ⟨m, l, hl, hlse, hZ⟩ := lse_real f wqk i (E i) (hE i)
  obtain ⟨M, hM⟩ := refM_real f wqk i (E i) (hE i)
  have hS := refS_real f wqk i (E i) (hE i) M hM
  have hSZ := shifted_sum Finset.univ M (E i)
  have hSpos : (∑ j : Fin 8192, Real.exp (E i j - M)) ≠ 0 :=
    (Finset.sum_pos (fun j _ => Real.exp_pos _) Finset.univ_nonempty).ne'
  unfold refAttn
  rw [e_comm f wqk j i, hlse, hS, hM, hE, exp_sub_coe, exp_sub_coe, div_coe_coe _ hSpos,
    softmax_weight _ m l M _ _ hl hZ hSZ]

/-- The accumulator after the row blocks 0 … b is the sum of their contributions. -/
theorem acc_eq (j : Fin 8192) (c : Fin 256) : ∀ (b : ℕ) (h : b < 8),
    acc f wqk wv bv j c b h = ∑ i : Fin (b + 1), contrib f wqk wv bv j c (upTo b h i)
  | 0, h => by rw [sum_upTo_zero (contrib f wqk wv bv j c), acc, zero_add]
  | b + 1, h => by rw [sum_upTo_succ (contrib f wqk wv bv j c), ← acc_eq j c b, acc]

theorem kerOut_eq_refOut
    (hf : ∀ n c, ∃ r : ℝ, f n c = (r : EReal)) (hq : ∀ k c, ∃ r : ℝ, wqk k c = (r : EReal))
    (hv : ∀ c d, ∃ r : ℝ, wv c d = (r : EReal)) (hb : ∀ c, ∃ r : ℝ, bv c = (r : EReal)) :
    ∀ j c, kerOut f wqk wv bv g j c = refOut f wqk wv bv g j c := by
  intro j c
  choose E hE using e_real f wqk hf hq
  unfold kerOut refOut
  congr 2
  rw [acc_eq, sum_upTo_seven (contrib f wqk wv bv j c)]
  unfold contrib
  rw [sum_rows (fun i => Ideal.exp (e f wqk j i - lse f wqk i) * v f wv bv i c)]
  exact Finset.sum_congr rfl fun i _ => by rw [weight_eq f wqk E hE i j]

end Cert.Math

end
-- ==== Proof.Math.Finite.lean ====
/-
  From the precondition to reals. The printed predicate is, for each of the five argument arrays, the conjunction over
  every entry x of |x| < +∞; an extended real whose absolute value is below +∞ is neither infinity, so it is a real.
-/
import proofs.«135495_j36636071035186_1_alg».proof.Defs
import Idealize.ShloMosaic.Lib.ReduceAll
import Idealize.ShloMosaic.Lib.Pipeline.Value
import Idealize.ShloMosaic.Lib.ValueIdx

noncomputable section

namespace Cert.Math

open Idealize.ShloMosaic Idealize.ShloMosaic.ValueIdx Idealize.SL.Sem

/-- The scalar shape has one index. -/
instance subsingleton_scalar_idx : Subsingleton (⟨0, ![]⟩ : Shape).Idx := ⟨fun _ _ => funext fun d => d.elim0⟩

/-- An extended real whose absolute value compares below +∞ is a real. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- One array's conjunct: if the conjunction over all entries of |x| < +∞ is true, every entry is a real. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hu ix0 = 1#1) (i : s.Idx) : ∃ r : ℝ, a i = (r : EReal) := by
  have h1 := Host.reduce_andi_all _ _ hr hu ix0 e i
  refine real_of_abs_lt_inf (a i) ?_
  have h2 : broadcastInDim s ![] hb (constant (F := Ideal) ⟨0, ![]⟩ .f32 0x7F800000#32) i
      = FloatOps.ofBits .f32 0x7F800000#32 :=
    broadcastInDim_apply _ hb _ i ix0 (fun a => a.elim0)
  rw [← h2]
  exact h1

/-- The printed predicate, all ones, makes every entry of every argument array a real. -/
theorem finite_of_fn [Cert.Pre_finite_inputs.Facts]
    (a0 : FVec Ideal Cert.Pre_finite_inputs.S8192x256 .f32) (a1 : FVec Ideal Cert.Pre_finite_inputs.S32x256 .f32)
    (a2 : FVec Ideal Cert.Pre_finite_inputs.S256x256 .f32) (a3 : FVec Ideal Cert.Pre_finite_inputs.S256 .f32)
    (a4 : FVec Ideal Cert.Pre_finite_inputs.S1 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3,
    all_real a4 _ _ _ h4⟩

/-- The idealized kernel's precondition makes every entry of its argument arrays a real, on every device. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal Cert.Pre_finite_inputs.S8192x256 .f32) i = (r : EReal))
    ∧ (∀ i, ∃ r : ℝ, (m ((c.tc : Thread Cert.KernelIdeal.nD Cert.KernelIdeal.τ).loc Cert.KernelIdeal.main_arg1)
        : FVec Ideal Cert.Pre_finite_inputs.S32x256 .f32) i = (r : EReal))
    ∧ (∀ i, ∃ r : ℝ, (m ((c.tc : Thread Cert.KernelIdeal.nD Cert.KernelIdeal.τ).loc Cert.KernelIdeal.main_arg2)
        : FVec Ideal Cert.Pre_finite_inputs.S256x256 .f32) i = (r : EReal))
    ∧ (∀ i, ∃ r : ℝ, (m ((c.tc : Thread Cert.KernelIdeal.nD Cert.KernelIdeal.τ).loc Cert.KernelIdeal.main_arg3)
        : FVec Ideal Cert.Pre_finite_inputs.S256 .f32) i = (r : EReal))
    ∧ (∀ i, ∃ r : ℝ, (m ((c.tc : Thread Cert.KernelIdeal.nD Cert.KernelIdeal.τ).loc Cert.KernelIdeal.main_arg4)
        : FVec Ideal Cert.Pre_finite_inputs.S1 .f32) i = (r : EReal)) :=
  finite_of_fn _ _ _ _ _ (h c)

end Cert.Math

end
-- ==== Proof.Math.Law.lean ====
/-
  The law under the precondition: when the printed predicate is all ones the argument arrays are real, so the
  kernel-shaped result over them is the reference result over them.
-/
import proofs.«135495_j36636071035186_1_alg».proof.Proof.Math.Online
import proofs.«135495_j36636071035186_1_alg».proof.Proof.Math.Finite

noncomputable section

namespace Cert.Math

open Idealize.ShloMosaic Idealize.ShloMosaic.ValueIdx

theorem kerOut_eq_refOut_of_fn [Cert.Pre_finite_inputs.Facts]
    (a0 : FVec Ideal Cert.Pre_finite_inputs.S8192x256 .f32) (a1 : FVec Ideal Cert.Pre_finite_inputs.S32x256 .f32)
    (a2 : FVec Ideal Cert.Pre_finite_inputs.S256x256 .f32) (a3 : FVec Ideal Cert.Pre_finite_inputs.S256 .f32)
    (a4 : FVec Ideal Cert.Pre_finite_inputs.S1 .f32)
    (h : Cert.Pre_finite_inputs.fn (F := Ideal) a0 a1 a2 a3 a4 = fun _ => 1#1) (j : Fin 8192) (c : Fin 256) :
    Cert.Spec.kerOut (fun n c => a0 (ix2 n c)) (fun k c => a1 (ix2 k c)) (fun c d => a2 (ix2 c d)) (fun c => a3 (ix1 c))
        (a4 (ix1 0)) j c
      = Cert.Spec.refOut (fun n c => a0 (ix2 n c)) (fun k c => a1 (ix2 k c)) (fun c d => a2 (ix2 c d))
        (fun c => a3 (ix1 c)) (a4 (ix1 0)) j c := by
  obtain ⟨h0, h1, h2, h3, _⟩ := finite_of_fn a0 a1 a2 a3 a4 h
  exact kerOut_eq_refOut _ _ _ _ _ (fun n c => h0 (ix2 n c)) (fun k c => h1 (ix2 k c)) (fun c d => h2 (ix2 c d))
    (fun c => h3 (ix1 c)) j c

end Cert.Math

end
-- ==== Proof.lean ====
/-
  A three-pass attention kernel against softmax attention, certified at the ideal instance (floats are extended
  reals, a change of float format is the identity).

  With q = f·Wqkᵀ (queries and keys share weights), v = f·Wvᵀ + bv and e(i,j) = ⟨q_i, q_j⟩, the reference computes
      out(j,c) = γ · Σ_i softmax_j(e)(i,j) · v(i,c) + f(j,c),
  each row's softmax against the row maximum.  The kernel computes q and v block by block (pass 0); then, for each
  block of 1024 rows, a running maximum and a rescaled running sum over eight column blocks, and stores the row's
  log-sum-exp lse(i) = m(i) + log l(i) (pass 1); then, for each block of 1024 output rows, accumulates over eight
  blocks of contracted rows the terms exp(e(j,i) − lse(i)) · v(i,c), and stores γ·acc + f (pass 2).

  The two agree on finite inputs: the running statistics after the eight blocks are the row maximum M and
  Σ_j exp(e − M) (exp(a)·exp(b) = exp(a + b)), that sum is positive, so exp(e − (M + log l)) = exp(e − M) / l is the
  softmax weight, and a sum over 8192 rows is the sum of its eight blocks.  Finiteness of the features and of the
  query/key weights is what the precondition gives and what this law uses.

  The frames (each program runs to the end, faults nowhere and leaves its arguments unchanged) come from the run of
  the program's five segments — two stretches of host operations and three kernel regions — each region's body run
  once per control case (first block, middle blocks, last block of the axis it accumulates along).
  Nothing was rewritten by the idealization, so the sanctioned-idealization conjunct is trivial.
-/
import proofs.«135495_j36636071035186_1_alg».proof.Defs
import proofs.«135495_j36636071035186_1_alg».proof.Proof.Gen.Kernel
import proofs.«135495_j36636071035186_1_alg».proof.Proof.Gen.KernelIdeal
import proofs.«135495_j36636071035186_1_alg».proof.Proof.Gen.ReferenceIdeal
import proofs.«135495_j36636071035186_1_alg».proof.Proof.Gen.Pre_finite_inputs
import proofs.«135495_j36636071035186_1_alg».proof.Proof.K.Frame
import proofs.«135495_j36636071035186_1_alg».proof.Proof.KI.Final
import proofs.«135495_j36636071035186_1_alg».proof.Proof.RefFrame
import proofs.«135495_j36636071035186_1_alg».proof.Proof.Math.RefRun
import proofs.«135495_j36636071035186_1_alg».proof.Proof.Math.Law
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs and keeps its arguments. -/
theorem frame_k : Cert.frame_Kernel := fun m ρ _ => Cert.Kernel.Hand.frame (F := Bits) m ρ
/-- The idealized kernel runs and keeps its arguments. -/
theorem frame_ki : Cert.frame_KernelIdeal := fun m ρ _ => Cert.KernelIdeal.Hand.frame (F := Ideal) m ρ
/-- The reference runs and keeps its arguments. -/
theorem frame_ri : Cert.frame_ReferenceIdeal := Cert.Proof.RefClaims.frame_ri
/-- The idealization rewrote nothing. -/
theorem preserves : Cert.preserves_Kernel_KernelIdeal := trivial

/-- From memories agreeing on the arguments both programs end at one result: the kernel's blockwise form of the
    attention is the reference's softmax form, entry by entry, on finite inputs. -/
theorem algebraic : Cert.algebraic_KernelIdeal_ReferenceIdeal := by
  intro m ρ m' ρ' hpre hagree
  refine ⟨fun c => Cert.KernelIdeal.Hand.Gout (Cert.KernelIdeal.Hand.fA m c) (Cert.KernelIdeal.Hand.wqkA m c) (Cert.KernelIdeal.Hand.wvA m c)
      (Cert.KernelIdeal.Hand.bvA m c) (Cert.KernelIdeal.Hand.gA m c), Cert.KernelIdeal.Hand.value_run m ρ, ?_⟩
  refine (θ_run Cert.ReferenceIdeal.defs _ _).mono (fun _ h c => ⟨(h c).1.trans ?_, (h c).2⟩) (Cert.Math.ref_run m' ρ')
  rw [(hagree c).1, (hagree c).2.1, (hagree c).2.2.1, (hagree c).2.2.2.1, (hagree c).2.2.2.2]
  funext i
  exact (Cert.Math.kerOut_eq_refOut_of_fn _ _ _ _ _ (hpre c) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
